-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v188)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v320) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S3x2x1600000 : Shape := ⟨3, ![3, 2, 1600000]⟩
abbrev S3x256x128 : Shape := ⟨3, ![3, 256, 128]⟩
abbrev S3x128 : Shape := ⟨2, ![3, 128]⟩
abbrev S3x128x64 : Shape := ⟨3, ![3, 128, 64]⟩
abbrev S3x64 : Shape := ⟨2, ![3, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg5 : FVec F S3x64 .f32) (main_v13 : IVec S_ 1) (main_v16 : IVec S3x128x64 1) : IVec S_ 1 :=
  let main_c_5 : IVec S_ 1 := constantI S_ 1 1#1
  let main_v17 : IVec S_ 1 := (fun x v => Host.reduce IntOp.andi x v reducesTo_S3x128x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  main_v23

def fn {F : FTy → Type} [FloatOps F] (main_arg0 : FVec F S50000x256 .f32) (main_arg1 : IVec S3x2x1600000 32) (main_arg2 : FVec F S3x256x128 .f32) (main_arg3 : FVec F S3x128 .f32) (main_arg4 : FVec F S3x128x64 .f32) (main_arg5 : FVec F S3x64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S3x256x128 .f32 := Host.absf main_arg2
  let main_cst_0 : FVec F S_ .f32 := constant S_ .f32 0x7F800000#32
  let main_v5 : FVec F S3x256x128 .f32 := broadcastInDim S3x256x128 ![] bcast_S_S3x256x128 main_cst_0
  let main_v6 : IVec S3x256x128 1 := cmpf .olt main_v4 main_v5
  let main_c_1 : IVec S_ 1 := constantI S_ 1 1#1
  let main_v7 : IVec S_ 1 := (fun x v => Host.reduce IntOp.andi x v reducesTo_S3x256x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x64 .f32 := Host.absf main_arg4
  let main_cst_4 : FVec F S_ .f32 := constant S_ .f32 0x7F800000#32
  let main_v15 : FVec F S3x128x64 .f32 := broadcastInDim S3x128x64 ![] bcast_S_S3x128x64 main_cst_4
  let main_v16 : IVec S3x128x64 1 := cmpf .olt main_v14 main_v15
  fn_part1 (F := F) main_arg5 main_v13 main_v16
-- ==== Kernel.lean ====
abbrev S50000x256 : Shape := ⟨2, ![50000, 256]⟩
abbrev S3x2x1600000 : Shape := ⟨3, ![3, 2, 1600000]⟩
abbrev S3x256x128 : Shape := ⟨3, ![3, 256, 128]⟩
abbrev S3x128 : Shape := ⟨2, ![3, 128]⟩
abbrev S3x128x64 : Shape := ⟨3, ![3, 128, 64]⟩
abbrev S3x64 : Shape := ⟨2, ![3, 64]⟩
abbrev S1x1x1600000 : Shape := ⟨3, ![1, 1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1x256x128 : Shape := ⟨3, ![1, 256, 128]⟩
abbrev S256x128 : Shape := ⟨2, ![256, 128]⟩
abbrev S50000x1 : Shape := ⟨2, ![50000, 1]⟩
abbrev S5000x256 : Shape := ⟨2, ![5000, 256]⟩
abbrev S5000x1 : Shape := ⟨2, ![5000, 1]⟩
abbrev S5000x128 : Shape := ⟨2, ![5000, 128]⟩
abbrev S1650000x128 : Shape := ⟨2, ![1650000, 128]⟩
abbrev S1x128 : Shape := ⟨2, ![1, 128]⟩
abbrev S128 : Shape := ⟨1, ![128]⟩
abbrev S50000x64 : Shape := ⟨2, ![50000, 64]⟩
abbrev S1x128x64 : Shape := ⟨3, ![1, 128, 64]⟩
abbrev S128x64 : Shape := ⟨2, ![128, 64]⟩
abbrev S5000x64 : Shape := ⟨2, ![5000, 64]⟩
abbrev S1650000x64 : Shape := ⟨2, ![1650000, 64]⟩
abbrev S1x64 : Shape := ⟨2, ![1, 64]⟩
abbrev S64 : Shape := ⟨1, ![64]⟩

abbrev nBuf : Space → Nat
  | .hbm => 229
  | .vmem => 42
  | .smem => 0
  | _ => 0

abbrev hbmTy0_0 (i : Nat) : BufTy := match i % 128 with
  | 0 => ⟨S50000x256, .f32⟩
  | 1 => ⟨S3x2x1600000, .i32⟩
  | 2 => ⟨S3x256x128, .f32⟩
  | 3 => ⟨S3x128, .f32⟩
  | 4 => ⟨S3x128x64, .f32⟩
  | 5 => ⟨S3x64, .f32⟩
  | 6 => ⟨S1x1x1600000, .i32⟩
  | 7 => ⟨S1600000, .i32⟩
  | 8 => ⟨S1x1x1600000, .i32⟩
  | 9 => ⟨S1600000, .i32⟩
  | 10 => ⟨S50000, .i32⟩
  | 11 => ⟨S1650000, .i32⟩
  | 12 => ⟨S1650000, .i32⟩
  | 13 => ⟨S_, .f32⟩
  | 14 => ⟨S1650000, .f32⟩
  | 15 => ⟨S_, .f32⟩
  | 16 => ⟨S50000, .f32⟩
  | 17 => ⟨S1650000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S50000, .f32⟩
  | 25 => ⟨S50000, .f32⟩
  | 26 => ⟨S1x1x1600000, .i32⟩
  | 27 => ⟨S1600000, .i32⟩
  | 28 => ⟨S1x1x1600000, .i32⟩
  | 29 => ⟨S1600000, .i32⟩
  | 30 => ⟨S50000, .i32⟩
  | 31 => ⟨S1650000, .i32⟩
  | 32 => ⟨S1650000, .i32⟩
  | 33 => ⟨S_, .f32⟩
  | 34 => ⟨S1650000, .f32⟩
  | 35 => ⟨S_, .f32⟩
  | 36 => ⟨S50000, .f32⟩
  | 37 => ⟨S1650000x1, .i32⟩
  | 38 => ⟨S50000, .f32⟩
  | 39 => ⟨S_, .f32⟩
  | 40 => ⟨S50000, .f32⟩
  | 41 => ⟨S50000, .i1⟩
  | 42 => ⟨S50000, .f32⟩
  | 43 => ⟨S_, .f32⟩
  | 44 => ⟨S50000, .f32⟩
  | 45 => ⟨S50000, .f32⟩
  | 46 => ⟨S1x1x1600000, .i32⟩
  | 47 => ⟨S1600000, .i32⟩
  | 48 => ⟨S1x1x1600000, .i32⟩
  | 49 => ⟨S1600000, .i32⟩
  | 50 => ⟨S50000, .i32⟩
  | 51 => ⟨S1650000, .i32⟩
  | 52 => ⟨S1650000, .i32⟩
  | 53 => ⟨S_, .f32⟩
  | 54 => ⟨S1650000, .f32⟩
  | 55 => ⟨S_, .f32⟩
  | 56 => ⟨S50000, .f32⟩
  | 57 => ⟨S1650000x1, .i32⟩
  | 58 => ⟨S50000, .f32⟩
  | 59 => ⟨S_, .f32⟩
  | 60 => ⟨S50000, .f32⟩
  | 61 => ⟨S50000, .i1⟩
  | 62 => ⟨S50000, .f32⟩
  | 63 => ⟨S_, .f32⟩
  | 64 => ⟨S50000, .f32⟩
  | 65 => ⟨S50000, .f32⟩
  | 66 => ⟨S_, .f32⟩
  | 67 => ⟨S50000x128, .f32⟩
  | 68 => ⟨S1x256x128, .f32⟩
  | 69 => ⟨S256x128, .f32⟩
  | 70 => ⟨S50000x1, .f32⟩
  | 71 => ⟨S50000x128, .f32⟩
  | 72 => ⟨S_, .i32⟩
  | 73 => ⟨S1650000, .i32⟩
  | 74 => ⟨S1650000, .i1⟩
  | 75 => ⟨S_, .i32⟩
  | 76 => ⟨S1650000, .i32⟩
  | 77 => ⟨S1650000, .i32⟩
  | 78 => ⟨S1650000, .i32⟩
  | 79 => ⟨S1650000x1, .i32⟩
  | 80 => ⟨S1650000x128, .f32⟩
  | 81 => ⟨S_, .f32⟩
  | 82 => ⟨S50000x128, .f32⟩
  | 83 => ⟨S1650000x1, .i32⟩
  | 84 => ⟨S50000x128, .f32⟩
  | 85 => ⟨S50000x1, .f32⟩
  | 86 => ⟨S50000x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S50000x128, .f32⟩
  | 94 => ⟨S1x256x128, .f32⟩
  | 95 => ⟨S256x128, .f32⟩
  | 96 => ⟨S50000x1, .f32⟩
  | 97 => ⟨S50000x128, .f32⟩
  | 98 => ⟨S_, .i32⟩
  | 99 => ⟨S1650000, .i32⟩
  | 100 => ⟨S1650000, .i1⟩
  | 101 => ⟨S_, .i32⟩
  | 102 => ⟨S1650000, .i32⟩
  | 103 => ⟨S1650000, .i32⟩
  | 104 => ⟨S1650000, .i32⟩
  | 105 => ⟨S1650000x1, .i32⟩
  | 106 => ⟨S1650000x128, .f32⟩
  | 107 => ⟨S_, .f32⟩
  | 108 => ⟨S50000x128, .f32⟩
  | 109 => ⟨S1650000x1, .i32⟩
  | 110 => ⟨S50000x128, .f32⟩
  | 111 => ⟨S50000x1, .f32⟩
  | 112 => ⟨S50000x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S50000x128, .f32⟩
  | 120 => ⟨S1x256x128, .f32⟩
  | 121 => ⟨S256x128, .f32⟩
  | 122 => ⟨S50000x1, .f32⟩
  | 123 => ⟨S50000x128, .f32⟩
  | 124 => ⟨S_, .i32⟩
  | 125 => ⟨S1650000, .i32⟩
  | 126 => ⟨S1650000, .i1⟩
  | 127 => ⟨S_, .i32⟩
  | _ => ⟨S50000x256, .f32⟩

abbrev hbmTy0_1 (i : Nat) : BufTy := match i % 128 with
  | 0 => ⟨S1650000, .i32⟩
  | 1 => ⟨S1650000, .i32⟩
  | 2 => ⟨S1650000, .i32⟩
  | 3 => ⟨S1650000x1, .i32⟩
  | 4 => ⟨S1650000x128, .f32⟩
  | 5 => ⟨S_, .f32⟩
  | 6 => ⟨S50000x128, .f32⟩
  | 7 => ⟨S1650000x1, .i32⟩
  | 8 => ⟨S50000x128, .f32⟩
  | 9 => ⟨S50000x1, .f32⟩
  | 10 => ⟨S50000x128, .f32⟩
  | 11 => ⟨S50000x128, .f32⟩
  | 12 => ⟨S1x128, .f32⟩
  | 13 => ⟨S128, .f32⟩
  | 14 => ⟨S1x128, .f32⟩
  | 15 => ⟨S50000x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S_, .f32⟩
  | 22 => ⟨S50000x64, .f32⟩
  | 23 => ⟨S1x128x64, .f32⟩
  | 24 => ⟨S128x64, .f32⟩
  | 25 => ⟨S50000x1, .f32⟩
  | 26 => ⟨S50000x64, .f32⟩
  | 27 => ⟨S_, .i32⟩
  | 28 => ⟨S1650000, .i32⟩
  | 29 => ⟨S1650000, .i1⟩
  | 30 => ⟨S_, .i32⟩
  | 31 => ⟨S1650000, .i32⟩
  | 32 => ⟨S1650000, .i32⟩
  | 33 => ⟨S1650000, .i32⟩
  | 34 => ⟨S1650000x1, .i32⟩
  | 35 => ⟨S1650000x64, .f32⟩
  | 36 => ⟨S_, .f32⟩
  | 37 => ⟨S50000x64, .f32⟩
  | 38 => ⟨S1650000x1, .i32⟩
  | 39 => ⟨S50000x64, .f32⟩
  | 40 => ⟨S50000x1, .f32⟩
  | 41 => ⟨S50000x64, .f32⟩
  | 42 => ⟨S50000x64, .f32⟩
  | 43 => ⟨S1x64, .f32⟩
  | 44 => ⟨S64, .f32⟩
  | 45 => ⟨S1x64, .f32⟩
  | 46 => ⟨S50000x64, .f32⟩
  | 47 => ⟨S50000x64, .f32⟩
  | 48 => ⟨S50000x64, .f32⟩
  | 49 => ⟨S1x128x64, .f32⟩
  | 50 => ⟨S128x64, .f32⟩
  | 51 => ⟨S50000x1, .f32⟩
  | 52 => ⟨S50000x64, .f32⟩
  | 53 => ⟨S_, .i32⟩
  | 54 => ⟨S1650000, .i32⟩
  | 55 => ⟨S1650000, .i1⟩
  | 56 => ⟨S_, .i32⟩
  | 57 => ⟨S1650000, .i32⟩
  | 58 => ⟨S1650000, .i32⟩
  | 59 => ⟨S1650000, .i32⟩
  | 60 => ⟨S1650000x1, .i32⟩
  | 61 => ⟨S1650000x64, .f32⟩
  | 62 => ⟨S_, .f32⟩
  | 63 => ⟨S50000x64, .f32⟩
  | 64 => ⟨S1650000x1, .i32⟩
  | 65 => ⟨S50000x64, .f32⟩
  | 66 => ⟨S50000x1, .f32⟩
  | 67 => ⟨S50000x64, .f32⟩
  | 68 => ⟨S50000x64, .f32⟩
  | 69 => ⟨S1x64, .f32⟩
  | 70 => ⟨S64, .f32⟩
  | 71 => ⟨S1x64, .f32⟩
  | 72 => ⟨S50000x64, .f32⟩
  | 73 => ⟨S50000x64, .f32⟩
  | 74 => ⟨S50000x64, .f32⟩
  | 75 => ⟨S1x128x64, .f32⟩
  | 76 => ⟨S128x64, .f32⟩
  | 77 => ⟨S50000x1, .f32⟩
  | 78 => ⟨S50000x64, .f32⟩
  | 79 => ⟨S_, .i32⟩
  | 80 => ⟨S1650000, .i32⟩
  | 81 => ⟨S1650000, .i1⟩
  | 82 => ⟨S_, .i32⟩
  | 83 => ⟨S1650000, .i32⟩
  | 84 => ⟨S1650000, .i32⟩
  | 85 => ⟨S1650000, .i32⟩
  | 86 => ⟨S1650000x1, .i32⟩
  | 87 => ⟨S1650000x64, .f32⟩
  | 88 => ⟨S_, .f32⟩
  | 89 => ⟨S50000x64, .f32⟩
  | 90 => ⟨S1650000x1, .i32⟩
  | 91 => ⟨S50000x64, .f32⟩
  | 92 => ⟨S50000x1, .f32⟩
  | 93 => ⟨S50000x64, .f32⟩
  | 94 => ⟨S50000x64, .f32⟩
  | 95 => ⟨S1x64, .f32⟩
  | 96 => ⟨S64, .f32⟩
  | 97 => ⟨S1x64, .f32⟩
  | 98 => ⟨S50000x64, .f32⟩
  | 99 => ⟨S50000x64, .f32⟩
  | 100 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x256, .f32⟩
  | .local _ .vmem, ⟨8, _⟩ => ⟨S5000x256, .f32⟩
  | .local _ .vmem, ⟨9, _⟩ => ⟨S256x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x256, .f32⟩
  | .local _ .vmem, ⟨15, _⟩ => ⟨S5000x256, .f32⟩
  | .local _ .vmem, ⟨16, _⟩ => ⟨S256x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x64, .f32⟩
  | .local _ .vmem, ⟨24, _⟩ => ⟨S5000x1, .f32⟩
  | .local _ .vmem, ⟨25, _⟩ => ⟨S5000x1, .f32⟩
  | .local _ .vmem, ⟨26, _⟩ => ⟨S5000x64, .f32⟩
  | .local _ .vmem, ⟨27, _⟩ => ⟨S5000x64, .f32⟩
  | .local _ .vmem, ⟨28, _⟩ => ⟨S5000x128, .f32⟩
  | .local _ .vmem, ⟨29, _⟩ => ⟨S5000x128, .f32⟩
  | .local _ .vmem, ⟨30, _⟩ => ⟨S128x64, .f32⟩
  | .local _ .vmem, ⟨31, _⟩ => ⟨S5000x1, .f32⟩
  | .local _ .vmem, ⟨32, _⟩ => ⟨S5000x1, .f32⟩
  | .local _ .vmem, ⟨33, _⟩ => ⟨S5000x64, .f32⟩
  | .local _ .vmem, ⟨34, _⟩ => ⟨S5000x64, .f32⟩
  | .local _ .vmem, ⟨35, _⟩ => ⟨S5000x128, .f32⟩
  | .local _ .vmem, ⟨36, _⟩ => ⟨S5000x128, .f32⟩
  | .local _ .vmem, ⟨37, _⟩ => ⟨S128x64, .f32⟩
  | .local _ .vmem, ⟨38, _⟩ => ⟨S5000x1, .f32⟩
  | .local _ .vmem, ⟨39, _⟩ => ⟨S5000x1, .f32⟩
  | .local _ .vmem, ⟨40, _⟩ => ⟨S5000x64, .f32⟩
  | .local _ .vmem, ⟨41, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_14 : Ref sig .tc := ⟨.hbm, 98, rfl⟩
abbrev main_v76 : Ref sig .tc := ⟨.hbm, 99, rfl⟩
abbrev main_v77 : Ref sig .tc := ⟨.hbm, 100, rfl⟩
abbrev main_c_15 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_16 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_c_17 : Ref sig .tc := ⟨.hbm, 124, rfl⟩
abbrev main_v99 : Ref sig .tc := ⟨.hbm, 125, rfl⟩
abbrev main_v100 : Ref sig .tc := ⟨.hbm, 126, rfl⟩
abbrev main_c_18 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_19 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_call3_cst : Ref sig .tc := ⟨.hbm, 146, rfl⟩
abbrev main_call3_v0 : Ref sig .tc := ⟨.hbm, 147, rfl⟩
abbrev main_v118 : Ref sig .tc := ⟨.hbm, 148, rfl⟩
abbrev main_cst_20 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_c_21 : Ref sig .tc := ⟨.hbm, 155, rfl⟩
abbrev main_v124 : Ref sig .tc := ⟨.hbm, 156, rfl⟩
abbrev main_v125 : Ref sig .tc := ⟨.hbm, 157, rfl⟩
abbrev main_c_22 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_23 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_c_24 : Ref sig .tc := ⟨.hbm, 181, rfl⟩
abbrev main_v147 : Ref sig .tc := ⟨.hbm, 182, rfl⟩
abbrev main_v148 : Ref sig .tc := ⟨.hbm, 183, rfl⟩
abbrev main_c_25 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_cst_26 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_c_27 : Ref sig .tc := ⟨.hbm, 207, rfl⟩
abbrev main_v170 : Ref sig .tc := ⟨.hbm, 208, rfl⟩
abbrev main_v171 : Ref sig .tc := ⟨.hbm, 209, rfl⟩
abbrev main_c_28 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_cst_29 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S3x2x1600000_S1x1x1600000_0_0_0 : S3x2x1600000.Slices ![0, 0, 0] S1x1x1600000
  shapeCasts_S1x1x1600000_S1600000 : S1x1x1600000.ShapeCasts S1600000
  slices_S3x2x1600000_S1x1x1600000_0_1_0 : S3x2x1600000.Slices ![0, 1, 0] S1x1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  slices_S3x2x1600000_S1x1x1600000_1_0_0 : S3x2x1600000.Slices ![1, 0, 0] S1x1x1600000
  slices_S3x2x1600000_S1x1x1600000_1_1_0 : S3x2x1600000.Slices ![1, 1, 0] S1x1x1600000
  slices_S3x2x1600000_S1x1x1600000_2_0_0 : S3x2x1600000.Slices ![2, 0, 0] S1x1x1600000
  slices_S3x2x1600000_S1x1x1600000_2_1_0 : S3x2x1600000.Slices ![2, 1, 0] S1x1x1600000
  bcast_S_S50000x128 : S_.BroadcastsInDim S50000x128 (![] : Fin 0 → Fin S50000x128.rank)
  slices_S3x256x128_S1x256x128_0_0_0 : S3x256x128.Slices ![0, 0, 0] S1x256x128
  shapeCasts_S1x256x128_S256x128 : S1x256x128.ShapeCasts S256x128
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x256x128_S1x256x128_1_0_0 : S3x256x128.Slices ![1, 0, 0] S1x256x128
  slices_S3x128_S1x128_1_0 : S3x128.Slices ![1, 0] S1x128
  slices_S3x256x128_S1x256x128_2_0_0 : S3x256x128.Slices ![2, 0, 0] S1x256x128
  slices_S3x128_S1x128_2_0 : S3x128.Slices ![2, 0] S1x128
  bcast_S_S50000x64 : S_.BroadcastsInDim S50000x64 (![] : Fin 0 → Fin S50000x64.rank)
  slices_S3x128x64_S1x128x64_0_0_0 : S3x128x64.Slices ![0, 0, 0] S1x128x64
  shapeCasts_S1x128x64_S128x64 : S1x128x64.ShapeCasts S128x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S50000x1_S50000x64_0_1 : S50000x1.BroadcastsInDim S50000x64 (![0, 1] : Fin 2 → Fin S50000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x128x64_S1x128x64_1_0_0 : S3x128x64.Slices ![1, 0, 0] S1x128x64
  slices_S3x64_S1x64_1_0 : S3x64.Slices ![1, 0] S1x64
  slices_S3x128x64_S1x128x64_2_0_0 : S3x128x64.Slices ![2, 0, 0] S1x128x64
  slices_S3x64_S1x64_2_0 : S3x64.Slices ![2, 0] S1x64
  scatter_S50000_S1650000x1_S1650000_n_0_0_1_wf : ScatterDims.WF S50000 S1650000x1 S1650000 [] [0] [0] 1
  dot_S5000x256_S256x128_S5000x128_1_0_0_1_n_n_wf : DotDims.WF S5000x256 S256x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v75) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v96) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v97) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v98) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v118) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v121) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v122) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v123) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v118) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v144) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v145) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v146) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v118) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v167) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v168) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v169) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x256 : Shape := ⟨2, ![50000, 256]⟩
abbrev S3x2x1600000 : Shape := ⟨3, ![3, 2, 1600000]⟩
abbrev S3x256x128 : Shape := ⟨3, ![3, 256, 128]⟩
abbrev S3x128 : Shape := ⟨2, ![3, 128]⟩
abbrev S3x128x64 : Shape := ⟨3, ![3, 128, 64]⟩
abbrev S3x64 : Shape := ⟨2, ![3, 64]⟩
abbrev S_ : Shape := ⟨0, ![]⟩
abbrev S50000x128 : Shape := ⟨2, ![50000, 128]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S1x1x1600000 : Shape := ⟨3, ![1, 1, 1600000]⟩
abbrev S1600000 : Shape := ⟨1, ![1600000]⟩
abbrev S50000 : Shape := ⟨1, ![50000]⟩
abbrev S1650000 : Shape := ⟨1, ![1650000]⟩
abbrev S1650000x1 : Shape := ⟨2, ![1650000, 1]⟩
abbrev S1650000x128 : Shape := ⟨2, ![1650000, 128]⟩
abbrev S50000x64 : Shape := ⟨2, ![50000, 64]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S1650000x64 : Shape := ⟨2, ![1650000, 64]⟩

abbrev nBuf : Space → Nat
  | .hbm => 397
  | .vmem => 0
  | .smem => 0
  | _ => 0

abbrev hbmTy0_0 (i : Nat) : BufTy := match i % 128 with
  | 0 => ⟨S50000x256, .f32⟩
  | 1 => ⟨S3x2x1600000, .i32⟩
  | 2 => ⟨S3x256x128, .f32⟩
  | 3 => ⟨S3x128, .f32⟩
  | 4 => ⟨S3x128x64, .f32⟩
  | 5 => ⟨S3x64, .f32⟩
  | 6 => ⟨S_, .f32⟩
  | 7 => ⟨S50000x128, .f32⟩
  | 8 => ⟨S1x256x128, .f32⟩
  | 9 => ⟨S256x128, .f32⟩
  | 10 => ⟨S1x128, .f32⟩
  | 11 => ⟨S128, .f32⟩
  | 12 => ⟨S1x1x1600000, .i32⟩
  | 13 => ⟨S1600000, .i32⟩
  | 14 => ⟨S1x1x1600000, .i32⟩
  | 15 => ⟨S1600000, .i32⟩
  | 16 => ⟨S50000, .i32⟩
  | 17 => ⟨S1650000, .i32⟩
  | 18 => ⟨S1650000, .i32⟩
  | 19 => ⟨S_, .f32⟩
  | 20 => ⟨S1650000, .f32⟩
  | 21 => ⟨S_, .f32⟩
  | 22 => ⟨S50000, .f32⟩
  | 23 => ⟨S1650000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S50000, .f32⟩
  | 31 => ⟨S50000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S50000x128, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000x128, .f32⟩
  | 61 => ⟨S1650000x1, .f32⟩
  | 62 => ⟨S1650000x128, .f32⟩
  | 63 => ⟨S1650000x128, .f32⟩
  | 64 => ⟨S_, .f32⟩
  | 65 => ⟨S50000x128, .f32⟩
  | 66 => ⟨S1650000x1, .i32⟩
  | 67 => ⟨S50000x128, .f32⟩
  | 68 => ⟨S1x128, .f32⟩
  | 69 => ⟨S50000x128, .f32⟩
  | 70 => ⟨S50000x128, .f32⟩
  | 71 => ⟨S50000x128, .f32⟩
  | 72 => ⟨S1x256x128, .f32⟩
  | 73 => ⟨S256x128, .f32⟩
  | 74 => ⟨S1x128, .f32⟩
  | 75 => ⟨S128, .f32⟩
  | 76 => ⟨S1x1x1600000, .i32⟩
  | 77 => ⟨S1600000, .i32⟩
  | 78 => ⟨S1x1x1600000, .i32⟩
  | 79 => ⟨S1600000, .i32⟩
  | 80 => ⟨S50000, .i32⟩
  | 81 => ⟨S1650000, .i32⟩
  | 82 => ⟨S1650000, .i32⟩
  | 83 => ⟨S_, .f32⟩
  | 84 => ⟨S1650000, .f32⟩
  | 85 => ⟨S_, .f32⟩
  | 86 => ⟨S50000, .f32⟩
  | 87 => ⟨S1650000x1, .i32⟩
  | 88 => ⟨S50000, .f32⟩
  | 89 => ⟨S_, .f32⟩
  | 90 => ⟨S50000, .f32⟩
  | 91 => ⟨S50000, .i1⟩
  | 92 => ⟨S50000, .f32⟩
  | 93 => ⟨S_, .f32⟩
  | 94 => ⟨S50000, .f32⟩
  | 95 => ⟨S50000, .f32⟩
  | 96 => ⟨S_, .i32⟩
  | 97 => ⟨S1650000, .i32⟩
  | 98 => ⟨S1650000, .i1⟩
  | 99 => ⟨S_, .i32⟩
  | 100 => ⟨S1650000, .i32⟩
  | 101 => ⟨S1650000, .i32⟩
  | 102 => ⟨S1650000, .i32⟩
  | 103 => ⟨S1650000x1, .i32⟩
  | 104 => ⟨S1650000, .f32⟩
  | 105 => ⟨S_, .i32⟩
  | 106 => ⟨S1650000, .i32⟩
  | 107 => ⟨S1650000, .i1⟩
  | 108 => ⟨S_, .i32⟩
  | 109 => ⟨S1650000, .i32⟩
  | 110 => ⟨S1650000, .i32⟩
  | 111 => ⟨S1650000, .i32⟩
  | 112 => ⟨S1650000x1, .i32⟩
  | 113 => ⟨S1650000, .f32⟩
  | 114 => ⟨S1650000, .f32⟩
  | 115 => ⟨S50000x128, .f32⟩
  | 116 => ⟨S_, .i32⟩
  | 117 => ⟨S1650000, .i32⟩
  | 118 => ⟨S1650000, .i1⟩
  | 119 => ⟨S_, .i32⟩
  | 120 => ⟨S1650000, .i32⟩
  | 121 => ⟨S1650000, .i32⟩
  | 122 => ⟨S1650000, .i32⟩
  | 123 => ⟨S1650000x1, .i32⟩
  | 124 => ⟨S1650000x128, .f32⟩
  | 125 => ⟨S1650000x1, .f32⟩
  | 126 => ⟨S1650000x128, .f32⟩
  | 127 => ⟨S1650000x128, .f32⟩
  | _ => ⟨S50000x256, .f32⟩

abbrev hbmTy0_1 (i : Nat) : BufTy := match i % 128 with
  | 0 => ⟨S_, .f32⟩
  | 1 => ⟨S50000x128, .f32⟩
  | 2 => ⟨S1650000x1, .i32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S1x256x128, .f32⟩
  | 9 => ⟨S256x128, .f32⟩
  | 10 => ⟨S1x128, .f32⟩
  | 11 => ⟨S128, .f32⟩
  | 12 => ⟨S1x1x1600000, .i32⟩
  | 13 => ⟨S1600000, .i32⟩
  | 14 => ⟨S1x1x1600000, .i32⟩
  | 15 => ⟨S1600000, .i32⟩
  | 16 => ⟨S50000, .i32⟩
  | 17 => ⟨S1650000, .i32⟩
  | 18 => ⟨S1650000, .i32⟩
  | 19 => ⟨S_, .f32⟩
  | 20 => ⟨S1650000, .f32⟩
  | 21 => ⟨S_, .f32⟩
  | 22 => ⟨S50000, .f32⟩
  | 23 => ⟨S1650000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S50000, .f32⟩
  | 31 => ⟨S50000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S50000x128, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000x128, .f32⟩
  | 61 => ⟨S1650000x1, .f32⟩
  | 62 => ⟨S1650000x128, .f32⟩
  | 63 => ⟨S1650000x128, .f32⟩
  | 64 => ⟨S_, .f32⟩
  | 65 => ⟨S50000x128, .f32⟩
  | 66 => ⟨S1650000x1, .i32⟩
  | 67 => ⟨S50000x128, .f32⟩
  | 68 => ⟨S1x128, .f32⟩
  | 69 => ⟨S50000x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S50000x64, .f32⟩
  | 77 => ⟨S1x128x64, .f32⟩
  | 78 => ⟨S128x64, .f32⟩
  | 79 => ⟨S1x64, .f32⟩
  | 80 => ⟨S64, .f32⟩
  | 81 => ⟨S1x1x1600000, .i32⟩
  | 82 => ⟨S1600000, .i32⟩
  | 83 => ⟨S1x1x1600000, .i32⟩
  | 84 => ⟨S1600000, .i32⟩
  | 85 => ⟨S50000, .i32⟩
  | 86 => ⟨S1650000, .i32⟩
  | 87 => ⟨S1650000, .i32⟩
  | 88 => ⟨S_, .f32⟩
  | 89 => ⟨S1650000, .f32⟩
  | 90 => ⟨S_, .f32⟩
  | 91 => ⟨S50000, .f32⟩
  | 92 => ⟨S1650000x1, .i32⟩
  | 93 => ⟨S50000, .f32⟩
  | 94 => ⟨S_, .f32⟩
  | 95 => ⟨S50000, .f32⟩
  | 96 => ⟨S50000, .i1⟩
  | 97 => ⟨S50000, .f32⟩
  | 98 => ⟨S_, .f32⟩
  | 99 => ⟨S50000, .f32⟩
  | 100 => ⟨S50000, .f32⟩
  | 101 => ⟨S_, .i32⟩
  | 102 => ⟨S1650000, .i32⟩
  | 103 => ⟨S1650000, .i1⟩
  | 104 => ⟨S_, .i32⟩
  | 105 => ⟨S1650000, .i32⟩
  | 106 => ⟨S1650000, .i32⟩
  | 107 => ⟨S1650000, .i32⟩
  | 108 => ⟨S1650000x1, .i32⟩
  | 109 => ⟨S1650000, .f32⟩
  | 110 => ⟨S_, .i32⟩
  | 111 => ⟨S1650000, .i32⟩
  | 112 => ⟨S1650000, .i1⟩
  | 113 => ⟨S_, .i32⟩
  | 114 => ⟨S1650000, .i32⟩
  | 115 => ⟨S1650000, .i32⟩
  | 116 => ⟨S1650000, .i32⟩
  | 117 => ⟨S1650000x1, .i32⟩
  | 118 => ⟨S1650000, .f32⟩
  | 119 => ⟨S1650000, .f32⟩
  | 120 => ⟨S50000x64, .f32⟩
  | 121 => ⟨S_, .i32⟩
  | 122 => ⟨S1650000, .i32⟩
  | 123 => ⟨S1650000, .i1⟩
  | 124 => ⟨S_, .i32⟩
  | 125 => ⟨S1650000, .i32⟩
  | 126 => ⟨S1650000, .i32⟩
  | 127 => ⟨S1650000, .i32⟩
  | _ => ⟨S50000x256, .f32⟩

abbrev hbmTy0_2 (i : Nat) : BufTy := match i % 128 with
  | 0 => ⟨S1650000x1, .i32⟩
  | 1 => ⟨S1650000x64, .f32⟩
  | 2 => ⟨S1650000x1, .f32⟩
  | 3 => ⟨S1650000x64, .f32⟩
  | 4 => ⟨S1650000x64, .f32⟩
  | 5 => ⟨S_, .f32⟩
  | 6 => ⟨S50000x64, .f32⟩
  | 7 => ⟨S1650000x1, .i32⟩
  | 8 => ⟨S50000x64, .f32⟩
  | 9 => ⟨S1x64, .f32⟩
  | 10 => ⟨S50000x64, .f32⟩
  | 11 => ⟨S50000x64, .f32⟩
  | 12 => ⟨S50000x64, .f32⟩
  | 13 => ⟨S1x128x64, .f32⟩
  | 14 => ⟨S128x64, .f32⟩
  | 15 => ⟨S1x64, .f32⟩
  | 16 => ⟨S64, .f32⟩
  | 17 => ⟨S1x1x1600000, .i32⟩
  | 18 => ⟨S1600000, .i32⟩
  | 19 => ⟨S1x1x1600000, .i32⟩
  | 20 => ⟨S1600000, .i32⟩
  | 21 => ⟨S50000, .i32⟩
  | 22 => ⟨S1650000, .i32⟩
  | 23 => ⟨S1650000, .i32⟩
  | 24 => ⟨S_, .f32⟩
  | 25 => ⟨S1650000, .f32⟩
  | 26 => ⟨S_, .f32⟩
  | 27 => ⟨S50000, .f32⟩
  | 28 => ⟨S1650000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S50000, .f32⟩
  | 36 => ⟨S50000, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000, .f32⟩
  | 46 => ⟨S_, .i32⟩
  | 47 => ⟨S1650000, .i32⟩
  | 48 => ⟨S1650000, .i1⟩
  | 49 => ⟨S_, .i32⟩
  | 50 => ⟨S1650000, .i32⟩
  | 51 => ⟨S1650000, .i32⟩
  | 52 => ⟨S1650000, .i32⟩
  | 53 => ⟨S1650000x1, .i32⟩
  | 54 => ⟨S1650000, .f32⟩
  | 55 => ⟨S1650000, .f32⟩
  | 56 => ⟨S50000x64, .f32⟩
  | 57 => ⟨S_, .i32⟩
  | 58 => ⟨S1650000, .i32⟩
  | 59 => ⟨S1650000, .i1⟩
  | 60 => ⟨S_, .i32⟩
  | 61 => ⟨S1650000, .i32⟩
  | 62 => ⟨S1650000, .i32⟩
  | 63 => ⟨S1650000, .i32⟩
  | 64 => ⟨S1650000x1, .i32⟩
  | 65 => ⟨S1650000x64, .f32⟩
  | 66 => ⟨S1650000x1, .f32⟩
  | 67 => ⟨S1650000x64, .f32⟩
  | 68 => ⟨S1650000x64, .f32⟩
  | 69 => ⟨S_, .f32⟩
  | 70 => ⟨S50000x64, .f32⟩
  | 71 => ⟨S1650000x1, .i32⟩
  | 72 => ⟨S50000x64, .f32⟩
  | 73 => ⟨S1x64, .f32⟩
  | 74 => ⟨S50000x64, .f32⟩
  | 75 => ⟨S50000x64, .f32⟩
  | 76 => ⟨S50000x64, .f32⟩
  | 77 => ⟨S1x128x64, .f32⟩
  | 78 => ⟨S128x64, .f32⟩
  | 79 => ⟨S1x64, .f32⟩
  | 80 => ⟨S64, .f32⟩
  | 81 => ⟨S1x1x1600000, .i32⟩
  | 82 => ⟨S1600000, .i32⟩
  | 83 => ⟨S1x1x1600000, .i32⟩
  | 84 => ⟨S1600000, .i32⟩
  | 85 => ⟨S50000, .i32⟩
  | 86 => ⟨S1650000, .i32⟩
  | 87 => ⟨S1650000, .i32⟩
  | 88 => ⟨S_, .f32⟩
  | 89 => ⟨S1650000, .f32⟩
  | 90 => ⟨S_, .f32⟩
  | 91 => ⟨S50000, .f32⟩
  | 92 => ⟨S1650000x1, .i32⟩
  | 93 => ⟨S50000, .f32⟩
  | 94 => ⟨S_, .f32⟩
  | 95 => ⟨S50000, .f32⟩
  | 96 => ⟨S50000, .i1⟩
  | 97 => ⟨S50000, .f32⟩
  | 98 => ⟨S_, .f32⟩
  | 99 => ⟨S50000, .f32⟩
  | 100 => ⟨S50000, .f32⟩
  | 101 => ⟨S_, .i32⟩
  | 102 => ⟨S1650000, .i32⟩
  | 103 => ⟨S1650000, .i1⟩
  | 104 => ⟨S_, .i32⟩
  | 105 => ⟨S1650000, .i32⟩
  | 106 => ⟨S1650000, .i32⟩
  | 107 => ⟨S1650000, .i32⟩
  | 108 => ⟨S1650000x1, .i32⟩
  | 109 => ⟨S1650000, .f32⟩
  | 110 => ⟨S_, .i32⟩
  | 111 => ⟨S1650000, .i32⟩
  | 112 => ⟨S1650000, .i1⟩
  | 113 => ⟨S_, .i32⟩
  | 114 => ⟨S1650000, .i32⟩
  | 115 => ⟨S1650000, .i32⟩
  | 116 => ⟨S1650000, .i32⟩
  | 117 => ⟨S1650000x1, .i32⟩
  | 118 => ⟨S1650000, .f32⟩
  | 119 => ⟨S1650000, .f32⟩
  | 120 => ⟨S50000x64, .f32⟩
  | 121 => ⟨S_, .i32⟩
  | 122 => ⟨S1650000, .i32⟩
  | 123 => ⟨S1650000, .i1⟩
  | 124 => ⟨S_, .i32⟩
  | 125 => ⟨S1650000, .i32⟩
  | 126 => ⟨S1650000, .i32⟩
  | 127 => ⟨S1650000, .i32⟩
  | _ => ⟨S50000x256, .f32⟩

abbrev hbmTy0_3 (i : Nat) : BufTy := match i % 128 with
  | 0 => ⟨S1650000x1, .i32⟩
  | 1 => ⟨S1650000x64, .f32⟩
  | 2 => ⟨S1650000x1, .f32⟩
  | 3 => ⟨S1650000x64, .f32⟩
  | 4 => ⟨S1650000x64, .f32⟩
  | 5 => ⟨S_, .f32⟩
  | 6 => ⟨S50000x64, .f32⟩
  | 7 => ⟨S1650000x1, .i32⟩
  | 8 => ⟨S50000x64, .f32⟩
  | 9 => ⟨S1x64, .f32⟩
  | 10 => ⟨S50000x64, .f32⟩
  | 11 => ⟨S50000x64, .f32⟩
  | 12 => ⟨S50000x64, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_10 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_13 : Ref sig .tc := ⟨.hbm, 93, rfl⟩
abbrev main_v72 : Ref sig .tc := ⟨.hbm, 94, rfl⟩
abbrev main_v73 : Ref sig .tc := ⟨.hbm, 95, rfl⟩
abbrev main_c_14 : Ref sig .tc := ⟨.hbm, 96, rfl⟩
abbrev main_v74 : Ref sig .tc := ⟨.hbm, 97, rfl⟩
abbrev main_v75 : Ref sig .tc := ⟨.hbm, 98, rfl⟩
abbrev main_c_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_16 : Ref sig .tc := ⟨.hbm, 105, rfl⟩
abbrev main_v81 : Ref sig .tc := ⟨.hbm, 106, rfl⟩
abbrev main_v82 : Ref sig .tc := ⟨.hbm, 107, rfl⟩
abbrev main_c_17 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_18 : Ref sig .tc := ⟨.hbm, 116, rfl⟩
abbrev main_v90 : Ref sig .tc := ⟨.hbm, 117, rfl⟩
abbrev main_v91 : Ref sig .tc := ⟨.hbm, 118, rfl⟩
abbrev main_c_19 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_20 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_21 : Ref sig .tc := ⟨.hbm, 147, rfl⟩
abbrev main_v118 : Ref sig .tc := ⟨.hbm, 148, rfl⟩
abbrev main_cst_22 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_cst_23 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_24 : Ref sig .tc := ⟨.hbm, 157, rfl⟩
abbrev main_v125 : Ref sig .tc := ⟨.hbm, 158, rfl⟩
abbrev main_v126 : Ref sig .tc := ⟨.hbm, 159, rfl⟩
abbrev main_c_25 : Ref sig .tc := ⟨.hbm, 160, rfl⟩
abbrev main_v127 : Ref sig .tc := ⟨.hbm, 161, rfl⟩
abbrev main_v128 : Ref sig .tc := ⟨.hbm, 162, rfl⟩
abbrev main_c_26 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_c_27 : Ref sig .tc := ⟨.hbm, 169, rfl⟩
abbrev main_v134 : Ref sig .tc := ⟨.hbm, 170, rfl⟩
abbrev main_v135 : Ref sig .tc := ⟨.hbm, 171, rfl⟩
abbrev main_c_28 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_c_29 : Ref sig .tc := ⟨.hbm, 180, rfl⟩
abbrev main_v143 : Ref sig .tc := ⟨.hbm, 181, rfl⟩
abbrev main_v144 : Ref sig .tc := ⟨.hbm, 182, rfl⟩
abbrev main_c_30 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_31 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_call3_cst : Ref sig .tc := ⟨.hbm, 200, rfl⟩
abbrev main_call3_v0 : Ref sig .tc := ⟨.hbm, 201, rfl⟩
abbrev main_v160 : Ref sig .tc := ⟨.hbm, 202, rfl⟩
abbrev main_cst_32 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_cst_33 : Ref sig .tc := ⟨.hbm, 216, rfl⟩
abbrev main_v173 : Ref sig .tc := ⟨.hbm, 217, rfl⟩
abbrev main_cst_34 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_35 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_cst_36 : Ref sig .tc := ⟨.hbm, 226, rfl⟩
abbrev main_v180 : Ref sig .tc := ⟨.hbm, 227, rfl⟩
abbrev main_v181 : Ref sig .tc := ⟨.hbm, 228, rfl⟩
abbrev main_c_37 : Ref sig .tc := ⟨.hbm, 229, rfl⟩
abbrev main_v182 : Ref sig .tc := ⟨.hbm, 230, rfl⟩
abbrev main_v183 : Ref sig .tc := ⟨.hbm, 231, rfl⟩
abbrev main_c_38 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_c_39 : Ref sig .tc := ⟨.hbm, 238, rfl⟩
abbrev main_v189 : Ref sig .tc := ⟨.hbm, 239, rfl⟩
abbrev main_v190 : Ref sig .tc := ⟨.hbm, 240, rfl⟩
abbrev main_c_40 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_c_41 : Ref sig .tc := ⟨.hbm, 249, rfl⟩
abbrev main_v198 : Ref sig .tc := ⟨.hbm, 250, rfl⟩
abbrev main_v199 : Ref sig .tc := ⟨.hbm, 251, rfl⟩
abbrev main_c_42 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_cst_43 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_cst_44 : Ref sig .tc := ⟨.hbm, 280, rfl⟩
abbrev main_v226 : Ref sig .tc := ⟨.hbm, 281, rfl⟩
abbrev main_cst_45 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_cst_46 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_cst_47 : Ref sig .tc := ⟨.hbm, 290, rfl⟩
abbrev main_v233 : Ref sig .tc := ⟨.hbm, 291, rfl⟩
abbrev main_v234 : Ref sig .tc := ⟨.hbm, 292, rfl⟩
abbrev main_c_48 : Ref sig .tc := ⟨.hbm, 293, rfl⟩
abbrev main_v235 : Ref sig .tc := ⟨.hbm, 294, rfl⟩
abbrev main_v236 : Ref sig .tc := ⟨.hbm, 295, rfl⟩
abbrev main_c_49 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_c_50 : Ref sig .tc := ⟨.hbm, 302, rfl⟩
abbrev main_v242 : Ref sig .tc := ⟨.hbm, 303, rfl⟩
abbrev main_v243 : Ref sig .tc := ⟨.hbm, 304, rfl⟩
abbrev main_c_51 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_c_52 : Ref sig .tc := ⟨.hbm, 313, rfl⟩
abbrev main_v251 : Ref sig .tc := ⟨.hbm, 314, rfl⟩
abbrev main_v252 : Ref sig .tc := ⟨.hbm, 315, rfl⟩
abbrev main_c_53 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_cst_54 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_cst_55 : Ref sig .tc := ⟨.hbm, 344, rfl⟩
abbrev main_v279 : Ref sig .tc := ⟨.hbm, 345, rfl⟩
abbrev main_cst_56 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_cst_57 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_cst_58 : Ref sig .tc := ⟨.hbm, 354, rfl⟩
abbrev main_v286 : Ref sig .tc := ⟨.hbm, 355, rfl⟩
abbrev main_v287 : Ref sig .tc := ⟨.hbm, 356, rfl⟩
abbrev main_c_59 : Ref sig .tc := ⟨.hbm, 357, rfl⟩
abbrev main_v288 : Ref sig .tc := ⟨.hbm, 358, rfl⟩
abbrev main_v289 : Ref sig .tc := ⟨.hbm, 359, rfl⟩
abbrev main_c_60 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_c_61 : Ref sig .tc := ⟨.hbm, 366, rfl⟩
abbrev main_v295 : Ref sig .tc := ⟨.hbm, 367, rfl⟩
abbrev main_v296 : Ref sig .tc := ⟨.hbm, 368, rfl⟩
abbrev main_c_62 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_v302 : Ref sig .tc := ⟨.hbm, 375, rfl⟩
abbrev main_v303 : Ref sig .tc := ⟨.hbm, 376, rfl⟩
abbrev main_c_63 : Ref sig .tc := ⟨.hbm, 377, rfl⟩
abbrev main_v304 : Ref sig .tc := ⟨.hbm, 378, rfl⟩
abbrev main_v305 : Ref sig .tc := ⟨.hbm, 379, rfl⟩
abbrev main_c_64 : Ref sig .tc := ⟨.hbm, 380, rfl⟩
abbrev main_v306 : Ref sig .tc := ⟨.hbm, 381, rfl⟩
abbrev main_v307 : Ref sig .tc := ⟨.hbm, 382, rfl⟩
abbrev main_v308 : Ref sig .tc := ⟨.hbm, 383, rfl⟩
abbrev main_v309 : Ref sig .tc := ⟨.hbm, 384, rfl⟩
abbrev main_v310 : Ref sig .tc := ⟨.hbm, 385, rfl⟩
abbrev main_v311 : Ref sig .tc := ⟨.hbm, 386, rfl⟩
abbrev main_v312 : Ref sig .tc := ⟨.hbm, 387, rfl⟩
abbrev main_v313 : Ref sig .tc := ⟨.hbm, 388, rfl⟩
abbrev main_cst_65 : Ref sig .tc := ⟨.hbm, 389, rfl⟩
abbrev main_v314 : Ref sig .tc := ⟨.hbm, 390, rfl⟩
abbrev main_v315 : Ref sig .tc := ⟨.hbm, 391, rfl⟩
abbrev main_v316 : Ref sig .tc := ⟨.hbm, 392, rfl⟩
abbrev main_v317 : Ref sig .tc := ⟨.hbm, 393, rfl⟩
abbrev main_v318 : Ref sig .tc := ⟨.hbm, 394, rfl⟩
abbrev main_v319 : Ref sig .tc := ⟨.hbm, 395, rfl⟩
abbrev main_v320 : Ref sig .tc := ⟨.hbm, 396, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  slices_S3x2x1600000_S1x1x1600000_0_0_0 : S3x2x1600000.Slices ![0, 0, 0] S1x1x1600000
  shapeCasts_S1x1x1600000_S1600000 : S1x1x1600000.ShapeCasts S1600000
  slices_S3x2x1600000_S1x1x1600000_0_1_0 : S3x2x1600000.Slices ![0, 1, 0] S1x1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x256x128_S1x256x128_1_0_0 : S3x256x128.Slices ![1, 0, 0] S1x256x128
  slices_S3x128_S1x128_1_0 : S3x128.Slices ![1, 0] S1x128
  slices_S3x2x1600000_S1x1x1600000_1_0_0 : S3x2x1600000.Slices ![1, 0, 0] S1x1x1600000
  slices_S3x2x1600000_S1x1x1600000_1_1_0 : S3x2x1600000.Slices ![1, 1, 0] S1x1x1600000
  slices_S3x256x128_S1x256x128_2_0_0 : S3x256x128.Slices ![2, 0, 0] S1x256x128
  slices_S3x128_S1x128_2_0 : S3x128.Slices ![2, 0] S1x128
  slices_S3x2x1600000_S1x1x1600000_2_0_0 : S3x2x1600000.Slices ![2, 0, 0] S1x1x1600000
  slices_S3x2x1600000_S1x1x1600000_2_1_0 : S3x2x1600000.Slices ![2, 1, 0] S1x1x1600000
  bcast_S_S50000x64 : S_.BroadcastsInDim S50000x64 (![] : Fin 0 → Fin S50000x64.rank)
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  bcast_S1650000x1_S1650000x64_0_1 : S1650000x1.BroadcastsInDim S1650000x64 (![0, 1] : Fin 2 → Fin S1650000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x128x64_S1x128x64_1_0_0 : S3x128x64.Slices ![1, 0, 0] S1x128x64
  slices_S3x64_S1x64_1_0 : S3x64.Slices ![1, 0] S1x64
  slices_S3x128x64_S1x128x64_2_0_0 : S3x128x64.Slices ![2, 0, 0] S1x128x64
  slices_S3x64_S1x64_2_0 : S3x64.Slices ![2, 0] S1x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x256_S256x128_S50000x128_1_0_0_1_n_n_wf : DotDims.WF S50000x256 S256x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KernelRun.lean ====
/-
  The idealized kernel program's run with its result named.  The program is twenty-one segments: stretches of host
  operations and six launches of the projection kernel.  Every weakly fair execution from a memory with zero counters
  terminates without a fault, and in the final state the result array holds what the fold of the segments leaves in
  its buffer (the contents at the last segment boundary, read at the result's buffer), the six argument arrays what
  they held at the launch.  The launch over the segments is the one the frame of this program rests on; only the
  reading of the final state is extended from the arguments to the result buffer.
-/
import proofs.«133610_j47064251629674_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and each argument array as launched. -/
theorem run_valued : θ_run defs (onTc (τ := τ) (main (F := F))) ⟨m, fun _ => 0, ρ⟩ (fun r => ∀ c : Dev nD,
      r.2.mem ((c.tc : Thread nD τ).loc main_v188) = W21 m ρ c (Proc.devRef .tc main_v188)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v188 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c)⟩)

end Cert.KernelIdeal.RunV

end
-- ==== Proof.Carry.lean ====
/-
  What each segment of the idealized kernel program leaves alone.  The program is in static single assignment form:
  every buffer is written by exactly one host operation or is the output array of exactly one kernel launch.  So a
  stretch of host operations changes only the buffers its own operations write (listed here per stretch), and a launch
  changes only its output array; every other buffer holds after the segment what it held before it.  These are the
  links by which a value computed early (an edge list, a degree normalisation, a running total) is read where a later
  segment uses it.
-/
import proofs.«133610_j47064251629674_2_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## The buffers each stretch of host operations writes -/

/-- The buffers `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2, main_v14]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps0_1`'s operations write. -/
abbrev hostOps0_1_W : List (Ref sig .tc) := [main_v15]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps0_2`'s operations write. -/
abbrev hostOps0_2_W : List (Ref sig .tc) := [main_v16, main_v17, main_v18, main_v19, main_v20, main_v21, main_v22, main_cst_3, main_v23, main_cst_4, main_v24, main_v25, main_v26, main_cst_5, main_v27, main_v28, main_v29, main_cst_6, main_v30]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps0_3`'s operations write. -/
abbrev hostOps0_3_W : List (Ref sig .tc) := [main_v31]
theorem hostOps0_3_writes : (hostOps0_3 : List (HloOp τ sig (Elt F))).Forall fun op => op.writes ⊆ (hostOps0_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps0_4`'s operations write. -/
abbrev hostOps0_4_W : List (Ref sig .tc) := [main_v32, main_v33, main_v34, main_v35, main_v36, main_v37, main_v38, main_cst_7, main_v39, main_cst_8, main_v40, main_v41, main_v42, main_cst_9, main_v43, main_v44, main_v45, main_cst_10, main_v46]
theorem hostOps0_4_writes : (hostOps0_4 : List (HloOp τ sig (Elt F))).Forall fun op => op.writes ⊆ (hostOps0_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps0_5`'s operations write. -/
abbrev hostOps0_5_W : List (Ref sig .tc) := [main_v47]
theorem hostOps0_5_writes : (hostOps0_5 : List (HloOp τ sig (Elt F))).Forall fun op => op.writes ⊆ (hostOps0_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps0_6`'s operations write. -/
abbrev hostOps0_6_W : List (Ref sig .tc) := [main_cst_11, main_v48, main_v49, main_v50, main_v51]
theorem hostOps0_6_writes : (hostOps0_6 : List (HloOp τ sig (Elt F))).Forall fun op => op.writes ⊆ (hostOps0_6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps1`'s operations write. -/
abbrev hostOps1_W : List (Ref sig .tc) := [main_c, main_v53, main_v54, main_c_12, main_v55, main_v56, main_v57, main_v58, main_v59, main_cst_13, main_v60, main_v61, main_v62, main_v63, main_v64, main_v65, main_v66, main_v67, main_v68, main_v69, main_v70, main_v71, main_v72, main_v73, main_v74]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps2`'s operations write. -/
abbrev hostOps2_W : List (Ref sig .tc) := [main_c_14, main_v76, main_v77, main_c_15, main_v78, main_v79, main_v80, main_v81, main_v82, main_cst_16, main_v83, main_v84, main_v85, main_v86, main_v87, main_v88, main_v89, main_v90, main_v91, main_v92, main_v93, main_v94, main_v95, main_v96, main_v97]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps3`'s operations write. -/
abbrev hostOps3_W : List (Ref sig .tc) := [main_c_17, main_v99, main_v100, main_c_18, main_v101, main_v102, main_v103, main_v104, main_v105, main_cst_19, main_v106, main_v107, main_v108, main_v109, main_v110, main_v111, main_v112, main_v113, main_v114, main_v115, main_v116, main_v117]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps3_1`'s operations write. -/
abbrev hostOps3_1_W : List (Ref sig .tc) := [main_call3_cst, main_call3_v0, main_v118]
theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps3_2`'s operations write. -/
abbrev hostOps3_2_W : List (Ref sig .tc) := [main_cst_20, main_v119, main_v120, main_v121, main_v122]
theorem hostOps3_2_writes : (hostOps3_2 : List (HloOp τ sig (Elt F))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps4`'s operations write. -/
abbrev hostOps4_W : List (Ref sig .tc) := [main_c_21, main_v124, main_v125, main_c_22, main_v126, main_v127, main_v128, main_v129, main_v130, main_cst_23, main_v131, main_v132, main_v133, main_v134, main_v135, main_v136, main_v137, main_v138, main_v139, main_v140, main_v141, main_v142, main_v143, main_v144, main_v145]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps5`'s operations write. -/
abbrev hostOps5_W : List (Ref sig .tc) := [main_c_24, main_v147, main_v148, main_c_25, main_v149, main_v150, main_v151, main_v152, main_v153, main_cst_26, main_v154, main_v155, main_v156, main_v157, main_v158, main_v159, main_v160, main_v161, main_v162, main_v163, main_v164, main_v165, main_v166, main_v167, main_v168]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers `hostOps6`'s operations write. -/
abbrev hostOps6_W : List (Ref sig .tc) := [main_c_27, main_v170, main_v171, main_c_28, main_v172, main_v173, main_v174, main_v175, main_v176, main_cst_29, main_v177, main_v178, main_v179, main_v180, main_v181, main_v182, main_v183, main_v184, main_v185, main_v186, main_v187, main_v188]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## What each segment leaves unchanged -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h

theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h

theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h

theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h

theorem W6_of (c : Dev nD) (r : Ref sig .tc) (h : r ∉ hostOps0_5_W) :
    W6 m ρ c (Proc.devRef .tc r) = W5 m ρ c (Proc.devRef .tc r) :=
  StableHlo.after_of_writes_sub hostOps0_5 _ hostOps0_5_writes h

theorem W7_of (c : Dev nD) (r : Ref sig .tc) (h : r ∉ hostOps0_6_W) :
    W7 m ρ c (Proc.devRef .tc r) = W6 m ρ c (Proc.devRef .tc r) :=
  StableHlo.after_of_writes_sub hostOps0_6 _ hostOps0_6_writes h

/-- Launch 0 leaves every buffer that is none of its arrays as it was. -/
theorem W8_of (c : Dev nD) (r : Ref sig .tc) (h : ∀ w, Pipeline.arrRef spec0 w ≠ r) :
    W8 m ρ c (Proc.devRef .tc r) = W7 m ρ c (Proc.devRef .tc r) := W8_of_ne m ρ c r h
/-- Launch 0 reads its first input array and leaves it as it was. -/
theorem W8_in0 (c : Dev nD) :
    W8 m ρ c (Proc.devRef .tc (Pipeline.arrRef spec0 0)) = W7 m ρ c (Proc.devRef .tc (Pipeline.arrRef spec0 0)) :=
  (W8_arr m ρ c 0).trans (((dat0 (V7 m ρ) c).arrAt_in 0 rfl _).trans (A_eq0 (V7 m ρ) c 0))

theorem W9_of (c : Dev nD) (r : Ref sig .tc) (h : r ∉ hostOps1_W) :
    W9 m ρ c (Proc.devRef .tc r) = W8 m ρ c (Proc.devRef .tc r) :=
  StableHlo.after_of_writes_sub hostOps1 _ hostOps1_writes h

/-- Launch 1 leaves every buffer that is none of its arrays as it was. -/
theorem W10_of (c : Dev nD) (r : Ref sig .tc) (h : ∀ w, Pipeline.arrRef spec1 w ≠ r) :
    W10 m ρ c (Proc.devRef .tc r) = W9 m ρ c (Proc.devRef .tc r) := W10_of_ne m ρ c r h
/-- Launch 1 reads its first input array and leaves it as it was. -/
theorem W10_in0 (c : Dev nD) :
    W10 m ρ c (Proc.devRef .tc (Pipeline.arrRef spec1 0)) = W9 m ρ c (Proc.devRef .tc (Pipeline.arrRef spec1 0)) :=
  (W10_arr m ρ c 0).trans (((dat1 (V9 m ρ) c).arrAt_in 0 rfl _).trans (A_eq1 (V9 m ρ) c 0))

theorem W11_of (c : Dev nD) (r : Ref sig .tc) (h : r ∉ hostOps2_W) :
    W11 m ρ c (Proc.devRef .tc r) = W10 m ρ c (Proc.devRef .tc r) :=
  StableHlo.after_of_writes_sub hostOps2 _ hostOps2_writes h

/-- Launch 2 leaves every buffer that is none of its arrays as it was. -/
theorem W12_of (c : Dev nD) (r : Ref sig .tc) (h : ∀ w, Pipeline.arrRef spec2 w ≠ r) :
    W12 m ρ c (Proc.devRef .tc r) = W11 m ρ c (Proc.devRef .tc r) := W12_of_ne m ρ c r h
/-- Launch 2 reads its first input array and leaves it as it was. -/
theorem W12_in0 (c : Dev nD) :
    W12 m ρ c (Proc.devRef .tc (Pipeline.arrRef spec2 0)) = W11 m ρ c (Proc.devRef .tc (Pipeline.arrRef spec2 0)) :=
  (W12_arr m ρ c 0).trans (((dat2 (V11 m ρ) c).arrAt_in 0 rfl _).trans (A_eq2 (V11 m ρ) c 0))

theorem W13_of (c : Dev nD) (r : Ref sig .tc) (h : r ∉ hostOps3_W) :
    W13 m ρ c (Proc.devRef .tc r) = W12 m ρ c (Proc.devRef .tc r) :=
  StableHlo.after_of_writes_sub hostOps3 _ hostOps3_writes h

theorem W14_of (c : Dev nD) (r : Ref sig .tc) (h : r ∉ hostOps3_1_W) :
    W14 m ρ c (Proc.devRef .tc r) = W13 m ρ c (Proc.devRef .tc r) :=
  StableHlo.after_of_writes_sub hostOps3_1 _ hostOps3_1_writes h

theorem W15_of (c : Dev nD) (r : Ref sig .tc) (h : r ∉ hostOps3_2_W) :
    W15 m ρ c (Proc.devRef .tc r) = W14 m ρ c (Proc.devRef .tc r) :=
  StableHlo.after_of_writes_sub hostOps3_2 _ hostOps3_2_writes h

/-- Launch 3 leaves every buffer that is none of its arrays as it was. -/
theorem W16_of (c : Dev nD) (r : Ref sig .tc) (h : ∀ w, Pipeline.arrRef spec3 w ≠ r) :
    W16 m ρ c (Proc.devRef .tc r) = W15 m ρ c (Proc.devRef .tc r) := W16_of_ne m ρ c r h
/-- Launch 3 reads its first input array and leaves it as it was. -/
theorem W16_in0 (c : Dev nD) :
    W16 m ρ c (Proc.devRef .tc (Pipeline.arrRef spec3 0)) = W15 m ρ c (Proc.devRef .tc (Pipeline.arrRef spec3 0)) :=
  (W16_arr m ρ c 0).trans (((dat3 (V15 m ρ) c).arrAt_in 0 rfl _).trans (A_eq3 (V15 m ρ) c 0))

theorem W17_of (c : Dev nD) (r : Ref sig .tc) (h : r ∉ hostOps4_W) :
    W17 m ρ c (Proc.devRef .tc r) = W16 m ρ c (Proc.devRef .tc r) :=
  StableHlo.after_of_writes_sub hostOps4 _ hostOps4_writes h

/-- Launch 4 leaves every buffer that is none of its arrays as it was. -/
theorem W18_of (c : Dev nD) (r : Ref sig .tc) (h : ∀ w, Pipeline.arrRef spec4 w ≠ r) :
    W18 m ρ c (Proc.devRef .tc r) = W17 m ρ c (Proc.devRef .tc r) := W18_of_ne m ρ c r h
/-- Launch 4 reads its first input array and leaves it as it was. -/
theorem W18_in0 (c : Dev nD) :
    W18 m ρ c (Proc.devRef .tc (Pipeline.arrRef spec4 0)) = W17 m ρ c (Proc.devRef .tc (Pipeline.arrRef spec4 0)) :=
  (W18_arr m ρ c 0).trans (((dat4 (V17 m ρ) c).arrAt_in 0 rfl _).trans (A_eq4 (V17 m ρ) c 0))

theorem W19_of (c : Dev nD) (r : Ref sig .tc) (h : r ∉ hostOps5_W) :
    W19 m ρ c (Proc.devRef .tc r) = W18 m ρ c (Proc.devRef .tc r) :=
  StableHlo.after_of_writes_sub hostOps5 _ hostOps5_writes h

/-- Launch 5 leaves every buffer that is none of its arrays as it was. -/
theorem W20_of (c : Dev nD) (r : Ref sig .tc) (h : ∀ w, Pipeline.arrRef spec5 w ≠ r) :
    W20 m ρ c (Proc.devRef .tc r) = W19 m ρ c (Proc.devRef .tc r) := W20_of_ne m ρ c r h
/-- Launch 5 reads its first input array and leaves it as it was. -/
theorem W20_in0 (c : Dev nD) :
    W20 m ρ c (Proc.devRef .tc (Pipeline.arrRef spec5 0)) = W19 m ρ c (Proc.devRef .tc (Pipeline.arrRef spec5 0)) :=
  (W20_arr m ρ c 0).trans (((dat5 (V19 m ρ) c).arrAt_in 0 rfl _).trans (A_eq5 (V19 m ρ) c 0))

theorem W21_of (c : Dev nD) (r : Ref sig .tc) (h : r ∉ hostOps6_W) :
    W21 m ρ c (Proc.devRef .tc r) = W20 m ρ c (Proc.devRef .tc r) :=
  StableHlo.after_of_writes_sub hostOps6 _ hostOps6_writes h

end Cert.KernelIdeal.Chain

end
-- ==== Proof.ConvDefs.lean ====
/-
  One relation of a symmetrically normalised graph convolution, written twice as a function of whole arrays: the way
  the kernel program composes it (the node projection already scaled by the per-node factor, gathered along the edges,
  summed into the destination rows, the sums scaled by the factor again, plus the bias) and the way the reference
  program composes it (the plain projection gathered along the edges, every gathered row multiplied by the product of
  the factors of the edge's two ends, summed into the destination rows, plus the bias).  Each definition is the same
  composition of the same operations, with the same constants and dimension numbers and in the same order, as the
  program it follows, for every float instance.
-/
import proofs.«133610_j47064251629674_2_alg».proof.KernelIdeal
import proofs.«133610_j47064251629674_2_alg».proof.ReferenceIdeal
import proofs.«133610_j47064251629674_2_alg».proof.Proof.Gen.KernelIdeal
import proofs.«133610_j47064251629674_2_alg».proof.Proof.Gen.ReferenceIdeal

noncomputable section

namespace Cert.Conv

open Idealize.ShloMosaic

variable {F : FTy → Type} [FloatOps F]

/-! ## The kernel program's composition -/

section Kernel
open Cert.KernelIdeal Cert.KernelIdeal.Gen

/-- The normalisation of a possibly negative row index: `x + 50000` where `x < 0`, `x` elsewhere. -/
def wrapIdx (x : IVec S1650000 32) : IVec S1650000 32 :=
  select
    (cmpi .slt x (broadcastInDim S1650000 ![] bcast_S_S1650000 (constantI S_ 32 0#32)))
    (addi x (broadcastInDim S1650000 ![] bcast_S_S1650000 (constantI S_ 32 50000#32)))
    x

/-- The in-degree of every node: ones summed into the destination rows (an edge out of range is dropped). -/
def degK (d : IVec S1650000 32) : FVec F S50000 .f32 :=
  Host.scatterAdd scatter_S50000_S1650000x1_S1650000_n_0_0_1
    (broadcastInDim S50000 ![] bcast_S_S50000 (constant S_ .f32 0x00000000#32))
    (broadcastInDim S1650000x1 ![0] bcast_S1650000_S1650000x1_0 d)
    (broadcastInDim S1650000 ![] bcast_S_S1650000 (constant S_ .f32 0x3F800000#32))

/-- The per-node factor: the inverse square root of the degree where the degree is positive, zero elsewhere. -/
def dinvK (d : IVec S1650000 32) : FVec F S50000 .f32 :=
  select
    (cmpf .ogt (degK (F := F) d) (broadcastInDim S50000 ![] bcast_S_S50000 (constant S_ .f32 0x00000000#32)))
    (Host.rsqrt (degK (F := F) d))
    (broadcastInDim S50000 ![] bcast_S_S50000 (constant S_ .f32 0x00000000#32))

/-- One relation of layer 1 as the kernel computes it from the projected and pre-scaled rows `P`: the rows gathered
    along the wrapped sources, summed into their destination rows, the sums scaled by the per-node factor, plus the bias row. -/
def kerConv1 (P : FVec F S50000x128 .f32) (s d : IVec S1650000 32) (dinv : FVec F S50000 .f32) (b : FVec F S128 .f32) :
    FVec F S50000x128 .f32 :=
  addf
    (mulf
      (Host.scatterAdd scatter_S50000x128_S1650000x1_S1650000x128_1_0_0_1
        (broadcastInDim S50000x128 ![] bcast_S_S50000x128 (constant S_ .f32 0x00000000#32))
        (broadcastInDim S1650000x1 ![0] bcast_S1650000_S1650000x1_0 d)
        (Host.gather gather_S50000x128_S1650000x1_S1650000x128_1_0_n_n_0_1_1128 P
          (broadcastInDim S1650000x1 ![0] bcast_S1650000_S1650000x1_0 (wrapIdx s))))
      (broadcastInDim S50000x128 ![0, 1] bcast_S50000x1_S50000x128_0_1
        (broadcastInDim S50000x1 ![0] bcast_S50000_S50000x1_0 dinv)))
    (broadcastInDim S50000x128 ![0, 1] bcast_S1x128_S50000x128_0_1
      (broadcastInDim S1x128 ![1] bcast_S128_S1x128_1 b))

/-- One relation of layer 2 as the kernel computes it from the projected and pre-scaled rows `P`: the rows gathered
    along the wrapped sources, summed into their destination rows, the sums scaled by the per-node factor, plus the bias row. -/
def kerConv2 (P : FVec F S50000x64 .f32) (s d : IVec S1650000 32) (dinv : FVec F S50000 .f32) (b : FVec F S64 .f32) :
    FVec F S50000x64 .f32 :=
  addf
    (mulf
      (Host.scatterAdd scatter_S50000x64_S1650000x1_S1650000x64_1_0_0_1
        (broadcastInDim S50000x64 ![] bcast_S_S50000x64 (constant S_ .f32 0x00000000#32))
        (broadcastInDim S1650000x1 ![0] bcast_S1650000_S1650000x1_0 d)
        (Host.gather gather_S50000x64_S1650000x1_S1650000x64_1_0_n_n_0_1_164 P
          (broadcastInDim S1650000x1 ![0] bcast_S1650000_S1650000x1_0 (wrapIdx s))))
      (broadcastInDim S50000x64 ![0, 1] bcast_S50000x1_S50000x64_0_1
        (broadcastInDim S50000x1 ![0] bcast_S50000_S50000x1_0 dinv)))
    (broadcastInDim S50000x64 ![0, 1] bcast_S1x64_S50000x64_0_1
      (broadcastInDim S1x64 ![1] bcast_S64_S1x64_1 b))

end Kernel

/-! ## The reference program's composition -/

section Reference
open Cert.ReferenceIdeal Cert.ReferenceIdeal.Gen

/-- The normalisation of a possibly negative row index: `x + 50000` where `x < 0`, `x` elsewhere. -/
def wrapIdxR (x : IVec S1650000 32) : IVec S1650000 32 :=
  select
    (cmpi .slt x (broadcastInDim S1650000 ![] bcast_S_S1650000 (constantI S_ 32 0#32)))
    (addi x (broadcastInDim S1650000 ![] bcast_S_S1650000 (constantI S_ 32 50000#32)))
    x

/-- The in-degree of every node: ones summed into the destination rows (an edge out of range is dropped). -/
def degR (d : IVec S1650000 32) : FVec F S50000 .f32 :=
  Host.scatterAdd scatter_S50000_S1650000x1_S1650000_n_0_0_1
    (broadcastInDim S50000 ![] bcast_S_S50000 (constant S_ .f32 0x00000000#32))
    (broadcastInDim S1650000x1 ![0] bcast_S1650000_S1650000x1_0 d)
    (broadcastInDim S1650000 ![] bcast_S_S1650000 (constant S_ .f32 0x3F800000#32))

/-- The per-node factor: the inverse square root of the degree where the degree is positive, zero elsewhere. -/
def dinvR (d : IVec S1650000 32) : FVec F S50000 .f32 :=
  select
    (cmpf .ogt (degR (F := F) d) (broadcastInDim S50000 ![] bcast_S_S50000 (constant S_ .f32 0x00000000#32)))
    (Host.rsqrt (degR (F := F) d))
    (broadcastInDim S50000 ![] bcast_S_S50000 (constant S_ .f32 0x00000000#32))

/-- One relation of layer 1 as the reference computes it: every gathered row of `feat · W` multiplied by the product
    of the per-node factors of the edge's two ends, summed into the destination rows, plus the bias row. -/
def refConv1 (feat : FVec F S50000x256 .f32) (W : FVec F S256x128 .f32) (b : FVec F S128 .f32) (s d : IVec S1650000 32) :
    FVec F S50000x128 .f32 :=
  addf
    (Host.scatterAdd scatter_S50000x128_S1650000x1_S1650000x128_1_0_0_1
      (broadcastInDim S50000x128 ![] bcast_S_S50000x128 (constant S_ .f32 0x00000000#32))
      (broadcastInDim S1650000x1 ![0] bcast_S1650000_S1650000x1_0 d)
      (mulf
        (Host.gather gather_S50000x128_S1650000x1_S1650000x128_1_0_n_n_0_1_1128
          (Host.dotGeneral dot_S50000x256_S256x128_S50000x128_1_0_0_1_n_n none feat W)
          (broadcastInDim S1650000x1 ![0] bcast_S1650000_S1650000x1_0 (wrapIdxR s)))
        (broadcastInDim S1650000x128 ![0, 1] bcast_S1650000x1_S1650000x128_0_1
          (broadcastInDim S1650000x1 ![0] bcast_S1650000_S1650000x1_0
            (mulf
              (Host.gather gather_S50000_S1650000x1_S1650000_n_0_n_n_0_1_1 (dinvR (F := F) d)
                (broadcastInDim S1650000x1 ![0] bcast_S1650000_S1650000x1_0 (wrapIdxR s)))
              (Host.gather gather_S50000_S1650000x1_S1650000_n_0_n_n_0_1_1 (dinvR (F := F) d)
                (broadcastInDim S1650000x1 ![0] bcast_S1650000_S1650000x1_0 (wrapIdxR d))))))))
    (broadcastInDim S50000x128 ![0, 1] bcast_S1x128_S50000x128_0_1
      (broadcastInDim S1x128 ![1] bcast_S128_S1x128_1 b))

/-- One relation of layer 2 as the reference computes it: every gathered row of `feat · W` multiplied by the product
    of the per-node factors of the edge's two ends, summed into the destination rows, plus the bias row. -/
def refConv2 (feat : FVec F S50000x128 .f32) (W : FVec F S128x64 .f32) (b : FVec F S64 .f32) (s d : IVec S1650000 32) :
    FVec F S50000x64 .f32 :=
  addf
    (Host.scatterAdd scatter_S50000x64_S1650000x1_S1650000x64_1_0_0_1
      (broadcastInDim S50000x64 ![] bcast_S_S50000x64 (constant S_ .f32 0x00000000#32))
      (broadcastInDim S1650000x1 ![0] bcast_S1650000_S1650000x1_0 d)
      (mulf
        (Host.gather gather_S50000x64_S1650000x1_S1650000x64_1_0_n_n_0_1_164
          (Host.dotGeneral dot_S50000x128_S128x64_S50000x64_1_0_0_1_n_n none feat W)
          (broadcastInDim S1650000x1 ![0] bcast_S1650000_S1650000x1_0 (wrapIdxR s)))
        (broadcastInDim S1650000x64 ![0, 1] bcast_S1650000x1_S1650000x64_0_1
          (broadcastInDim S1650000x1 ![0] bcast_S1650000_S1650000x1_0
            (mulf
              (Host.gather gather_S50000_S1650000x1_S1650000_n_0_n_n_0_1_1 (dinvR (F := F) d)
                (broadcastInDim S1650000x1 ![0] bcast_S1650000_S1650000x1_0 (wrapIdxR s)))
              (Host.gather gather_S50000_S1650000x1_S1650000_n_0_n_n_0_1_1 (dinvR (F := F) d)
                (broadcastInDim S1650000x1 ![0] bcast_S1650000_S1650000x1_0 (wrapIdxR d))))))))
    (broadcastInDim S50000x64 ![0, 1] bcast_S1x64_S50000x64_0_1
      (broadcastInDim S1x64 ![1] bcast_S64_S1x64_1 b))

end Reference

end Cert.Conv

end
-- ==== Proof.Stages.lean ====
/-
  The stretches of host operations of the idealized kernel program, each read as a function of the buffer contents
  it starts from, for every float instance.  A stretch before the first launch slices one relation's source and
  destination lists out of the edge array, appends the self loops, counts the in-degrees and takes the per-node
  factor; the stretch after a launch wraps the sources, gathers the launch's rows along them, sums them into the
  destination rows, scales the sums by the per-node factor, adds the bias and adds the relation to the running total,
  and slices the next launch's weight matrix and reshapes its factor into a column; the stretch between the layers
  clamps the first layer's total at zero from below.  Nothing is computed here: every lemma unfolds the stretch's
  operations in order and names what results.
-/
import proofs.«133610_j47064251629674_2_alg».proof.Proof.Gen.KernelIdeal.Frame
import proofs.«133610_j47064251629674_2_alg».proof.Proof.ConvDefs
import Idealize.ShloMosaic.Lib.StableHlo.Run

set_option maxRecDepth 16384

noncomputable section

namespace Cert.KernelIdeal.Chain

open Cert.KernelIdeal Cert.KernelIdeal.Gen Cert.Conv
open Idealize.ShloMosaic Idealize.ShloMosaic.TcCoe Idealize.SL.Sem Idealize.ShloMosaic.StableHlo

variable {F : FTy → Type} [FloatOps F]

/-! ## The pieces of the arguments the program uses -/

/-- Relation 0's source list: row (0, 0) of the edge array followed by the self loops 0 … 49999. -/
def srcK0 (e : (⟨S3x2x1600000, .i32⟩ : BufTy).Contents (Elt F)) : (⟨S1650000, .i32⟩ : BufTy).Contents (Elt F) :=
  concatenate S1650000 0 [⟨S1600000, shapeCast _ (extractStridedSlice S1x1x1600000 ![0, 0, 0] e slices_S3x2x1600000_S1x1x1600000_0_0_0) shapeCasts_S1x1x1600000_S1600000⟩, ⟨S50000, iotaInDim S50000 32 0⟩] concatenates_S1600000_S50000_S1650000_d0
/-- Relation 0's destination list: row (0, 1) of the edge array followed by the self loops 0 … 49999. -/
def dstK0 (e : (⟨S3x2x1600000, .i32⟩ : BufTy).Contents (Elt F)) : (⟨S1650000, .i32⟩ : BufTy).Contents (Elt F) :=
  concatenate S1650000 0 [⟨S1600000, shapeCast _ (extractStridedSlice S1x1x1600000 ![0, 1, 0] e slices_S3x2x1600000_S1x1x1600000_0_1_0) shapeCasts_S1x1x1600000_S1600000⟩, ⟨S50000, iotaInDim S50000 32 0⟩] concatenates_S1600000_S50000_S1650000_d0
/-- Relation 0's first-layer weight matrix. -/
def w1K0 (w : (⟨S3x256x128, .f32⟩ : BufTy).Contents (Elt F)) : (⟨S256x128, .f32⟩ : BufTy).Contents (Elt F) :=
  shapeCast _ (extractStridedSlice S1x256x128 ![0, 0, 0] w slices_S3x256x128_S1x256x128_0_0_0) shapeCasts_S1x256x128_S256x128
/-- Relation 0's first-layer bias. -/
def b1K0 (b : (⟨S3x128, .f32⟩ : BufTy).Contents (Elt F)) : (⟨S128, .f32⟩ : BufTy).Contents (Elt F) :=
  shapeCast _ (extractStridedSlice S1x128 ![0, 0] b slices_S3x128_S1x128_0_0) shapeCasts_S1x128_S128
/-- Relation 0's second-layer weight matrix. -/
def w2K0 (w : (⟨S3x128x64, .f32⟩ : BufTy).Contents (Elt F)) : (⟨S128x64, .f32⟩ : BufTy).Contents (Elt F) :=
  shapeCast _ (extractStridedSlice S1x128x64 ![0, 0, 0] w slices_S3x128x64_S1x128x64_0_0_0) shapeCasts_S1x128x64_S128x64
/-- Relation 0's second-layer bias. -/
def b2K0 (b : (⟨S3x64, .f32⟩ : BufTy).Contents (Elt F)) : (⟨S64, .f32⟩ : BufTy).Contents (Elt F) :=
  shapeCast _ (extractStridedSlice S1x64 ![0, 0] b slices_S3x64_S1x64_0_0) shapeCasts_S1x64_S64

/-- Relation 1's source list: row (1, 0) of the edge array followed by the self loops 0 … 49999. -/
def srcK1 (e : (⟨S3x2x1600000, .i32⟩ : BufTy).Contents (Elt F)) : (⟨S1650000, .i32⟩ : BufTy).Contents (Elt F) :=
  concatenate S1650000 0 [⟨S1600000, shapeCast _ (extractStridedSlice S1x1x1600000 ![1, 0, 0] e slices_S3x2x1600000_S1x1x1600000_1_0_0) shapeCasts_S1x1x1600000_S1600000⟩, ⟨S50000, iotaInDim S50000 32 0⟩] concatenates_S1600000_S50000_S1650000_d0
/-- Relation 1's destination list: row (1, 1) of the edge array followed by the self loops 0 … 49999. -/
def dstK1 (e : (⟨S3x2x1600000, .i32⟩ : BufTy).Contents (Elt F)) : (⟨S1650000, .i32⟩ : BufTy).Contents (Elt F) :=
  concatenate S1650000 0 [⟨S1600000, shapeCast _ (extractStridedSlice S1x1x1600000 ![1, 1, 0] e slices_S3x2x1600000_S1x1x1600000_1_1_0) shapeCasts_S1x1x1600000_S1600000⟩, ⟨S50000, iotaInDim S50000 32 0⟩] concatenates_S1600000_S50000_S1650000_d0
/-- Relation 1's first-layer weight matrix. -/
def w1K1 (w : (⟨S3x256x128, .f32⟩ : BufTy).Contents (Elt F)) : (⟨S256x128, .f32⟩ : BufTy).Contents (Elt F) :=
  shapeCast _ (extractStridedSlice S1x256x128 ![1, 0, 0] w slices_S3x256x128_S1x256x128_1_0_0) shapeCasts_S1x256x128_S256x128
/-- Relation 1's first-layer bias. -/
def b1K1 (b : (⟨S3x128, .f32⟩ : BufTy).Contents (Elt F)) : (⟨S128, .f32⟩ : BufTy).Contents (Elt F) :=
  shapeCast _ (extractStridedSlice S1x128 ![1, 0] b slices_S3x128_S1x128_1_0) shapeCasts_S1x128_S128
/-- Relation 1's second-layer weight matrix. -/
def w2K1 (w : (⟨S3x128x64, .f32⟩ : BufTy).Contents (Elt F)) : (⟨S128x64, .f32⟩ : BufTy).Contents (Elt F) :=
  shapeCast _ (extractStridedSlice S1x128x64 ![1, 0, 0] w slices_S3x128x64_S1x128x64_1_0_0) shapeCasts_S1x128x64_S128x64
/-- Relation 1's second-layer bias. -/
def b2K1 (b : (⟨S3x64, .f32⟩ : BufTy).Contents (Elt F)) : (⟨S64, .f32⟩ : BufTy).Contents (Elt F) :=
  shapeCast _ (extractStridedSlice S1x64 ![1, 0] b slices_S3x64_S1x64_1_0) shapeCasts_S1x64_S64

/-- Relation 2's source list: row (2, 0) of the edge array followed by the self loops 0 … 49999. -/
def srcK2 (e : (⟨S3x2x1600000, .i32⟩ : BufTy).Contents (Elt F)) : (⟨S1650000, .i32⟩ : BufTy).Contents (Elt F) :=
  concatenate S1650000 0 [⟨S1600000, shapeCast _ (extractStridedSlice S1x1x1600000 ![2, 0, 0] e slices_S3x2x1600000_S1x1x1600000_2_0_0) shapeCasts_S1x1x1600000_S1600000⟩, ⟨S50000, iotaInDim S50000 32 0⟩] concatenates_S1600000_S50000_S1650000_d0
/-- Relation 2's destination list: row (2, 1) of the edge array followed by the self loops 0 … 49999. -/
def dstK2 (e : (⟨S3x2x1600000, .i32⟩ : BufTy).Contents (Elt F)) : (⟨S1650000, .i32⟩ : BufTy).Contents (Elt F) :=
  concatenate S1650000 0 [⟨S1600000, shapeCast _ (extractStridedSlice S1x1x1600000 ![2, 1, 0] e slices_S3x2x1600000_S1x1x1600000_2_1_0) shapeCasts_S1x1x1600000_S1600000⟩, ⟨S50000, iotaInDim S50000 32 0⟩] concatenates_S1600000_S50000_S1650000_d0
/-- Relation 2's first-layer weight matrix. -/
def w1K2 (w : (⟨S3x256x128, .f32⟩ : BufTy).Contents (Elt F)) : (⟨S256x128, .f32⟩ : BufTy).Contents (Elt F) :=
  shapeCast _ (extractStridedSlice S1x256x128 ![2, 0, 0] w slices_S3x256x128_S1x256x128_2_0_0) shapeCasts_S1x256x128_S256x128
/-- Relation 2's first-layer bias. -/
def b1K2 (b : (⟨S3x128, .f32⟩ : BufTy).Contents (Elt F)) : (⟨S128, .f32⟩ : BufTy).Contents (Elt F) :=
  shapeCast _ (extractStridedSlice S1x128 ![2, 0] b slices_S3x128_S1x128_2_0) shapeCasts_S1x128_S128
/-- Relation 2's second-layer weight matrix. -/
def w2K2 (w : (⟨S3x128x64, .f32⟩ : BufTy).Contents (Elt F)) : (⟨S128x64, .f32⟩ : BufTy).Contents (Elt F) :=
  shapeCast _ (extractStridedSlice S1x128x64 ![2, 0, 0] w slices_S3x128x64_S1x128x64_2_0_0) shapeCasts_S1x128x64_S128x64
/-- Relation 2's second-layer bias. -/
def b2K2 (b : (⟨S3x64, .f32⟩ : BufTy).Contents (Elt F)) : (⟨S64, .f32⟩ : BufTy).Contents (Elt F) :=
  shapeCast _ (extractStridedSlice S1x64 ![2, 0] b slices_S3x64_S1x64_2_0) shapeCasts_S1x64_S64

/-- A per-node factor as a column. -/
def colK (v : (⟨S50000, .f32⟩ : BufTy).Contents (Elt F)) : (⟨S50000x1, .f32⟩ : BufTy).Contents (Elt F) :=
  shapeCast _ v shapeCasts_S50000_S50000x1
/-- The first layer's zero total. -/
def zero128 : (⟨S50000x128, .f32⟩ : BufTy).Contents (Elt F) := broadcastInDim S50000x128 ![] bcast_S_S50000x128 (constant S_ .f32 0x00000000#32)
/-- The second layer's zero total. -/
def zero64 : (⟨S50000x64, .f32⟩ : BufTy).Contents (Elt F) := broadcastInDim S50000x64 ![] bcast_S_S50000x64 (constant S_ .f32 0x00000000#32)

/-! ## Each stretch from ANY contents `V` at its start

A buffer's contents after a stretch, as a function of the contents the stretch starts from: the stretch's operations
unfolded in order. -/

variable (V : Valuation τ sig (Elt F))

set_option maxHeartbeats 4000000 in
theorem src0_of : after hostOps0 V (Proc.devRef .tc main_v5) = srcK0 (V (Proc.devRef .tc main_arg1)) := by
  dsimp only [hostOps0]; after_results; rfl
set_option maxHeartbeats 4000000 in
theorem dst0_of : after hostOps0 V (Proc.devRef .tc main_v6) = dstK0 (V (Proc.devRef .tc main_arg1)) := by
  dsimp only [hostOps0]; after_results; rfl
set_option maxHeartbeats 4000000 in
theorem dinv0_of : after hostOps0_1 (after hostOps0 V) (Proc.devRef .tc main_v15) = dinvK (dstK0 (V (Proc.devRef .tc main_arg1))) := by
  dsimp only [hostOps0, hostOps0_1]; after_results; rfl

set_option maxHeartbeats 4000000 in
theorem src1_of : after hostOps0_2 V (Proc.devRef .tc main_v21) = srcK1 (V (Proc.devRef .tc main_arg1)) := by
  dsimp only [hostOps0_2]; after_results; rfl
set_option maxHeartbeats 4000000 in
theorem dst1_of : after hostOps0_2 V (Proc.devRef .tc main_v22) = dstK1 (V (Proc.devRef .tc main_arg1)) := by
  dsimp only [hostOps0_2]; after_results; rfl
set_option maxHeartbeats 4000000 in
theorem dinv1_of : after hostOps0_3 (after hostOps0_2 V) (Proc.devRef .tc main_v31) = dinvK (dstK1 (V (Proc.devRef .tc main_arg1))) := by
  dsimp only [hostOps0_2, hostOps0_3]; after_results; rfl

set_option maxHeartbeats 4000000 in
theorem src2_of : after hostOps0_4 V (Proc.devRef .tc main_v37) = srcK2 (V (Proc.devRef .tc main_arg1)) := by
  dsimp only [hostOps0_4]; after_results; rfl
set_option maxHeartbeats 4000000 in
theorem dst2_of : after hostOps0_4 V (Proc.devRef .tc main_v38) = dstK2 (V (Proc.devRef .tc main_arg1)) := by
  dsimp only [hostOps0_4]; after_results; rfl
set_option maxHeartbeats 4000000 in
theorem dinv2_of : after hostOps0_5 (after hostOps0_4 V) (Proc.devRef .tc main_v47) = dinvK (dstK2 (V (Proc.devRef .tc main_arg1))) := by
  dsimp only [hostOps0_4, hostOps0_5]; after_results; rfl

set_option maxHeartbeats 4000000 in
theorem zero128_of : after hostOps0_6 V (Proc.devRef .tc main_v48) = zero128 := by
  dsimp only [hostOps0_6]; after_results; rfl
set_option maxHeartbeats 4000000 in
theorem w1_0_of : after hostOps0_6 V (Proc.devRef .tc main_v50) = w1K0 (V (Proc.devRef .tc main_arg2)) := by
  dsimp only [hostOps0_6]; after_results; rfl
set_option maxHeartbeats 4000000 in
theorem col1_0_of : after hostOps0_6 V (Proc.devRef .tc main_v51) = colK (V (Proc.devRef .tc main_v15)) := by
  dsimp only [hostOps0_6]; after_results; rfl

set_option maxHeartbeats 4000000 in
theorem total1_0_of : after hostOps1 V (Proc.devRef .tc main_v71)
    = addf (V (Proc.devRef .tc main_v48)) (kerConv1 (V (Proc.devRef .tc main_v52)) (V (Proc.devRef .tc main_v5)) (V (Proc.devRef .tc main_v6)) (V (Proc.devRef .tc main_v15)) (b1K0 (V (Proc.devRef .tc main_arg3)))) := by
  dsimp only [hostOps1]; after_results; rfl
set_option maxHeartbeats 4000000 in
theorem w1_1_of : after hostOps1 V (Proc.devRef .tc main_v73) = w1K1 (V (Proc.devRef .tc main_arg2)) := by
  dsimp only [hostOps1]; after_results; rfl
set_option maxHeartbeats 4000000 in
theorem col1_1_of : after hostOps1 V (Proc.devRef .tc main_v74) = colK (V (Proc.devRef .tc main_v31)) := by
  dsimp only [hostOps1]; after_results; rfl

set_option maxHeartbeats 4000000 in
theorem total1_1_of : after hostOps2 V (Proc.devRef .tc main_v94)
    = addf (V (Proc.devRef .tc main_v71)) (kerConv1 (V (Proc.devRef .tc main_v75)) (V (Proc.devRef .tc main_v21)) (V (Proc.devRef .tc main_v22)) (V (Proc.devRef .tc main_v31)) (b1K1 (V (Proc.devRef .tc main_arg3)))) := by
  dsimp only [hostOps2]; after_results; rfl
set_option maxHeartbeats 4000000 in
theorem w1_2_of : after hostOps2 V (Proc.devRef .tc main_v96) = w1K2 (V (Proc.devRef .tc main_arg2)) := by
  dsimp only [hostOps2]; after_results; rfl
set_option maxHeartbeats 4000000 in
theorem col1_2_of : after hostOps2 V (Proc.devRef .tc main_v97) = colK (V (Proc.devRef .tc main_v47)) := by
  dsimp only [hostOps2]; after_results; rfl

set_option maxHeartbeats 4000000 in
theorem total1_2_of : after hostOps3 V (Proc.devRef .tc main_v117)
    = addf (V (Proc.devRef .tc main_v94)) (kerConv1 (V (Proc.devRef .tc main_v98)) (V (Proc.devRef .tc main_v37)) (V (Proc.devRef .tc main_v38)) (V (Proc.devRef .tc main_v47)) (b1K2 (V (Proc.devRef .tc main_arg3)))) := by
  dsimp only [hostOps3]; after_results; rfl

set_option maxHeartbeats 4000000 in
theorem total2_0_of : after hostOps4 V (Proc.devRef .tc main_v142)
    = addf (V (Proc.devRef .tc main_v119)) (kerConv2 (V (Proc.devRef .tc main_v123)) (V (Proc.devRef .tc main_v5)) (V (Proc.devRef .tc main_v6)) (V (Proc.devRef .tc main_v15)) (b2K0 (V (Proc.devRef .tc main_arg5)))) := by
  dsimp only [hostOps4]; after_results; rfl
set_option maxHeartbeats 4000000 in
theorem w2_1_of : after hostOps4 V (Proc.devRef .tc main_v144) = w2K1 (V (Proc.devRef .tc main_arg4)) := by
  dsimp only [hostOps4]; after_results; rfl
set_option maxHeartbeats 4000000 in
theorem col2_1_of : after hostOps4 V (Proc.devRef .tc main_v145) = colK (V (Proc.devRef .tc main_v31)) := by
  dsimp only [hostOps4]; after_results; rfl

set_option maxHeartbeats 4000000 in
theorem total2_1_of : after hostOps5 V (Proc.devRef .tc main_v165)
    = addf (V (Proc.devRef .tc main_v142)) (kerConv2 (V (Proc.devRef .tc main_v146)) (V (Proc.devRef .tc main_v21)) (V (Proc.devRef .tc main_v22)) (V (Proc.devRef .tc main_v31)) (b2K1 (V (Proc.devRef .tc main_arg5)))) := by
  dsimp only [hostOps5]; after_results; rfl
set_option maxHeartbeats 4000000 in
theorem w2_2_of : after hostOps5 V (Proc.devRef .tc main_v167) = w2K2 (V (Proc.devRef .tc main_arg4)) := by
  dsimp only [hostOps5]; after_results; rfl
set_option maxHeartbeats 4000000 in
theorem col2_2_of : after hostOps5 V (Proc.devRef .tc main_v168) = colK (V (Proc.devRef .tc main_v47)) := by
  dsimp only [hostOps5]; after_results; rfl

set_option maxHeartbeats 4000000 in
theorem total2_2_of : after hostOps6 V (Proc.devRef .tc main_v188)
    = addf (V (Proc.devRef .tc main_v165)) (kerConv2 (V (Proc.devRef .tc main_v169)) (V (Proc.devRef .tc main_v37)) (V (Proc.devRef .tc main_v38)) (V (Proc.devRef .tc main_v47)) (b2K2 (V (Proc.devRef .tc main_arg5)))) := by
  dsimp only [hostOps6]; after_results; rfl

set_option maxHeartbeats 4000000 in
/-- The hidden features: the first layer's total clamped at zero from below. -/
theorem hidden_of : after hostOps3_1 V (Proc.devRef .tc main_v118) = maximumf (V (Proc.devRef .tc main_v117)) zero128 := by
  dsimp only [hostOps3_1]; after_results; rfl
set_option maxHeartbeats 4000000 in
theorem zero64_of : after hostOps3_2 V (Proc.devRef .tc main_v119) = zero64 := by
  dsimp only [hostOps3_2]; after_results; rfl
set_option maxHeartbeats 4000000 in
theorem w2_0_of : after hostOps3_2 V (Proc.devRef .tc main_v121) = w2K0 (V (Proc.devRef .tc main_arg4)) := by
  dsimp only [hostOps3_2]; after_results; rfl
set_option maxHeartbeats 4000000 in
theorem col2_0_of : after hostOps3_2 V (Proc.devRef .tc main_v122) = colK (V (Proc.devRef .tc main_v15)) := by
  dsimp only [hostOps3_2]; after_results; rfl

end Cert.KernelIdeal.Chain

end
-- ==== Proof.Spec.lean ====
/-
  The node projection of one graph-convolution relation, as one function of whole arrays: row `n` of `x · w`
  (the sum over the inner axis of `x (n, k) · w (k, c)`), scaled by the per-row factor `d (n, 0)`.  At the ideal
  instance a float is an extended real and every operation is exact, so this is all a tiled, reduced-precision
  matrix product followed by a row scaling computes.
-/
import Idealize.ShloMosaic.Lib.ValueIdx
import Idealize.ShloMosaic.PureOps.Ideal

noncomputable section

open scoped BigOperators

namespace Cert.Gcn

open Idealize.ShloMosaic Idealize.ShloMosaic.ValueIdx

/-- `(x · w)` with row `n` scaled by `d (n, 0)`: entry `(n, c)` is `(∑ k, x (n, k) · w (k, c)) · d (n, 0)`. -/
def projScale {N K C : Nat} (x : FVec Ideal ⟨2, ![N, K]⟩ .f32) (w : FVec Ideal ⟨2, ![K, C]⟩ .f32)
    (d : FVec Ideal ⟨2, ![N, 1]⟩ .f32) : FVec Ideal ⟨2, ![N, C]⟩ .f32 :=
  fun i => (∑ k : Fin K, x (ix2 (i 0) k) * w (ix2 k (i 1))) * d (ix2 (i 0) 0)

/-- `projScale` read at the entry `(n, c)`. -/
theorem projScale_apply {N K C : Nat} (x : FVec Ideal ⟨2, ![N, K]⟩ .f32) (w : FVec Ideal ⟨2, ![K, C]⟩ .f32)
    (d : FVec Ideal ⟨2, ![N, 1]⟩ .f32) (n : Fin N) (c : Fin C) :
    projScale x w d (ix2 n c) = (∑ k : Fin K, x (ix2 n k) * w (ix2 k c)) * d (ix2 n 0) := rfl

end Cert.Gcn

end
-- ==== Proof.KernelForm.lean ====
/-
  The whole network in the kernel program's arrangement, as one function of the six argument arrays at the ideal
  instance.  One relation: the rows of `x · w` scaled by the per-node factor (what one launch of the projection
  kernel leaves), gathered along the sources, summed into the destination rows, scaled by the factor again, plus the
  bias.  A layer is the zero array plus its three relations in order; the first layer's total is clamped at zero from
  below and is the second layer's input.
-/
import proofs.«133610_j47064251629674_2_alg».proof.Proof.Stages
import proofs.«133610_j47064251629674_2_alg».proof.Proof.Spec

noncomputable section

namespace Cert.KernelIdeal.Chain

open Cert.KernelIdeal Cert.KernelIdeal.Gen Cert.Conv
open Idealize.ShloMosaic

/-- One relation of layer 1 in the kernel's arrangement, from the layer's input `x`, the relation's weight matrix and
    bias and its source and destination lists. -/
def relK1 (x : (⟨S50000x256, .f32⟩ : BufTy).Contents (Elt Ideal)) (w : (⟨S256x128, .f32⟩ : BufTy).Contents (Elt Ideal))
    (b : (⟨S128, .f32⟩ : BufTy).Contents (Elt Ideal)) (s d : (⟨S1650000, .i32⟩ : BufTy).Contents (Elt Ideal)) :
    FVec Ideal S50000x128 .f32 :=
  kerConv1 (F := Ideal) (Cert.Gcn.projScale (N := 50000) (K := 256) (C := 128) x w (colK (F := Ideal) (dinvK (F := Ideal) d))) s d (dinvK (F := Ideal) d) b

/-- One relation of layer 2 in the kernel's arrangement. -/
def relK2 (x : (⟨S50000x128, .f32⟩ : BufTy).Contents (Elt Ideal)) (w : (⟨S128x64, .f32⟩ : BufTy).Contents (Elt Ideal))
    (b : (⟨S64, .f32⟩ : BufTy).Contents (Elt Ideal)) (s d : (⟨S1650000, .i32⟩ : BufTy).Contents (Elt Ideal)) :
    FVec Ideal S50000x64 .f32 :=
  kerConv2 (F := Ideal) (Cert.Gcn.projScale (N := 50000) (K := 128) (C := 64) x w (colK (F := Ideal) (dinvK (F := Ideal) d))) s d (dinvK (F := Ideal) d) b

/-- The hidden features in the kernel's arrangement, from the input `x0`, the edge array `x1`, the first layer's
    weights `x2` and biases `x3`. -/
def hiddenK (x0 : (⟨S50000x256, .f32⟩ : BufTy).Contents (Elt Ideal)) (x1 : (⟨S3x2x1600000, .i32⟩ : BufTy).Contents (Elt Ideal))
    (x2 : (⟨S3x256x128, .f32⟩ : BufTy).Contents (Elt Ideal)) (x3 : (⟨S3x128, .f32⟩ : BufTy).Contents (Elt Ideal)) :
    FVec Ideal S50000x128 .f32 :=
  maximumf
    (addf (addf (addf (zero128 (F := Ideal)) (relK1 x0 (w1K0 (F := Ideal) x2) (b1K0 (F := Ideal) x3) (srcK0 (F := Ideal) x1) (dstK0 (F := Ideal) x1)))
      (relK1 x0 (w1K1 (F := Ideal) x2) (b1K1 (F := Ideal) x3) (srcK1 (F := Ideal) x1) (dstK1 (F := Ideal) x1)))
      (relK1 x0 (w1K2 (F := Ideal) x2) (b1K2 (F := Ideal) x3) (srcK2 (F := Ideal) x1) (dstK2 (F := Ideal) x1)))
    (zero128 (F := Ideal))

/-- The output in the kernel's arrangement, from the six argument arrays. -/
def outK (x0 : (⟨S50000x256, .f32⟩ : BufTy).Contents (Elt Ideal)) (x1 : (⟨S3x2x1600000, .i32⟩ : BufTy).Contents (Elt Ideal))
    (x2 : (⟨S3x256x128, .f32⟩ : BufTy).Contents (Elt Ideal)) (x3 : (⟨S3x128, .f32⟩ : BufTy).Contents (Elt Ideal))
    (x4 : (⟨S3x128x64, .f32⟩ : BufTy).Contents (Elt Ideal)) (x5 : (⟨S3x64, .f32⟩ : BufTy).Contents (Elt Ideal)) :
    FVec Ideal S50000x64 .f32 :=
  addf (addf (addf (zero64 (F := Ideal)) (relK2 (hiddenK x0 x1 x2 x3) (w2K0 (F := Ideal) x4) (b2K0 (F := Ideal) x5) (srcK0 (F := Ideal) x1) (dstK0 (F := Ideal) x1)))
    (relK2 (hiddenK x0 x1 x2 x3) (w2K1 (F := Ideal) x4) (b2K1 (F := Ideal) x5) (srcK1 (F := Ideal) x1) (dstK1 (F := Ideal) x1)))
    (relK2 (hiddenK x0 x1 x2 x3) (w2K2 (F := Ideal) x4) (b2K2 (F := Ideal) x5) (srcK2 (F := Ideal) x1) (dstK2 (F := Ideal) x1))

end Cert.KernelIdeal.Chain

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«133610_j47064251629674_2_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.RegionValue0.lean ====
/-
  Region 0: the output array of one tiled projection, as one whole-array function of the region's three input arrays.

  The body computes, on a block of 5000 rows, the product of the row block (5000 × 256) with the whole weight matrix
  (256 × 128), each row then scaled by its entry of the 5000 × 1 column block. At the ideal instance the format
  changes are the identity and the matrix product into the zero accumulator is the exact sum over the inner axis, so the
  entry (p, q) of the block is (∑ l, x (p, l) · w (l, q)) · d (p, 0). Point t of the grid reads rows 5000·t … 5000·t + 4999
  of the first and third arrays, the whole second array, and writes rows 5000·t … 5000·t + 4999 of the output; the ten
  blocks tile the 50000 rows (row r lies in block r / 5000), so the output array is the projection of the whole arrays.
-/
import proofs.«133610_j47064251629674_2_alg».proof.Proof.Gen.KernelIdeal.Frame
import proofs.«133610_j47064251629674_2_alg».proof.Proof.Spec
import proofs.«133610_j47064251629674_2_alg».proof.Proof.LibPlainMatmul
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-- The zero offsets of a whole-block access, as the constant function. -/
theorem zero_offsets0 : (![0, 0] : Fin 2 → Nat) = fun _ => 0 := funext fun a => by fin_cases a <;> rfl

/-- The body's dimension numbers are those of the plain product 5000 × 256 by 256 × 128. -/
theorem dot0_eq : dot_S5000x256_S256x128_S5000x128_1_0_0_1_n_n = DotDims.plain 5000 256 128 := rfl

/-- The body's payload at the entry (p, q) of a block: the inner product of row p of the row block with column q of
    the weights, times the row's scale. -/
theorem pay0_apply (v0 : Vec Ideal S5000x256 .f32) (v2 : Vec Ideal S256x128 .f32) (v6 : Vec Ideal S5000x1 .f32)
    (p : Fin 5000) (q : Fin 128) :
    k0_pay1 (F := Ideal) v0 v2 v6 (ix2 p q) = (∑ l : Fin 256, v0 (ix2 p l) * v2 (ix2 l q)) * v6 (ix2 p 0) := by
  unfold k0_pay1
  rw [mulf_apply, shapeCast_self, shapeCast_self, dot0_eq]
  refine congrArg₂ (· * ·) ?_ ?_
  · exact PlainMatmul.plain_matmul_zero_apply 5000 256 128 none (truncf .bf16 v0 bitsLt_bf16_f32) (truncf .bf16 v2 bitsLt_bf16_f32) p q
  · exact broadcastTo_apply v6 broadcasts_S5000x1_S5000x128 (ix2 p q) (ix2 p 0) (fun a => by
      match a with
      | ⟨0, _⟩ => rfl
      | ⟨1, _⟩ => rfl)

/-- The payload of blocks that are rows 5000·T … of the whole arrays (and the whole weight matrix) is, at the entry j of
    the block, the projection of the whole arrays at the entry i = (5000·T + j₀, j₁). -/
theorem block_value0 (A0 : FVec Ideal S50000x256 .f32) (A1 : FVec Ideal S256x128 .f32) (A2 : FVec Ideal S50000x1 .f32)
    (x0 : Vec Ideal S5000x256 .f32) (x1 : Vec Ideal S256x128 .f32) (x2 : Vec Ideal S5000x1 .f32) (T : Nat)
    (h0 : ∀ (p : Fin 5000) (l : Fin 256) (hp : T * 5000 + p.val < 50000), x0 (ix2 p l) = A0 (ix2 ⟨T * 5000 + p.val, hp⟩ l))
    (h1 : ∀ (l : Fin 256) (q : Fin 128), x1 (ix2 l q) = A1 (ix2 l q))
    (h2 : ∀ (p : Fin 5000) (hp : T * 5000 + p.val < 50000), x2 (ix2 p 0) = A2 (ix2 ⟨T * 5000 + p.val, hp⟩ 0))
    (j : S5000x128.Idx) (i : S50000x128.Idx) (hi0 : (i 0).val = T * 5000 + (j 0).val) (hi1 : (i 1).val = (j 1).val) :
    k0_pay1 (F := Ideal) x0 x1 x2 j = Cert.Gcn.projScale A0 A1 A2 i := by
  obtain ⟨p, q, rfl⟩ : ∃ (p : Fin 5000) (q : Fin 128), j = ix2 p q := ⟨j 0, j 1, eq_ix2 j⟩
  obtain ⟨n, c, rfl⟩ : ∃ (n : Fin 50000) (c : Fin 128), i = ix2 n c := ⟨i 0, i 1, eq_ix2 i⟩
  have hp : T * 5000 + p.val < 50000 := by have := n.isLt; have : n.val = T * 5000 + p.val := hi0; omega
  obtain rfl : n = ⟨T * 5000 + p.val, hp⟩ := Fin.ext hi0
  obtain rfl : c = q := Fin.ext hi1
  rw [pay0_apply, Cert.Gcn.projScale_apply]
  refine congrArg₂ (· * ·) (Finset.sum_congr rfl fun l _ => ?_) (h2 p hp)
  rw [h0 p l hp, h1 l c]

/-- The printed index maps, decided over the grid: the row blocks of the first and third arrays move with the output's,
    the weight matrix's block stays at the origin, and the output's block index is the point's number. -/
theorem block_index0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (0 : Fin 2) = t.val
    ∧ win0_3.index t (1 : Fin 2) = 0 :=
  (by decide +kernel : ∀ t : Fin grid0.N, _)

/-- The region's output as one function of its three input arrays as the region finds them. -/
abbrev G0 (V : (c : Dev nD) → (b : Ref sig .tc) → Buf (Elt Ideal) ((c : Thread nD τ).loc b)) (c : Dev nD) : FVec Ideal S50000x128 .f32 :=
  Cert.Gcn.projScale (N := 50000) (K := 256) (C := 128) (V c (Pipeline.arrRef spec0 0)) (V c (Pipeline.arrRef spec0 1)) (V c (Pipeline.arrRef spec0 2))

/-- What point t writes back is block t of the projection of the whole arrays. -/
theorem flushed0_eq (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero zero_offsets0]
  simp only [View.ld_unit_zero (S := S5000x256) zero_offsets0, View.ld_unit_zero (S := S256x128) zero_offsets0, View.ld_unit_zero (S := S5000x1) zero_offsets0]
  obtain ⟨e0, e1, e2, e3, e4, e5, e6, e7⟩ := block_index0 t
  funext j
  show k0_pay1 (F := Ideal) (iblk0 V c 0 t) (iblk0 V c 1 t) (iblk0 V c 2 t) j = G0 V c (((cfg0.win 3).blk t).view.emb j)
  refine block_value0 _ _ _ _ _ _ (win0_3.index t (0 : Fin 2)) ?_ ?_ ?_ j _ ?_ ?_
  · intro p l hp
    show V c (Pipeline.arrRef spec0 0) (((cfg0.win 0).blk t).view.emb (ix2 p l)) = V c (Pipeline.arrRef spec0 0) _
    refine congrArg _ (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 256 + 1 * l.val = l.val; omega
  · intro l q
    show V c (Pipeline.arrRef spec0 1) (((cfg0.win 1).blk t).view.emb (ix2 l q)) = V c (Pipeline.arrRef spec0 1) _
    refine congrArg _ (funext fun a => Fin.ext ?_)
    match a with
    | ⟨0, _⟩ => show win0_1.index t (0 : Fin 2) * 256 + 1 * l.val = l.val; omega
    | ⟨1, _⟩ => show win0_1.index t (1 : Fin 2) * 128 + 1 * q.val = q.val; omega
  · intro p hp
    show V c (Pipeline.arrRef spec0 2) (((cfg0.win 2).blk t).view.emb (ix2 p 0)) = V c (Pipeline.arrRef spec0 2) _
    refine congrArg _ (funext fun a => Fin.ext ?_)
    match a with
    | ⟨0, _⟩ => show win0_2.index t (0 : Fin 2) * 5000 + 1 * p.val = win0_3.index t (0 : Fin 2) * 5000 + p.val; omega
    | ⟨1, _⟩ => show win0_2.index t (1 : Fin 2) * 1 + 1 * 0 = 0; omega
  · show win0_3.index t (0 : Fin 2) * 5000 + 1 * (j 0).val = win0_3.index t (0 : Fin 2) * 5000 + (j 0).val; omega
  · show win0_3.index t (1 : Fin 2) * 128 + 1 * (j 1).val = (j 1).val; omega

/-- An index of the output array is in point t's block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v52).slice (win0_3.rect t)).set ↔ _
  rw [View.set_slice_whole, Rect.mem_set_unit]
  exact Iff.rfl

/-- Every index of the output array is in the block of the point its row falls in: row r is in block r / 5000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, e6, e7⟩ := block_index0 ⟨(i 0).val / 5000, ht⟩
  have e6' : win0_3.index ⟨(i 0).val / 5000, ht⟩ (0 : Fin 2) = (i 0).val / 5000 := e6
  refine ⟨⟨(i 0).val / 5000, ht⟩, flush0_3 _, ?_⟩
  rw [mem_block0]
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; omega
  | ⟨1, _⟩ => show win0_3.index ⟨(i 0).val / 5000, ht⟩ (1 : Fin 2) * 128 ≤ (i 1).val ∧ (i 1).val < win0_3.index ⟨(i 0).val / 5000, ht⟩ (1 : Fin 2) * 128 + 128; omega

/-- REGION 0's output array after its run is the projection of its three input arrays as the region finds them. -/
theorem region0_value (V : (c : Dev nD) → (b : Ref sig .tc) → Buf (Elt Ideal) ((c : Thread nD τ).loc b)) (c : Dev nD) :
    (dat0 (F := Ideal) V c).arrAt 3 cfg0.N
      = Cert.Gcn.projScale (N := 50000) (K := 256) (C := 128) (V c (Pipeline.arrRef spec0 0)) (V c (Pipeline.arrRef spec0 1)) (V c (Pipeline.arrRef spec0 2)) :=
  (dat0 (F := Ideal) V c).arrAt_eq_of_cover 3 (G0 V c) (fun t _ => flushed0_eq V c t) (fun i => cover0 i)

end Cert.KernelIdeal.RegionValue

end
-- ==== Proof.RegionValue1.lean ====
/-
  Region 1: the output array of one tiled projection, as one whole-array function of the region's three input arrays.

  The body computes, on a block of 5000 rows, the product of the row block (5000 × 256) with the whole weight matrix
  (256 × 128), each row then scaled by its entry of the 5000 × 1 column block. At the ideal instance the format
  changes are the identity and the matrix product into the zero accumulator is the exact sum over the inner axis, so the
  entry (p, q) of the block is (∑ l, x (p, l) · w (l, q)) · d (p, 0). Point t of the grid reads rows 5000·t … 5000·t + 4999
  of the first and third arrays, the whole second array, and writes rows 5000·t … 5000·t + 4999 of the output; the ten
  blocks tile the 50000 rows (row r lies in block r / 5000), so the output array is the projection of the whole arrays.
-/
import proofs.«133610_j47064251629674_2_alg».proof.Proof.Gen.KernelIdeal.Frame
import proofs.«133610_j47064251629674_2_alg».proof.Proof.Spec
import proofs.«133610_j47064251629674_2_alg».proof.Proof.LibPlainMatmul
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-- The zero offsets of a whole-block access, as the constant function. -/
theorem zero_offsets1 : (![0, 0] : Fin 2 → Nat) = fun _ => 0 := funext fun a => by fin_cases a <;> rfl

/-- The body's dimension numbers are those of the plain product 5000 × 256 by 256 × 128. -/
theorem dot1_eq : dot_S5000x256_S256x128_S5000x128_1_0_0_1_n_n = DotDims.plain 5000 256 128 := rfl

/-- The body's payload at the entry (p, q) of a block: the inner product of row p of the row block with column q of
    the weights, times the row's scale. -/
theorem pay1_apply (v0 : Vec Ideal S5000x256 .f32) (v2 : Vec Ideal S256x128 .f32) (v6 : Vec Ideal S5000x1 .f32)
    (p : Fin 5000) (q : Fin 128) :
    k1_pay1 (F := Ideal) v0 v2 v6 (ix2 p q) = (∑ l : Fin 256, v0 (ix2 p l) * v2 (ix2 l q)) * v6 (ix2 p 0) := by
  unfold k1_pay1
  rw [mulf_apply, shapeCast_self, shapeCast_self, dot1_eq]
  refine congrArg₂ (· * ·) ?_ ?_
  · exact PlainMatmul.plain_matmul_zero_apply 5000 256 128 none (truncf .bf16 v0 bitsLt_bf16_f32) (truncf .bf16 v2 bitsLt_bf16_f32) p q
  · exact broadcastTo_apply v6 broadcasts_S5000x1_S5000x128 (ix2 p q) (ix2 p 0) (fun a => by
      match a with
      | ⟨0, _⟩ => rfl
      | ⟨1, _⟩ => rfl)

/-- The payload of blocks that are rows 5000·T … of the whole arrays (and the whole weight matrix) is, at the entry j of
    the block, the projection of the whole arrays at the entry i = (5000·T + j₀, j₁). -/
theorem block_value1 (A0 : FVec Ideal S50000x256 .f32) (A1 : FVec Ideal S256x128 .f32) (A2 : FVec Ideal S50000x1 .f32)
    (x0 : Vec Ideal S5000x256 .f32) (x1 : Vec Ideal S256x128 .f32) (x2 : Vec Ideal S5000x1 .f32) (T : Nat)
    (h0 : ∀ (p : Fin 5000) (l : Fin 256) (hp : T * 5000 + p.val < 50000), x0 (ix2 p l) = A0 (ix2 ⟨T * 5000 + p.val, hp⟩ l))
    (h1 : ∀ (l : Fin 256) (q : Fin 128), x1 (ix2 l q) = A1 (ix2 l q))
    (h2 : ∀ (p : Fin 5000) (hp : T * 5000 + p.val < 50000), x2 (ix2 p 0) = A2 (ix2 ⟨T * 5000 + p.val, hp⟩ 0))
    (j : S5000x128.Idx) (i : S50000x128.Idx) (hi0 : (i 0).val = T * 5000 + (j 0).val) (hi1 : (i 1).val = (j 1).val) :
    k1_pay1 (F := Ideal) x0 x1 x2 j = Cert.Gcn.projScale A0 A1 A2 i := by
  obtain ⟨p, q, rfl⟩ : ∃ (p : Fin 5000) (q : Fin 128), j = ix2 p q := ⟨j 0, j 1, eq_ix2 j⟩
  obtain ⟨n, c, rfl⟩ : ∃ (n : Fin 50000) (c : Fin 128), i = ix2 n c := ⟨i 0, i 1, eq_ix2 i⟩
  have hp : T * 5000 + p.val < 50000 := by have := n.isLt; have : n.val = T * 5000 + p.val := hi0; omega
  obtain rfl : n = ⟨T * 5000 + p.val, hp⟩ := Fin.ext hi0
  obtain rfl : c = q := Fin.ext hi1
  rw [pay1_apply, Cert.Gcn.projScale_apply]
  refine congrArg₂ (· * ·) (Finset.sum_congr rfl fun l _ => ?_) (h2 p hp)
  rw [h0 p l hp, h1 l c]

/-- The printed index maps, decided over the grid: the row blocks of the first and third arrays move with the output's,
    the weight matrix's block stays at the origin, and the output's block index is the point's number. -/
theorem block_index1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = win1_3.index t (0 : Fin 2)
    ∧ win1_2.index t (1 : Fin 2) = 0
    ∧ win1_3.index t (0 : Fin 2) = t.val
    ∧ win1_3.index t (1 : Fin 2) = 0 :=
  (by decide +kernel : ∀ t : Fin grid1.N, _)

/-- The region's output as one function of its three input arrays as the region finds them. -/
abbrev G1 (V : (c : Dev nD) → (b : Ref sig .tc) → Buf (Elt Ideal) ((c : Thread nD τ).loc b)) (c : Dev nD) : FVec Ideal S50000x128 .f32 :=
  Cert.Gcn.projScale (N := 50000) (K := 256) (C := 128) (V c (Pipeline.arrRef spec1 0)) (V c (Pipeline.arrRef spec1 1)) (V c (Pipeline.arrRef spec1 2))

/-- What point t writes back is block t of the projection of the whole arrays. -/
theorem flushed1_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero zero_offsets1]
  simp only [View.ld_unit_zero (S := S5000x256) zero_offsets1, View.ld_unit_zero (S := S256x128) zero_offsets1, View.ld_unit_zero (S := S5000x1) zero_offsets1]
  obtain ⟨e0, e1, e2, e3, e4, e5, e6, e7⟩ := block_index1 t
  funext j
  show k1_pay1 (F := Ideal) (iblk1 V c 0 t) (iblk1 V c 1 t) (iblk1 V c 2 t) j = G1 V c (((cfg1.win 3).blk t).view.emb j)
  refine block_value1 _ _ _ _ _ _ (win1_3.index t (0 : Fin 2)) ?_ ?_ ?_ j _ ?_ ?_
  · intro p l hp
    show V c (Pipeline.arrRef spec1 0) (((cfg1.win 0).blk t).view.emb (ix2 p l)) = V c (Pipeline.arrRef spec1 0) _
    refine congrArg _ (funext fun a => Fin.ext ?_)
    match a with
    | ⟨0, _⟩ => show win1_0.index t (0 : Fin 2) * 5000 + 1 * p.val = win1_3.index t (0 : Fin 2) * 5000 + p.val; omega
    | ⟨1, _⟩ => show win1_0.index t (1 : Fin 2) * 256 + 1 * l.val = l.val; omega
  · intro l q
    show V c (Pipeline.arrRef spec1 1) (((cfg1.win 1).blk t).view.emb (ix2 l q)) = V c (Pipeline.arrRef spec1 1) _
    refine congrArg _ (funext fun a => Fin.ext ?_)
    match a with
    | ⟨0, _⟩ => show win1_1.index t (0 : Fin 2) * 256 + 1 * l.val = l.val; omega
    | ⟨1, _⟩ => show win1_1.index t (1 : Fin 2) * 128 + 1 * q.val = q.val; omega
  · intro p hp
    show V c (Pipeline.arrRef spec1 2) (((cfg1.win 2).blk t).view.emb (ix2 p 0)) = V c (Pipeline.arrRef spec1 2) _
    refine congrArg _ (funext fun a => Fin.ext ?_)
    match a with
    | ⟨0, _⟩ => show win1_2.index t (0 : Fin 2) * 5000 + 1 * p.val = win1_3.index t (0 : Fin 2) * 5000 + p.val; omega
    | ⟨1, _⟩ => show win1_2.index t (1 : Fin 2) * 1 + 1 * 0 = 0; omega
  · show win1_3.index t (0 : Fin 2) * 5000 + 1 * (j 0).val = win1_3.index t (0 : Fin 2) * 5000 + (j 0).val; omega
  · show win1_3.index t (1 : Fin 2) * 128 + 1 * (j 1).val = (j 1).val; omega

/-- An index of the output array is in point t's block iff each coordinate is in the block's range on its axis. -/
theorem mem_block1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v75).slice (win1_3.rect t)).set ↔ _
  rw [View.set_slice_whole, Rect.mem_set_unit]
  exact Iff.rfl

/-- Every index of the output array is in the block of the point its row falls in: row r is in block r / 5000. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, e6, e7⟩ := block_index1 ⟨(i 0).val / 5000, ht⟩
  have e6' : win1_3.index ⟨(i 0).val / 5000, ht⟩ (0 : Fin 2) = (i 0).val / 5000 := e6
  refine ⟨⟨(i 0).val / 5000, ht⟩, flush1_3 _, ?_⟩
  rw [mem_block1]
  intro a
  match a with
  | ⟨0, _⟩ => show win1_3.index ⟨(i 0).val / 5000, ht⟩ (0 : Fin 2) * 5000 ≤ (i 0).val ∧ (i 0).val < win1_3.index ⟨(i 0).val / 5000, ht⟩ (0 : Fin 2) * 5000 + 5000; omega
  | ⟨1, _⟩ => show win1_3.index ⟨(i 0).val / 5000, ht⟩ (1 : Fin 2) * 128 ≤ (i 1).val ∧ (i 1).val < win1_3.index ⟨(i 0).val / 5000, ht⟩ (1 : Fin 2) * 128 + 128; omega

/-- REGION 1's output array after its run is the projection of its three input arrays as the region finds them. -/
theorem region1_value (V : (c : Dev nD) → (b : Ref sig .tc) → Buf (Elt Ideal) ((c : Thread nD τ).loc b)) (c : Dev nD) :
    (dat1 (F := Ideal) V c).arrAt 3 cfg1.N
      = Cert.Gcn.projScale (N := 50000) (K := 256) (C := 128) (V c (Pipeline.arrRef spec1 0)) (V c (Pipeline.arrRef spec1 1)) (V c (Pipeline.arrRef spec1 2)) :=
  (dat1 (F := Ideal) V c).arrAt_eq_of_cover 3 (G1 V c) (fun t _ => flushed1_eq V c t) (fun i => cover1 i)

end Cert.KernelIdeal.RegionValue

end
-- ==== Proof.RegionValue2.lean ====
/-
  Region 2: the output array of one tiled projection, as one whole-array function of the region's three input arrays.

  The body computes, on a block of 5000 rows, the product of the row block (5000 × 256) with the whole weight matrix
  (256 × 128), each row then scaled by its entry of the 5000 × 1 column block. At the ideal instance the format
  changes are the identity and the matrix product into the zero accumulator is the exact sum over the inner axis, so the
  entry (p, q) of the block is (∑ l, x (p, l) · w (l, q)) · d (p, 0). Point t of the grid reads rows 5000·t … 5000·t + 4999
  of the first and third arrays, the whole second array, and writes rows 5000·t … 5000·t + 4999 of the output; the ten
  blocks tile the 50000 rows (row r lies in block r / 5000), so the output array is the projection of the whole arrays.
-/
import proofs.«133610_j47064251629674_2_alg».proof.Proof.Gen.KernelIdeal.Frame
import proofs.«133610_j47064251629674_2_alg».proof.Proof.Spec
import proofs.«133610_j47064251629674_2_alg».proof.Proof.LibPlainMatmul
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-- The zero offsets of a whole-block access, as the constant function. -/
theorem zero_offsets2 : (![0, 0] : Fin 2 → Nat) = fun _ => 0 := funext fun a => by fin_cases a <;> rfl

/-- The body's dimension numbers are those of the plain product 5000 × 256 by 256 × 128. -/
theorem dot2_eq : dot_S5000x256_S256x128_S5000x128_1_0_0_1_n_n = DotDims.plain 5000 256 128 := rfl

/-- The body's payload at the entry (p, q) of a block: the inner product of row p of the row block with column q of
    the weights, times the row's scale. -/
theorem pay2_apply (v0 : Vec Ideal S5000x256 .f32) (v2 : Vec Ideal S256x128 .f32) (v6 : Vec Ideal S5000x1 .f32)
    (p : Fin 5000) (q : Fin 128) :
    k2_pay1 (F := Ideal) v0 v2 v6 (ix2 p q) = (∑ l : Fin 256, v0 (ix2 p l) * v2 (ix2 l q)) * v6 (ix2 p 0) := by
  unfold k2_pay1
  rw [mulf_apply, shapeCast_self, shapeCast_self, dot2_eq]
  refine congrArg₂ (· * ·) ?_ ?_
  · exact PlainMatmul.plain_matmul_zero_apply 5000 256 128 none (truncf .bf16 v0 bitsLt_bf16_f32) (truncf .bf16 v2 bitsLt_bf16_f32) p q
  · exact broadcastTo_apply v6 broadcasts_S5000x1_S5000x128 (ix2 p q) (ix2 p 0) (fun a => by
      match a with
      | ⟨0, _⟩ => rfl
      | ⟨1, _⟩ => rfl)

/-- The payload of blocks that are rows 5000·T … of the whole arrays (and the whole weight matrix) is, at the entry j of
    the block, the projection of the whole arrays at the entry i = (5000·T + j₀, j₁). -/
theorem block_value2 (A0 : FVec Ideal S50000x256 .f32) (A1 : FVec Ideal S256x128 .f32) (A2 : FVec Ideal S50000x1 .f32)
    (x0 : Vec Ideal S5000x256 .f32) (x1 : Vec Ideal S256x128 .f32) (x2 : Vec Ideal S5000x1 .f32) (T : Nat)
    (h0 : ∀ (p : Fin 5000) (l : Fin 256) (hp : T * 5000 + p.val < 50000), x0 (ix2 p l) = A0 (ix2 ⟨T * 5000 + p.val, hp⟩ l))
    (h1 : ∀ (l : Fin 256) (q : Fin 128), x1 (ix2 l q) = A1 (ix2 l q))
    (h2 : ∀ (p : Fin 5000) (hp : T * 5000 + p.val < 50000), x2 (ix2 p 0) = A2 (ix2 ⟨T * 5000 + p.val, hp⟩ 0))
    (j : S5000x128.Idx) (i : S50000x128.Idx) (hi0 : (i 0).val = T * 5000 + (j 0).val) (hi1 : (i 1).val = (j 1).val) :
    k2_pay1 (F := Ideal) x0 x1 x2 j = Cert.Gcn.projScale A0 A1 A2 i := by
  obtain ⟨p, q, rfl⟩ : ∃ (p : Fin 5000) (q : Fin 128), j = ix2 p q := ⟨j 0, j 1, eq_ix2 j⟩
  obtain ⟨n, c, rfl⟩ : ∃ (n : Fin 50000) (c : Fin 128), i = ix2 n c := ⟨i 0, i 1, eq_ix2 i⟩
  have hp : T * 5000 + p.val < 50000 := by have := n.isLt; have : n.val = T * 5000 + p.val := hi0; omega
  obtain rfl : n = ⟨T * 5000 + p.val, hp⟩ := Fin.ext hi0
  obtain rfl : c = q := Fin.ext hi1
  rw [pay2_apply, Cert.Gcn.projScale_apply]
  refine congrArg₂ (· * ·) (Finset.sum_congr rfl fun l _ => ?_) (h2 p hp)
  rw [h0 p l hp, h1 l c]

/-- The printed index maps, decided over the grid: the row blocks of the first and third arrays move with the output's,
    the weight matrix's block stays at the origin, and the output's block index is the point's number. -/
theorem block_index2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = win2_3.index t (0 : Fin 2)
    ∧ win2_2.index t (1 : Fin 2) = 0
    ∧ win2_3.index t (0 : Fin 2) = t.val
    ∧ win2_3.index t (1 : Fin 2) = 0 :=
  (by decide +kernel : ∀ t : Fin grid2.N, _)

/-- The region's output as one function of its three input arrays as the region finds them. -/
abbrev G2 (V : (c : Dev nD) → (b : Ref sig .tc) → Buf (Elt Ideal) ((c : Thread nD τ).loc b)) (c : Dev nD) : FVec Ideal S50000x128 .f32 :=
  Cert.Gcn.projScale (N := 50000) (K := 256) (C := 128) (V c (Pipeline.arrRef spec2 0)) (V c (Pipeline.arrRef spec2 1)) (V c (Pipeline.arrRef spec2 2))

/-- What point t writes back is block t of the projection of the whole arrays. -/
theorem flushed2_eq (V : (c : Dev nD) → (b : Ref sig .tc) → Buf (Elt Ideal) ((c : Thread nD τ).loc b)) (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero zero_offsets2]
  simp only [View.ld_unit_zero (S := S5000x256) zero_offsets2, View.ld_unit_zero (S := S256x128) zero_offsets2, View.ld_unit_zero (S := S5000x1) zero_offsets2]
  obtain ⟨e0, e1, e2, e3, e4, e5, e6, e7⟩ := block_index2 t
  funext j
  show k2_pay1 (F := Ideal) (iblk2 V c 0 t) (iblk2 V c 1 t) (iblk2 V c 2 t) j = G2 V c (((cfg2.win 3).blk t).view.emb j)
  refine block_value2 _ _ _ _ _ _ (win2_3.index t (0 : Fin 2)) ?_ ?_ ?_ j _ ?_ ?_
  · intro p l hp
    show V c (Pipeline.arrRef spec2 0) (((cfg2.win 0).blk t).view.emb (ix2 p l)) = V c (Pipeline.arrRef spec2 0) _
    refine congrArg _ (funext fun a => Fin.ext ?_)
    match a with
    | ⟨0, _⟩ => show win2_0.index t (0 : Fin 2) * 5000 + 1 * p.val = win2_3.index t (0 : Fin 2) * 5000 + p.val; omega
    | ⟨1, _⟩ => show win2_0.index t (1 : Fin 2) * 256 + 1 * l.val = l.val; omega
  · intro l q
    show V c (Pipeline.arrRef spec2 1) (((cfg2.win 1).blk t).view.emb (ix2 l q)) = V c (Pipeline.arrRef spec2 1) _
    refine congrArg _ (funext fun a => Fin.ext ?_)
    match a with
    | ⟨0, _⟩ => show win2_1.index t (0 : Fin 2) * 256 + 1 * l.val = l.val; omega
    | ⟨1, _⟩ => show win2_1.index t (1 : Fin 2) * 128 + 1 * q.val = q.val; omega
  · intro p hp
    show V c (Pipeline.arrRef spec2 2) (((cfg2.win 2).blk t).view.emb (ix2 p 0)) = V c (Pipeline.arrRef spec2 2) _
    refine congrArg _ (funext fun a => Fin.ext ?_)
    match a with
    | ⟨0, _⟩ => show win2_2.index t (0 : Fin 2) * 5000 + 1 * p.val = win2_3.index t (0 : Fin 2) * 5000 + p.val; omega
    | ⟨1, _⟩ => show win2_2.index t (1 : Fin 2) * 1 + 1 * 0 = 0; omega
  · show win2_3.index t (0 : Fin 2) * 5000 + 1 * (j 0).val = win2_3.index t (0 : Fin 2) * 5000 + (j 0).val; omega
  · show win2_3.index t (1 : Fin 2) * 128 + 1 * (j 1).val = (j 1).val; omega

/-- An index of the output array is in point t's block iff each coordinate is in the block's range on its axis. -/
theorem mem_block2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v98).slice (win2_3.rect t)).set ↔ _
  rw [View.set_slice_whole, Rect.mem_set_unit]
  exact Iff.rfl

/-- Every index of the output array is in the block of the point its row falls in: row r is in block r / 5000. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, -, -, -, e6, e7⟩ := block_index2 ⟨(i 0).val / 5000, ht⟩
  have e6' : win2_3.index ⟨(i 0).val / 5000, ht⟩ (0 : Fin 2) = (i 0).val / 5000 := e6
  refine ⟨⟨(i 0).val / 5000, ht⟩, flush2_3 _, ?_⟩
  rw [mem_block2]
  intro a
  match a with
  | ⟨0, _⟩ => show win2_3.index ⟨(i 0).val / 5000, ht⟩ (0 : Fin 2) * 5000 ≤ (i 0).val ∧ (i 0).val < win2_3.index ⟨(i 0).val / 5000, ht⟩ (0 : Fin 2) * 5000 + 5000; omega
  | ⟨1, _⟩ => show win2_3.index ⟨(i 0).val / 5000, ht⟩ (1 : Fin 2) * 128 ≤ (i 1).val ∧ (i 1).val < win2_3.index ⟨(i 0).val / 5000, ht⟩ (1 : Fin 2) * 128 + 128; omega

/-- REGION 2's output array after its run is the projection of its three input arrays as the region finds them. -/
theorem region2_value (V : (c : Dev nD) → (b : Ref sig .tc) → Buf (Elt Ideal) ((c : Thread nD τ).loc b)) (c : Dev nD) :
    (dat2 (F := Ideal) V c).arrAt 3 cfg2.N
      = Cert.Gcn.projScale (N := 50000) (K := 256) (C := 128) (V c (Pipeline.arrRef spec2 0)) (V c (Pipeline.arrRef spec2 1)) (V c (Pipeline.arrRef spec2 2)) :=
  (dat2 (F := Ideal) V c).arrAt_eq_of_cover 3 (G2 V c) (fun t _ => flushed2_eq V c t) (fun i => cover2 i)

end Cert.KernelIdeal.RegionValue

end
-- ==== Proof.RegionValue3.lean ====
/-
  Region 3: the output array of one tiled projection, as one whole-array function of the region's three input arrays.

  The body computes, on a block of 5000 rows, the product of the row block (5000 × 128) with the whole weight matrix
  (128 × 64), each row then scaled by its entry of the 5000 × 1 column block. At the ideal instance the format
  changes are the identity and the matrix product into the zero accumulator is the exact sum over the inner axis, so the
  entry (p, q) of the block is (∑ l, x (p, l) · w (l, q)) · d (p, 0). Point t of the grid reads rows 5000·t … 5000·t + 4999
  of the first and third arrays, the whole second array, and writes rows 5000·t … 5000·t + 4999 of the output; the ten
  blocks tile the 50000 rows (row r lies in block r / 5000), so the output array is the projection of the whole arrays.
-/
import proofs.«133610_j47064251629674_2_alg».proof.Proof.Gen.KernelIdeal.Frame
import proofs.«133610_j47064251629674_2_alg».proof.Proof.Spec
import proofs.«133610_j47064251629674_2_alg».proof.Proof.LibPlainMatmul
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-- The zero offsets of a whole-block access, as the constant function. -/
theorem zero_offsets3 : (![0, 0] : Fin 2 → Nat) = fun _ => 0 := funext fun a => by fin_cases a <;> rfl

/-- The body's dimension numbers are those of the plain product 5000 × 128 by 128 × 64. -/
theorem dot3_eq : dot_S5000x128_S128x64_S5000x64_1_0_0_1_n_n = DotDims.plain 5000 128 64 := rfl

/-- The body's payload at the entry (p, q) of a block: the inner product of row p of the row block with column q of
    the weights, times the row's scale. -/
theorem pay3_apply (v0 : Vec Ideal S5000x128 .f32) (v2 : Vec Ideal S128x64 .f32) (v6 : Vec Ideal S5000x1 .f32)
    (p : Fin 5000) (q : Fin 64) :
    k3_pay1 (F := Ideal) v0 v2 v6 (ix2 p q) = (∑ l : Fin 128, v0 (ix2 p l) * v2 (ix2 l q)) * v6 (ix2 p 0) := by
  unfold k3_pay1
  rw [mulf_apply, shapeCast_self, shapeCast_self, shapeCast_self, dot3_eq]
  refine congrArg₂ (· * ·) ?_ ?_
  · exact PlainMatmul.plain_matmul_zero_apply 5000 128 64 none (truncf .bf16 v0 bitsLt_bf16_f32) (truncf .bf16 v2 bitsLt_bf16_f32) p q
  · exact broadcastTo_apply v6 broadcasts_S5000x1_S5000x64 (ix2 p q) (ix2 p 0) (fun a => by
      match a with
      | ⟨0, _⟩ => rfl
      | ⟨1, _⟩ => rfl)

/-- The payload of blocks that are rows 5000·T … of the whole arrays (and the whole weight matrix) is, at the entry j of
    the block, the projection of the whole arrays at the entry i = (5000·T + j₀, j₁). -/
theorem block_value3 (A0 : FVec Ideal S50000x128 .f32) (A1 : FVec Ideal S128x64 .f32) (A2 : FVec Ideal S50000x1 .f32)
    (x0 : Vec Ideal S5000x128 .f32) (x1 : Vec Ideal S128x64 .f32) (x2 : Vec Ideal S5000x1 .f32) (T : Nat)
    (h0 : ∀ (p : Fin 5000) (l : Fin 128) (hp : T * 5000 + p.val < 50000), x0 (ix2 p l) = A0 (ix2 ⟨T * 5000 + p.val, hp⟩ l))
    (h1 : ∀ (l : Fin 128) (q : Fin 64), x1 (ix2 l q) = A1 (ix2 l q))
    (h2 : ∀ (p : Fin 5000) (hp : T * 5000 + p.val < 50000), x2 (ix2 p 0) = A2 (ix2 ⟨T * 5000 + p.val, hp⟩ 0))
    (j : S5000x64.Idx) (i : S50000x64.Idx) (hi0 : (i 0).val = T * 5000 + (j 0).val) (hi1 : (i 1).val = (j 1).val) :
    k3_pay1 (F := Ideal) x0 x1 x2 j = Cert.Gcn.projScale A0 A1 A2 i := by
  obtain ⟨p, q, rfl⟩ : ∃ (p : Fin 5000) (q : Fin 64), j = ix2 p q := ⟨j 0, j 1, eq_ix2 j⟩
  obtain ⟨n, c, rfl⟩ : ∃ (n : Fin 50000) (c : Fin 64), i = ix2 n c := ⟨i 0, i 1, eq_ix2 i⟩
  have hp : T * 5000 + p.val < 50000 := by have := n.isLt; have : n.val = T * 5000 + p.val := hi0; omega
  obtain rfl : n = ⟨T * 5000 + p.val, hp⟩ := Fin.ext hi0
  obtain rfl : c = q := Fin.ext hi1
  rw [pay3_apply, Cert.Gcn.projScale_apply]
  refine congrArg₂ (· * ·) (Finset.sum_congr rfl fun l _ => ?_) (h2 p hp)
  rw [h0 p l hp, h1 l c]

/-- The printed index maps, decided over the grid: the row blocks of the first and third arrays move with the output's,
    the weight matrix's block stays at the origin, and the output's block index is the point's number. -/
theorem block_index3 : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = win3_3.index t (0 : Fin 2)
    ∧ win3_2.index t (1 : Fin 2) = 0
    ∧ win3_3.index t (0 : Fin 2) = t.val
    ∧ win3_3.index t (1 : Fin 2) = 0 :=
  (by decide +kernel : ∀ t : Fin grid3.N, _)

/-- The region's output as one function of its three input arrays as the region finds them. -/
abbrev G3 (V : (c : Dev nD) → (b : Ref sig .tc) → Buf (Elt Ideal) ((c : Thread nD τ).loc b)) (c : Dev nD) : FVec Ideal S50000x64 .f32 :=
  Cert.Gcn.projScale (N := 50000) (K := 128) (C := 64) (V c (Pipeline.arrRef spec3 0)) (V c (Pipeline.arrRef spec3 1)) (V c (Pipeline.arrRef spec3 2))

/-- What point t writes back is block t of the projection of the whole arrays. -/
theorem flushed3_eq (V : (c : Dev nD) → (b : Ref sig .tc) → Buf (Elt Ideal) ((c : Thread nD τ).loc b)) (c : Dev nD) (t : Fin cfg3.N) :
    (dat3 (F := Ideal) V c).flushed 3 t = ((cfg3.win 3).blk t).view.read (Elt Ideal) (G3 V c) := by
  show (cfg3.win 3).cut (grid3.coords t) ((dat3 V c).after 3 t) = _
  rw [after3_3]
  unfold out3_3
  rw [View.canon_unit_zero zero_offsets3]
  simp only [View.ld_unit_zero (S := S5000x128) zero_offsets3, View.ld_unit_zero (S := S128x64) zero_offsets3, View.ld_unit_zero (S := S5000x1) zero_offsets3]
  obtain ⟨e0, e1, e2, e3, e4, e5, e6, e7⟩ := block_index3 t
  funext j
  show k3_pay1 (F := Ideal) (iblk3 V c 0 t) (iblk3 V c 1 t) (iblk3 V c 2 t) j = G3 V c (((cfg3.win 3).blk t).view.emb j)
  refine block_value3 _ _ _ _ _ _ (win3_3.index t (0 : Fin 2)) ?_ ?_ ?_ j _ ?_ ?_
  · intro p l hp
    show V c (Pipeline.arrRef spec3 0) (((cfg3.win 0).blk t).view.emb (ix2 p l)) = V c (Pipeline.arrRef spec3 0) _
    refine congrArg _ (funext fun a => Fin.ext ?_)
    match a with
    | ⟨0, _⟩ => show win3_0.index t (0 : Fin 2) * 5000 + 1 * p.val = win3_3.index t (0 : Fin 2) * 5000 + p.val; omega
    | ⟨1, _⟩ => show win3_0.index t (1 : Fin 2) * 128 + 1 * l.val = l.val; omega
  · intro l q
    show V c (Pipeline.arrRef spec3 1) (((cfg3.win 1).blk t).view.emb (ix2 l q)) = V c (Pipeline.arrRef spec3 1) _
    refine congrArg _ (funext fun a => Fin.ext ?_)
    match a with
    | ⟨0, _⟩ => show win3_1.index t (0 : Fin 2) * 128 + 1 * l.val = l.val; omega
    | ⟨1, _⟩ => show win3_1.index t (1 : Fin 2) * 64 + 1 * q.val = q.val; omega
  · intro p hp
    show V c (Pipeline.arrRef spec3 2) (((cfg3.win 2).blk t).view.emb (ix2 p 0)) = V c (Pipeline.arrRef spec3 2) _
    refine congrArg _ (funext fun a => Fin.ext ?_)
    match a with
    | ⟨0, _⟩ => show win3_2.index t (0 : Fin 2) * 5000 + 1 * p.val = win3_3.index t (0 : Fin 2) * 5000 + p.val; omega
    | ⟨1, _⟩ => show win3_2.index t (1 : Fin 2) * 1 + 1 * 0 = 0; omega
  · show win3_3.index t (0 : Fin 2) * 5000 + 1 * (j 0).val = win3_3.index t (0 : Fin 2) * 5000 + (j 0).val; omega
  · show win3_3.index t (1 : Fin 2) * 64 + 1 * (j 1).val = (j 1).val; omega

/-- An index of the output array is in point t's block iff each coordinate is in the block's range on its axis. -/
theorem mem_block3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v123).slice (win3_3.rect t)).set ↔ _
  rw [View.set_slice_whole, Rect.mem_set_unit]
  exact Iff.rfl

/-- Every index of the output array is in the block of the point its row falls in: row r is in block r / 5000. -/
theorem cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  have ht : (i 0).val / 5000 < cfg3.N := by rw [hN]; omega
  obtain ⟨-, -, -, -, -, -, e6, e7⟩ := block_index3 ⟨(i 0).val / 5000, ht⟩
  have e6' : win3_3.index ⟨(i 0).val / 5000, ht⟩ (0 : Fin 2) = (i 0).val / 5000 := e6
  refine ⟨⟨(i 0).val / 5000, ht⟩, flush3_3 _, ?_⟩
  rw [mem_block3]
  intro a
  match a with
  | ⟨0, _⟩ => show win3_3.index ⟨(i 0).val / 5000, ht⟩ (0 : Fin 2) * 5000 ≤ (i 0).val ∧ (i 0).val < win3_3.index ⟨(i 0).val / 5000, ht⟩ (0 : Fin 2) * 5000 + 5000; omega
  | ⟨1, _⟩ => show win3_3.index ⟨(i 0).val / 5000, ht⟩ (1 : Fin 2) * 64 ≤ (i 1).val ∧ (i 1).val < win3_3.index ⟨(i 0).val / 5000, ht⟩ (1 : Fin 2) * 64 + 64; omega

/-- REGION 3's output array after its run is the projection of its three input arrays as the region finds them. -/
theorem region3_value (V : (c : Dev nD) → (b : Ref sig .tc) → Buf (Elt Ideal) ((c : Thread nD τ).loc b)) (c : Dev nD) :
    (dat3 (F := Ideal) V c).arrAt 3 cfg3.N
      = Cert.Gcn.projScale (N := 50000) (K := 128) (C := 64) (V c (Pipeline.arrRef spec3 0)) (V c (Pipeline.arrRef spec3 1)) (V c (Pipeline.arrRef spec3 2)) :=
  (dat3 (F := Ideal) V c).arrAt_eq_of_cover 3 (G3 V c) (fun t _ => flushed3_eq V c t) (fun i => cover3 i)

end Cert.KernelIdeal.RegionValue

end
-- ==== Proof.RegionValue4.lean ====
/-
  Region 4: the output array of one tiled projection, as one whole-array function of the region's three input arrays.

  The body computes, on a block of 5000 rows, the product of the row block (5000 × 128) with the whole weight matrix
  (128 × 64), each row then scaled by its entry of the 5000 × 1 column block. At the ideal instance the format
  changes are the identity and the matrix product into the zero accumulator is the exact sum over the inner axis, so the
  entry (p, q) of the block is (∑ l, x (p, l) · w (l, q)) · d (p, 0). Point t of the grid reads rows 5000·t … 5000·t + 4999
  of the first and third arrays, the whole second array, and writes rows 5000·t … 5000·t + 4999 of the output; the ten
  blocks tile the 50000 rows (row r lies in block r / 5000), so the output array is the projection of the whole arrays.
-/
import proofs.«133610_j47064251629674_2_alg».proof.Proof.Gen.KernelIdeal.Frame
import proofs.«133610_j47064251629674_2_alg».proof.Proof.Spec
import proofs.«133610_j47064251629674_2_alg».proof.Proof.LibPlainMatmul
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-- The zero offsets of a whole-block access, as the constant function. -/
theorem zero_offsets4 : (![0, 0] : Fin 2 → Nat) = fun _ => 0 := funext fun a => by fin_cases a <;> rfl

/-- The body's dimension numbers are those of the plain product 5000 × 128 by 128 × 64. -/
theorem dot4_eq : dot_S5000x128_S128x64_S5000x64_1_0_0_1_n_n = DotDims.plain 5000 128 64 := rfl

/-- The body's payload at the entry (p, q) of a block: the inner product of row p of the row block with column q of
    the weights, times the row's scale. -/
theorem pay4_apply (v0 : Vec Ideal S5000x128 .f32) (v2 : Vec Ideal S128x64 .f32) (v6 : Vec Ideal S5000x1 .f32)
    (p : Fin 5000) (q : Fin 64) :
    k4_pay1 (F := Ideal) v0 v2 v6 (ix2 p q) = (∑ l : Fin 128, v0 (ix2 p l) * v2 (ix2 l q)) * v6 (ix2 p 0) := by
  unfold k4_pay1
  rw [mulf_apply, shapeCast_self, shapeCast_self, shapeCast_self, dot4_eq]
  refine congrArg₂ (· * ·) ?_ ?_
  · exact PlainMatmul.plain_matmul_zero_apply 5000 128 64 none (truncf .bf16 v0 bitsLt_bf16_f32) (truncf .bf16 v2 bitsLt_bf16_f32) p q
  · exact broadcastTo_apply v6 broadcasts_S5000x1_S5000x64 (ix2 p q) (ix2 p 0) (fun a => by
      match a with
      | ⟨0, _⟩ => rfl
      | ⟨1, _⟩ => rfl)

/-- The payload of blocks that are rows 5000·T … of the whole arrays (and the whole weight matrix) is, at the entry j of
    the block, the projection of the whole arrays at the entry i = (5000·T + j₀, j₁). -/
theorem block_value4 (A0 : FVec Ideal S50000x128 .f32) (A1 : FVec Ideal S128x64 .f32) (A2 : FVec Ideal S50000x1 .f32)
    (x0 : Vec Ideal S5000x128 .f32) (x1 : Vec Ideal S128x64 .f32) (x2 : Vec Ideal S5000x1 .f32) (T : Nat)
    (h0 : ∀ (p : Fin 5000) (l : Fin 128) (hp : T * 5000 + p.val < 50000), x0 (ix2 p l) = A0 (ix2 ⟨T * 5000 + p.val, hp⟩ l))
    (h1 : ∀ (l : Fin 128) (q : Fin 64), x1 (ix2 l q) = A1 (ix2 l q))
    (h2 : ∀ (p : Fin 5000) (hp : T * 5000 + p.val < 50000), x2 (ix2 p 0) = A2 (ix2 ⟨T * 5000 + p.val, hp⟩ 0))
    (j : S5000x64.Idx) (i : S50000x64.Idx) (hi0 : (i 0).val = T * 5000 + (j 0).val) (hi1 : (i 1).val = (j 1).val) :
    k4_pay1 (F := Ideal) x0 x1 x2 j = Cert.Gcn.projScale A0 A1 A2 i := by
  obtain ⟨p, q, rfl⟩ : ∃ (p : Fin 5000) (q : Fin 64), j = ix2 p q := ⟨j 0, j 1, eq_ix2 j⟩
  obtain ⟨n, c, rfl⟩ : ∃ (n : Fin 50000) (c : Fin 64), i = ix2 n c := ⟨i 0, i 1, eq_ix2 i⟩
  have hp : T * 5000 + p.val < 50000 := by have := n.isLt; have : n.val = T * 5000 + p.val := hi0; omega
  obtain rfl : n = ⟨T * 5000 + p.val, hp⟩ := Fin.ext hi0
  obtain rfl : c = q := Fin.ext hi1
  rw [pay4_apply, Cert.Gcn.projScale_apply]
  refine congrArg₂ (· * ·) (Finset.sum_congr rfl fun l _ => ?_) (h2 p hp)
  rw [h0 p l hp, h1 l c]

/-- The printed index maps, decided over the grid: the row blocks of the first and third arrays move with the output's,
    the weight matrix's block stays at the origin, and the output's block index is the point's number. -/
theorem block_index4 : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = win4_3.index t (0 : Fin 2)
    ∧ win4_2.index t (1 : Fin 2) = 0
    ∧ win4_3.index t (0 : Fin 2) = t.val
    ∧ win4_3.index t (1 : Fin 2) = 0 :=
  (by decide +kernel : ∀ t : Fin grid4.N, _)

/-- The region's output as one function of its three input arrays as the region finds them. -/
abbrev G4 (V : (c : Dev nD) → (b : Ref sig .tc) → Buf (Elt Ideal) ((c : Thread nD τ).loc b)) (c : Dev nD) : FVec Ideal S50000x64 .f32 :=
  Cert.Gcn.projScale (N := 50000) (K := 128) (C := 64) (V c (Pipeline.arrRef spec4 0)) (V c (Pipeline.arrRef spec4 1)) (V c (Pipeline.arrRef spec4 2))

/-- What point t writes back is block t of the projection of the whole arrays. -/
theorem flushed4_eq (V : (c : Dev nD) → (b : Ref sig .tc) → Buf (Elt Ideal) ((c : Thread nD τ).loc b)) (c : Dev nD) (t : Fin cfg4.N) :
    (dat4 (F := Ideal) V c).flushed 3 t = ((cfg4.win 3).blk t).view.read (Elt Ideal) (G4 V c) := by
  show (cfg4.win 3).cut (grid4.coords t) ((dat4 V c).after 3 t) = _
  rw [after4_3]
  unfold out4_3
  rw [View.canon_unit_zero zero_offsets4]
  simp only [View.ld_unit_zero (S := S5000x128) zero_offsets4, View.ld_unit_zero (S := S128x64) zero_offsets4, View.ld_unit_zero (S := S5000x1) zero_offsets4]
  obtain ⟨e0, e1, e2, e3, e4, e5, e6, e7⟩ := block_index4 t
  funext j
  show k4_pay1 (F := Ideal) (iblk4 V c 0 t) (iblk4 V c 1 t) (iblk4 V c 2 t) j = G4 V c (((cfg4.win 3).blk t).view.emb j)
  refine block_value4 _ _ _ _ _ _ (win4_3.index t (0 : Fin 2)) ?_ ?_ ?_ j _ ?_ ?_
  · intro p l hp
    show V c (Pipeline.arrRef spec4 0) (((cfg4.win 0).blk t).view.emb (ix2 p l)) = V c (Pipeline.arrRef spec4 0) _
    refine congrArg _ (funext fun a => Fin.ext ?_)
    match a with
    | ⟨0, _⟩ => show win4_0.index t (0 : Fin 2) * 5000 + 1 * p.val = win4_3.index t (0 : Fin 2) * 5000 + p.val; omega
    | ⟨1, _⟩ => show win4_0.index t (1 : Fin 2) * 128 + 1 * l.val = l.val; omega
  · intro l q
    show V c (Pipeline.arrRef spec4 1) (((cfg4.win 1).blk t).view.emb (ix2 l q)) = V c (Pipeline.arrRef spec4 1) _
    refine congrArg _ (funext fun a => Fin.ext ?_)
    match a with
    | ⟨0, _⟩ => show win4_1.index t (0 : Fin 2) * 128 + 1 * l.val = l.val; omega
    | ⟨1, _⟩ => show win4_1.index t (1 : Fin 2) * 64 + 1 * q.val = q.val; omega
  · intro p hp
    show V c (Pipeline.arrRef spec4 2) (((cfg4.win 2).blk t).view.emb (ix2 p 0)) = V c (Pipeline.arrRef spec4 2) _
    refine congrArg _ (funext fun a => Fin.ext ?_)
    match a with
    | ⟨0, _⟩ => show win4_2.index t (0 : Fin 2) * 5000 + 1 * p.val = win4_3.index t (0 : Fin 2) * 5000 + p.val; omega
    | ⟨1, _⟩ => show win4_2.index t (1 : Fin 2) * 1 + 1 * 0 = 0; omega
  · show win4_3.index t (0 : Fin 2) * 5000 + 1 * (j 0).val = win4_3.index t (0 : Fin 2) * 5000 + (j 0).val; omega
  · show win4_3.index t (1 : Fin 2) * 64 + 1 * (j 1).val = (j 1).val; omega

/-- An index of the output array is in point t's block iff each coordinate is in the block's range on its axis. -/
theorem mem_block4 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v146).slice (win4_3.rect t)).set ↔ _
  rw [View.set_slice_whole, Rect.mem_set_unit]
  exact Iff.rfl

/-- Every index of the output array is in the block of the point its row falls in: row r is in block r / 5000. -/
theorem cover4 (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := N_4
  have ht : (i 0).val / 5000 < cfg4.N := by rw [hN]; omega
  obtain ⟨-, -, -, -, -, -, e6, e7⟩ := block_index4 ⟨(i 0).val / 5000, ht⟩
  have e6' : win4_3.index ⟨(i 0).val / 5000, ht⟩ (0 : Fin 2) = (i 0).val / 5000 := e6
  refine ⟨⟨(i 0).val / 5000, ht⟩, flush4_3 _, ?_⟩
  rw [mem_block4]
  intro a
  match a with
  | ⟨0, _⟩ => show win4_3.index ⟨(i 0).val / 5000, ht⟩ (0 : Fin 2) * 5000 ≤ (i 0).val ∧ (i 0).val < win4_3.index ⟨(i 0).val / 5000, ht⟩ (0 : Fin 2) * 5000 + 5000; omega
  | ⟨1, _⟩ => show win4_3.index ⟨(i 0).val / 5000, ht⟩ (1 : Fin 2) * 64 ≤ (i 1).val ∧ (i 1).val < win4_3.index ⟨(i 0).val / 5000, ht⟩ (1 : Fin 2) * 64 + 64; omega

/-- REGION 4's output array after its run is the projection of its three input arrays as the region finds them. -/
theorem region4_value (V : (c : Dev nD) → (b : Ref sig .tc) → Buf (Elt Ideal) ((c : Thread nD τ).loc b)) (c : Dev nD) :
    (dat4 (F := Ideal) V c).arrAt 3 cfg4.N
      = Cert.Gcn.projScale (N := 50000) (K := 128) (C := 64) (V c (Pipeline.arrRef spec4 0)) (V c (Pipeline.arrRef spec4 1)) (V c (Pipeline.arrRef spec4 2)) :=
  (dat4 (F := Ideal) V c).arrAt_eq_of_cover 3 (G4 V c) (fun t _ => flushed4_eq V c t) (fun i => cover4 i)

end Cert.KernelIdeal.RegionValue

end
-- ==== Proof.RegionValue5.lean ====
/-
  Region 5: the output array of one tiled projection, as one whole-array function of the region's three input arrays.

  The body computes, on a block of 5000 rows, the product of the row block (5000 × 128) with the whole weight matrix
  (128 × 64), each row then scaled by its entry of the 5000 × 1 column block. At the ideal instance the format
  changes are the identity and the matrix product into the zero accumulator is the exact sum over the inner axis, so the
  entry (p, q) of the block is (∑ l, x (p, l) · w (l, q)) · d (p, 0). Point t of the grid reads rows 5000·t … 5000·t + 4999
  of the first and third arrays, the whole second array, and writes rows 5000·t … 5000·t + 4999 of the output; the ten
  blocks tile the 50000 rows (row r lies in block r / 5000), so the output array is the projection of the whole arrays.
-/
import proofs.«133610_j47064251629674_2_alg».proof.Proof.Gen.KernelIdeal.Frame
import proofs.«133610_j47064251629674_2_alg».proof.Proof.Spec
import proofs.«133610_j47064251629674_2_alg».proof.Proof.LibPlainMatmul
import Idealize.ShloMosaic.Lib.Pipeline.Value
import Idealize.ShloMosaic.Lib.ValueIdx

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-- The zero offsets of a whole-block access, as the constant function. -/
theorem zero_offsets5 : (![0, 0] : Fin 2 → Nat) = fun _ => 0 := funext fun a => by fin_cases a <;> rfl

/-- The body's dimension numbers are those of the plain product 5000 × 128 by 128 × 64. -/
theorem dot5_eq : dot_S5000x128_S128x64_S5000x64_1_0_0_1_n_n = DotDims.plain 5000 128 64 := rfl

/-- The body's payload at the entry (p, q) of a block: the inner product of row p of the row block with column q of
    the weights, times the row's scale. -/
theorem pay5_apply (v0 : Vec Ideal S5000x128 .f32) (v2 : Vec Ideal S128x64 .f32) (v6 : Vec Ideal S5000x1 .f32)
    (p : Fin 5000) (q : Fin 64) :
    k5_pay1 (F := Ideal) v0 v2 v6 (ix2 p q) = (∑ l : Fin 128, v0 (ix2 p l) * v2 (ix2 l q)) * v6 (ix2 p 0) := by
  unfold k5_pay1
  rw [mulf_apply, shapeCast_self, shapeCast_self, shapeCast_self, dot5_eq]
  refine congrArg₂ (· * ·) ?_ ?_
  · exact PlainMatmul.plain_matmul_zero_apply 5000 128 64 none (truncf .bf16 v0 bitsLt_bf16_f32) (truncf .bf16 v2 bitsLt_bf16_f32) p q
  · exact broadcastTo_apply v6 broadcasts_S5000x1_S5000x64 (ix2 p q) (ix2 p 0) (fun a => by
      match a with
      | ⟨0, _⟩ => rfl
      | ⟨1, _⟩ => rfl)

/-- The payload of blocks that are rows 5000·T … of the whole arrays (and the whole weight matrix) is, at the entry j of
    the block, the projection of the whole arrays at the entry i = (5000·T + j₀, j₁). -/
theorem block_value5 (A0 : FVec Ideal S50000x128 .f32) (A1 : FVec Ideal S128x64 .f32) (A2 : FVec Ideal S50000x1 .f32)
    (x0 : Vec Ideal S5000x128 .f32) (x1 : Vec Ideal S128x64 .f32) (x2 : Vec Ideal S5000x1 .f32) (T : Nat)
    (h0 : ∀ (p : Fin 5000) (l : Fin 128) (hp : T * 5000 + p.val < 50000), x0 (ix2 p l) = A0 (ix2 ⟨T * 5000 + p.val, hp⟩ l))
    (h1 : ∀ (l : Fin 128) (q : Fin 64), x1 (ix2 l q) = A1 (ix2 l q))
    (h2 : ∀ (p : Fin 5000) (hp : T * 5000 + p.val < 50000), x2 (ix2 p 0) = A2 (ix2 ⟨T * 5000 + p.val, hp⟩ 0))
    (j : S5000x64.Idx) (i : S50000x64.Idx) (hi0 : (i 0).val = T * 5000 + (j 0).val) (hi1 : (i 1).val = (j 1).val) :
    k5_pay1 (F := Ideal) x0 x1 x2 j = Cert.Gcn.projScale A0 A1 A2 i := by
  obtain ⟨p, q, rfl⟩ : ∃ (p : Fin 5000) (q : Fin 64), j = ix2 p q := ⟨j 0, j 1, eq_ix2 j⟩
  obtain ⟨n, c, rfl⟩ : ∃ (n : Fin 50000) (c : Fin 64), i = ix2 n c := ⟨i 0, i 1, eq_ix2 i⟩
  have hp : T * 5000 + p.val < 50000 := by have := n.isLt; have : n.val = T * 5000 + p.val := hi0; omega
  obtain rfl : n = ⟨T * 5000 + p.val, hp⟩ := Fin.ext hi0
  obtain rfl : c = q := Fin.ext hi1
  rw [pay5_apply, Cert.Gcn.projScale_apply]
  refine congrArg₂ (· * ·) (Finset.sum_congr rfl fun l _ => ?_) (h2 p hp)
  rw [h0 p l hp, h1 l c]

/-- The printed index maps, decided over the grid: the row blocks of the first and third arrays move with the output's,
    the weight matrix's block stays at the origin, and the output's block index is the point's number. -/
theorem block_index5 : ∀ t : Fin cfg5.N, win5_0.index t (0 : Fin 2) = win5_3.index t (0 : Fin 2)
    ∧ win5_0.index t (1 : Fin 2) = 0
    ∧ win5_1.index t (0 : Fin 2) = 0
    ∧ win5_1.index t (1 : Fin 2) = 0
    ∧ win5_2.index t (0 : Fin 2) = win5_3.index t (0 : Fin 2)
    ∧ win5_2.index t (1 : Fin 2) = 0
    ∧ win5_3.index t (0 : Fin 2) = t.val
    ∧ win5_3.index t (1 : Fin 2) = 0 :=
  (by decide +kernel : ∀ t : Fin grid5.N, _)

/-- The region's output as one function of its three input arrays as the region finds them. -/
abbrev G5 (V : (c : Dev nD) → (b : Ref sig .tc) → Buf (Elt Ideal) ((c : Thread nD τ).loc b)) (c : Dev nD) : FVec Ideal S50000x64 .f32 :=
  Cert.Gcn.projScale (N := 50000) (K := 128) (C := 64) (V c (Pipeline.arrRef spec5 0)) (V c (Pipeline.arrRef spec5 1)) (V c (Pipeline.arrRef spec5 2))

/-- What point t writes back is block t of the projection of the whole arrays. -/
theorem flushed5_eq (V : (c : Dev nD) → (b : Ref sig .tc) → Buf (Elt Ideal) ((c : Thread nD τ).loc b)) (c : Dev nD) (t : Fin cfg5.N) :
    (dat5 (F := Ideal) V c).flushed 3 t = ((cfg5.win 3).blk t).view.read (Elt Ideal) (G5 V c) := by
  show (cfg5.win 3).cut (grid5.coords t) ((dat5 V c).after 3 t) = _
  rw [after5_3]
  unfold out5_3
  rw [View.canon_unit_zero zero_offsets5]
  simp only [View.ld_unit_zero (S := S5000x128) zero_offsets5, View.ld_unit_zero (S := S128x64) zero_offsets5, View.ld_unit_zero (S := S5000x1) zero_offsets5]
  obtain ⟨e0, e1, e2, e3, e4, e5, e6, e7⟩ := block_index5 t
  funext j
  show k5_pay1 (F := Ideal) (iblk5 V c 0 t) (iblk5 V c 1 t) (iblk5 V c 2 t) j = G5 V c (((cfg5.win 3).blk t).view.emb j)
  refine block_value5 _ _ _ _ _ _ (win5_3.index t (0 : Fin 2)) ?_ ?_ ?_ j _ ?_ ?_
  · intro p l hp
    show V c (Pipeline.arrRef spec5 0) (((cfg5.win 0).blk t).view.emb (ix2 p l)) = V c (Pipeline.arrRef spec5 0) _
    refine congrArg _ (funext fun a => Fin.ext ?_)
    match a with
    | ⟨0, _⟩ => show win5_0.index t (0 : Fin 2) * 5000 + 1 * p.val = win5_3.index t (0 : Fin 2) * 5000 + p.val; omega
    | ⟨1, _⟩ => show win5_0.index t (1 : Fin 2) * 128 + 1 * l.val = l.val; omega
  · intro l q
    show V c (Pipeline.arrRef spec5 1) (((cfg5.win 1).blk t).view.emb (ix2 l q)) = V c (Pipeline.arrRef spec5 1) _
    refine congrArg _ (funext fun a => Fin.ext ?_)
    match a with
    | ⟨0, _⟩ => show win5_1.index t (0 : Fin 2) * 128 + 1 * l.val = l.val; omega
    | ⟨1, _⟩ => show win5_1.index t (1 : Fin 2) * 64 + 1 * q.val = q.val; omega
  · intro p hp
    show V c (Pipeline.arrRef spec5 2) (((cfg5.win 2).blk t).view.emb (ix2 p 0)) = V c (Pipeline.arrRef spec5 2) _
    refine congrArg _ (funext fun a => Fin.ext ?_)
    match a with
    | ⟨0, _⟩ => show win5_2.index t (0 : Fin 2) * 5000 + 1 * p.val = win5_3.index t (0 : Fin 2) * 5000 + p.val; omega
    | ⟨1, _⟩ => show win5_2.index t (1 : Fin 2) * 1 + 1 * 0 = 0; omega
  · show win5_3.index t (0 : Fin 2) * 5000 + 1 * (j 0).val = win5_3.index t (0 : Fin 2) * 5000 + (j 0).val; omega
  · show win5_3.index t (1 : Fin 2) * 64 + 1 * (j 1).val = (j 1).val; omega

/-- An index of the output array is in point t's block iff each coordinate is in the block's range on its axis. -/
theorem mem_block5 (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v169).slice (win5_3.rect t)).set ↔ _
  rw [View.set_slice_whole, Rect.mem_set_unit]
  exact Iff.rfl

/-- Every index of the output array is in the block of the point its row falls in: row r is in block r / 5000. -/
theorem cover5 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  have hN : cfg5.N = 10 := N_5
  have ht : (i 0).val / 5000 < cfg5.N := by rw [hN]; omega
  obtain ⟨-, -, -, -, -, -, e6, e7⟩ := block_index5 ⟨(i 0).val / 5000, ht⟩
  have e6' : win5_3.index ⟨(i 0).val / 5000, ht⟩ (0 : Fin 2) = (i 0).val / 5000 := e6
  refine ⟨⟨(i 0).val / 5000, ht⟩, flush5_3 _, ?_⟩
  rw [mem_block5]
  intro a
  match a with
  | ⟨0, _⟩ => show win5_3.index ⟨(i 0).val / 5000, ht⟩ (0 : Fin 2) * 5000 ≤ (i 0).val ∧ (i 0).val < win5_3.index ⟨(i 0).val / 5000, ht⟩ (0 : Fin 2) * 5000 + 5000; omega
  | ⟨1, _⟩ => show win5_3.index ⟨(i 0).val / 5000, ht⟩ (1 : Fin 2) * 64 ≤ (i 1).val ∧ (i 1).val < win5_3.index ⟨(i 0).val / 5000, ht⟩ (1 : Fin 2) * 64 + 64; omega

/-- REGION 5's output array after its run is the projection of its three input arrays as the region finds them. -/
theorem region5_value (V : (c : Dev nD) → (b : Ref sig .tc) → Buf (Elt Ideal) ((c : Thread nD τ).loc b)) (c : Dev nD) :
    (dat5 (F := Ideal) V c).arrAt 3 cfg5.N
      = Cert.Gcn.projScale (N := 50000) (K := 128) (C := 64) (V c (Pipeline.arrRef spec5 0)) (V c (Pipeline.arrRef spec5 1)) (V c (Pipeline.arrRef spec5 2)) :=
  (dat5 (F := Ideal) V c).arrAt_eq_of_cover 3 (G5 V c) (fun t _ => flushed5_eq V c t) (fun i => cover5 i)

end Cert.KernelIdeal.RegionValue

end
-- ==== Proof.KernelValue.lean ====
/-
  What the idealized kernel program leaves in its result buffer, as a function of its six argument arrays: the whole
  network in the kernel's arrangement (`outK`).  The program's buffers are written once each, so a value is read where
  it is used by walking back, segment by segment, to the stretch that wrote it (an edge list, a per-node factor, a
  weight slice, a running total) or to the launch memory (an argument).  Each launch of the projection kernel leaves in
  its output array the rows of `x · w` scaled by the per-node factor — of the argument array `x` in the first layer, of
  the hidden features in the second —; each stretch after a launch adds one relation to the layer's running total.
-/
import proofs.«133610_j47064251629674_2_alg».proof.Proof.Carry
import proofs.«133610_j47064251629674_2_alg».proof.Proof.KernelForm
import proofs.«133610_j47064251629674_2_alg».proof.Proof.RegionValue0
import proofs.«133610_j47064251629674_2_alg».proof.Proof.RegionValue1
import proofs.«133610_j47064251629674_2_alg».proof.Proof.RegionValue2
import proofs.«133610_j47064251629674_2_alg».proof.Proof.RegionValue3
import proofs.«133610_j47064251629674_2_alg».proof.Proof.RegionValue4
import proofs.«133610_j47064251629674_2_alg».proof.Proof.RegionValue5

set_option maxRecDepth 16384

noncomputable section

namespace Cert.KernelIdeal.Chain

open Cert.KernelIdeal Cert.KernelIdeal.Gen Cert.Conv Cert.KernelIdeal.RegionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments, wherever they are read -/

theorem arg0_at7 : W7 m ρ c (Proc.devRef .tc main_arg0) = (m ((c.tc : Thread nD τ).loc main_arg0)) :=
  (W7_of m ρ c main_arg0 (by decide)).trans ((W6_of m ρ c main_arg0 (by decide)).trans ((W5_of m ρ c main_arg0 (by decide)).trans ((W4_of m ρ c main_arg0 (by decide)).trans ((W3_of m ρ c main_arg0 (by decide)).trans ((W2_of m ρ c main_arg0 (by decide)).trans (W1_of m ρ c main_arg0 (by decide)))))))

theorem arg0_at9 : W9 m ρ c (Proc.devRef .tc main_arg0) = (m ((c.tc : Thread nD τ).loc main_arg0)) :=
  (W9_of m ρ c main_arg0 (by decide)).trans ((W8_in0 m ρ c).trans ((W7_of m ρ c main_arg0 (by decide)).trans ((W6_of m ρ c main_arg0 (by decide)).trans ((W5_of m ρ c main_arg0 (by decide)).trans ((W4_of m ρ c main_arg0 (by decide)).trans ((W3_of m ρ c main_arg0 (by decide)).trans ((W2_of m ρ c main_arg0 (by decide)).trans (W1_of m ρ c main_arg0 (by decide)))))))))

theorem arg0_at11 : W11 m ρ c (Proc.devRef .tc main_arg0) = (m ((c.tc : Thread nD τ).loc main_arg0)) :=
  (W11_of m ρ c main_arg0 (by decide)).trans ((W10_in0 m ρ c).trans ((W9_of m ρ c main_arg0 (by decide)).trans ((W8_in0 m ρ c).trans ((W7_of m ρ c main_arg0 (by decide)).trans ((W6_of m ρ c main_arg0 (by decide)).trans ((W5_of m ρ c main_arg0 (by decide)).trans ((W4_of m ρ c main_arg0 (by decide)).trans ((W3_of m ρ c main_arg0 (by decide)).trans ((W2_of m ρ c main_arg0 (by decide)).trans (W1_of m ρ c main_arg0 (by decide)))))))))))

theorem arg1_at2 : W2 m ρ c (Proc.devRef .tc main_arg1) = (m ((c.tc : Thread nD τ).loc main_arg1)) :=
  (W2_of m ρ c main_arg1 (by decide)).trans (W1_of m ρ c main_arg1 (by decide))

theorem arg1_at4 : W4 m ρ c (Proc.devRef .tc main_arg1) = (m ((c.tc : Thread nD τ).loc main_arg1)) :=
  (W4_of m ρ c main_arg1 (by decide)).trans ((W3_of m ρ c main_arg1 (by decide)).trans ((W2_of m ρ c main_arg1 (by decide)).trans (W1_of m ρ c main_arg1 (by decide))))

theorem arg2_at6 : W6 m ρ c (Proc.devRef .tc main_arg2) = (m ((c.tc : Thread nD τ).loc main_arg2)) :=
  (W6_of m ρ c main_arg2 (by decide)).trans ((W5_of m ρ c main_arg2 (by decide)).trans ((W4_of m ρ c main_arg2 (by decide)).trans ((W3_of m ρ c main_arg2 (by decide)).trans ((W2_of m ρ c main_arg2 (by decide)).trans (W1_of m ρ c main_arg2 (by decide))))))

theorem arg2_at8 : W8 m ρ c (Proc.devRef .tc main_arg2) = (m ((c.tc : Thread nD τ).loc main_arg2)) :=
  (W8_of m ρ c main_arg2 (by decide)).trans ((W7_of m ρ c main_arg2 (by decide)).trans ((W6_of m ρ c main_arg2 (by decide)).trans ((W5_of m ρ c main_arg2 (by decide)).trans ((W4_of m ρ c main_arg2 (by decide)).trans ((W3_of m ρ c main_arg2 (by decide)).trans ((W2_of m ρ c main_arg2 (by decide)).trans (W1_of m ρ c main_arg2 (by decide))))))))

theorem arg2_at10 : W10 m ρ c (Proc.devRef .tc main_arg2) = (m ((c.tc : Thread nD τ).loc main_arg2)) :=
  (W10_of m ρ c main_arg2 (by decide)).trans ((W9_of m ρ c main_arg2 (by decide)).trans ((W8_of m ρ c main_arg2 (by decide)).trans ((W7_of m ρ c main_arg2 (by decide)).trans ((W6_of m ρ c main_arg2 (by decide)).trans ((W5_of m ρ c main_arg2 (by decide)).trans ((W4_of m ρ c main_arg2 (by decide)).trans ((W3_of m ρ c main_arg2 (by decide)).trans ((W2_of m ρ c main_arg2 (by decide)).trans (W1_of m ρ c main_arg2 (by decide))))))))))

theorem arg3_at8 : W8 m ρ c (Proc.devRef .tc main_arg3) = (m ((c.tc : Thread nD τ).loc main_arg3)) :=
  (W8_of m ρ c main_arg3 (by decide)).trans ((W7_of m ρ c main_arg3 (by decide)).trans ((W6_of m ρ c main_arg3 (by decide)).trans ((W5_of m ρ c main_arg3 (by decide)).trans ((W4_of m ρ c main_arg3 (by decide)).trans ((W3_of m ρ c main_arg3 (by decide)).trans ((W2_of m ρ c main_arg3 (by decide)).trans (W1_of m ρ c main_arg3 (by decide))))))))

theorem arg3_at10 : W10 m ρ c (Proc.devRef .tc main_arg3) = (m ((c.tc : Thread nD τ).loc main_arg3)) :=
  (W10_of m ρ c main_arg3 (by decide)).trans ((W9_of m ρ c main_arg3 (by decide)).trans ((W8_of m ρ c main_arg3 (by decide)).trans ((W7_of m ρ c main_arg3 (by decide)).trans ((W6_of m ρ c main_arg3 (by decide)).trans ((W5_of m ρ c main_arg3 (by decide)).trans ((W4_of m ρ c main_arg3 (by decide)).trans ((W3_of m ρ c main_arg3 (by decide)).trans ((W2_of m ρ c main_arg3 (by decide)).trans (W1_of m ρ c main_arg3 (by decide))))))))))

theorem arg3_at12 : W12 m ρ c (Proc.devRef .tc main_arg3) = (m ((c.tc : Thread nD τ).loc main_arg3)) :=
  (W12_of m ρ c main_arg3 (by decide)).trans ((W11_of m ρ c main_arg3 (by decide)).trans ((W10_of m ρ c main_arg3 (by decide)).trans ((W9_of m ρ c main_arg3 (by decide)).trans ((W8_of m ρ c main_arg3 (by decide)).trans ((W7_of m ρ c main_arg3 (by decide)).trans ((W6_of m ρ c main_arg3 (by decide)).trans ((W5_of m ρ c main_arg3 (by decide)).trans ((W4_of m ρ c main_arg3 (by decide)).trans ((W3_of m ρ c main_arg3 (by decide)).trans ((W2_of m ρ c main_arg3 (by decide)).trans (W1_of m ρ c main_arg3 (by decide))))))))))))

theorem arg4_at14 : W14 m ρ c (Proc.devRef .tc main_arg4) = (m ((c.tc : Thread nD τ).loc main_arg4)) :=
  (W14_of m ρ c main_arg4 (by decide)).trans ((W13_of m ρ c main_arg4 (by decide)).trans ((W12_of m ρ c main_arg4 (by decide)).trans ((W11_of m ρ c main_arg4 (by decide)).trans ((W10_of m ρ c main_arg4 (by decide)).trans ((W9_of m ρ c main_arg4 (by decide)).trans ((W8_of m ρ c main_arg4 (by decide)).trans ((W7_of m ρ c main_arg4 (by decide)).trans ((W6_of m ρ c main_arg4 (by decide)).trans ((W5_of m ρ c main_arg4 (by decide)).trans ((W4_of m ρ c main_arg4 (by decide)).trans ((W3_of m ρ c main_arg4 (by decide)).trans ((W2_of m ρ c main_arg4 (by decide)).trans (W1_of m ρ c main_arg4 (by decide))))))))))))))

theorem arg4_at16 : W16 m ρ c (Proc.devRef .tc main_arg4) = (m ((c.tc : Thread nD τ).loc main_arg4)) :=
  (W16_of m ρ c main_arg4 (by decide)).trans ((W15_of m ρ c main_arg4 (by decide)).trans ((W14_of m ρ c main_arg4 (by decide)).trans ((W13_of m ρ c main_arg4 (by decide)).trans ((W12_of m ρ c main_arg4 (by decide)).trans ((W11_of m ρ c main_arg4 (by decide)).trans ((W10_of m ρ c main_arg4 (by decide)).trans ((W9_of m ρ c main_arg4 (by decide)).trans ((W8_of m ρ c main_arg4 (by decide)).trans ((W7_of m ρ c main_arg4 (by decide)).trans ((W6_of m ρ c main_arg4 (by decide)).trans ((W5_of m ρ c main_arg4 (by decide)).trans ((W4_of m ρ c main_arg4 (by decide)).trans ((W3_of m ρ c main_arg4 (by decide)).trans ((W2_of m ρ c main_arg4 (by decide)).trans (W1_of m ρ c main_arg4 (by decide))))))))))))))))

theorem arg4_at18 : W18 m ρ c (Proc.devRef .tc main_arg4) = (m ((c.tc : Thread nD τ).loc main_arg4)) :=
  (W18_of m ρ c main_arg4 (by decide)).trans ((W17_of m ρ c main_arg4 (by decide)).trans ((W16_of m ρ c main_arg4 (by decide)).trans ((W15_of m ρ c main_arg4 (by decide)).trans ((W14_of m ρ c main_arg4 (by decide)).trans ((W13_of m ρ c main_arg4 (by decide)).trans ((W12_of m ρ c main_arg4 (by decide)).trans ((W11_of m ρ c main_arg4 (by decide)).trans ((W10_of m ρ c main_arg4 (by decide)).trans ((W9_of m ρ c main_arg4 (by decide)).trans ((W8_of m ρ c main_arg4 (by decide)).trans ((W7_of m ρ c main_arg4 (by decide)).trans ((W6_of m ρ c main_arg4 (by decide)).trans ((W5_of m ρ c main_arg4 (by decide)).trans ((W4_of m ρ c main_arg4 (by decide)).trans ((W3_of m ρ c main_arg4 (by decide)).trans ((W2_of m ρ c main_arg4 (by decide)).trans (W1_of m ρ c main_arg4 (by decide))))))))))))))))))

theorem arg5_at16 : W16 m ρ c (Proc.devRef .tc main_arg5) = (m ((c.tc : Thread nD τ).loc main_arg5)) :=
  (W16_of m ρ c main_arg5 (by decide)).trans ((W15_of m ρ c main_arg5 (by decide)).trans ((W14_of m ρ c main_arg5 (by decide)).trans ((W13_of m ρ c main_arg5 (by decide)).trans ((W12_of m ρ c main_arg5 (by decide)).trans ((W11_of m ρ c main_arg5 (by decide)).trans ((W10_of m ρ c main_arg5 (by decide)).trans ((W9_of m ρ c main_arg5 (by decide)).trans ((W8_of m ρ c main_arg5 (by decide)).trans ((W7_of m ρ c main_arg5 (by decide)).trans ((W6_of m ρ c main_arg5 (by decide)).trans ((W5_of m ρ c main_arg5 (by decide)).trans ((W4_of m ρ c main_arg5 (by decide)).trans ((W3_of m ρ c main_arg5 (by decide)).trans ((W2_of m ρ c main_arg5 (by decide)).trans (W1_of m ρ c main_arg5 (by decide))))))))))))))))

theorem arg5_at18 : W18 m ρ c (Proc.devRef .tc main_arg5) = (m ((c.tc : Thread nD τ).loc main_arg5)) :=
  (W18_of m ρ c main_arg5 (by decide)).trans ((W17_of m ρ c main_arg5 (by decide)).trans ((W16_of m ρ c main_arg5 (by decide)).trans ((W15_of m ρ c main_arg5 (by decide)).trans ((W14_of m ρ c main_arg5 (by decide)).trans ((W13_of m ρ c main_arg5 (by decide)).trans ((W12_of m ρ c main_arg5 (by decide)).trans ((W11_of m ρ c main_arg5 (by decide)).trans ((W10_of m ρ c main_arg5 (by decide)).trans ((W9_of m ρ c main_arg5 (by decide)).trans ((W8_of m ρ c main_arg5 (by decide)).trans ((W7_of m ρ c main_arg5 (by decide)).trans ((W6_of m ρ c main_arg5 (by decide)).trans ((W5_of m ρ c main_arg5 (by decide)).trans ((W4_of m ρ c main_arg5 (by decide)).trans ((W3_of m ρ c main_arg5 (by decide)).trans ((W2_of m ρ c main_arg5 (by decide)).trans (W1_of m ρ c main_arg5 (by decide))))))))))))))))))

theorem arg5_at20 : W20 m ρ c (Proc.devRef .tc main_arg5) = (m ((c.tc : Thread nD τ).loc main_arg5)) :=
  (W20_of m ρ c main_arg5 (by decide)).trans ((W19_of m ρ c main_arg5 (by decide)).trans ((W18_of m ρ c main_arg5 (by decide)).trans ((W17_of m ρ c main_arg5 (by decide)).trans ((W16_of m ρ c main_arg5 (by decide)).trans ((W15_of m ρ c main_arg5 (by decide)).trans ((W14_of m ρ c main_arg5 (by decide)).trans ((W13_of m ρ c main_arg5 (by decide)).trans ((W12_of m ρ c main_arg5 (by decide)).trans ((W11_of m ρ c main_arg5 (by decide)).trans ((W10_of m ρ c main_arg5 (by decide)).trans ((W9_of m ρ c main_arg5 (by decide)).trans ((W8_of m ρ c main_arg5 (by decide)).trans ((W7_of m ρ c main_arg5 (by decide)).trans ((W6_of m ρ c main_arg5 (by decide)).trans ((W5_of m ρ c main_arg5 (by decide)).trans ((W4_of m ρ c main_arg5 (by decide)).trans ((W3_of m ρ c main_arg5 (by decide)).trans ((W2_of m ρ c main_arg5 (by decide)).trans (W1_of m ρ c main_arg5 (by decide))))))))))))))))))))

/-! ## The edge lists and the per-node factors, wherever they are read -/

theorem src0_def : W1 m ρ c (Proc.devRef .tc main_v5) = srcK0 (F := Ideal) (m ((c.tc : Thread nD τ).loc main_arg1)) := by
  refine (src0_of (W0 m ρ c)).trans ?_
  rfl
theorem dst0_def : W1 m ρ c (Proc.devRef .tc main_v6) = dstK0 (F := Ideal) (m ((c.tc : Thread nD τ).loc main_arg1)) := by
  refine (dst0_of (W0 m ρ c)).trans ?_
  rfl
theorem dinv0_def : W2 m ρ c (Proc.devRef .tc main_v15) = dinvK (F := Ideal) (dstK0 (F := Ideal) (m ((c.tc : Thread nD τ).loc main_arg1))) := by
  refine (dinv0_of (W0 m ρ c)).trans ?_
  rfl
theorem src0_at8 : W8 m ρ c (Proc.devRef .tc main_v5) = srcK0 (F := Ideal) (m ((c.tc : Thread nD τ).loc main_arg1)) :=
  ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans (W2_of m ρ c main_v5 (by decide)))))))).trans (src0_def m ρ c)
theorem dst0_at8 : W8 m ρ c (Proc.devRef .tc main_v6) = dstK0 (F := Ideal) (m ((c.tc : Thread nD τ).loc main_arg1)) :=
  ((W8_of m ρ c main_v6 (by decide)).trans ((W7_of m ρ c main_v6 (by decide)).trans ((W6_of m ρ c main_v6 (by decide)).trans ((W5_of m ρ c main_v6 (by decide)).trans ((W4_of m ρ c main_v6 (by decide)).trans ((W3_of m ρ c main_v6 (by decide)).trans (W2_of m ρ c main_v6 (by decide)))))))).trans (dst0_def m ρ c)
theorem src0_at16 : W16 m ρ c (Proc.devRef .tc main_v5) = srcK0 (F := Ideal) (m ((c.tc : Thread nD τ).loc main_arg1)) :=
  ((W16_of m ρ c main_v5 (by decide)).trans ((W15_of m ρ c main_v5 (by decide)).trans ((W14_of m ρ c main_v5 (by decide)).trans ((W13_of m ρ c main_v5 (by decide)).trans ((W12_of m ρ c main_v5 (by decide)).trans ((W11_of m ρ c main_v5 (by decide)).trans ((W10_of m ρ c main_v5 (by decide)).trans ((W9_of m ρ c main_v5 (by decide)).trans ((W8_of m ρ c main_v5 (by decide)).trans ((W7_of m ρ c main_v5 (by decide)).trans ((W6_of m ρ c main_v5 (by decide)).trans ((W5_of m ρ c main_v5 (by decide)).trans ((W4_of m ρ c main_v5 (by decide)).trans ((W3_of m ρ c main_v5 (by decide)).trans (W2_of m ρ c main_v5 (by decide)))))))))))))))).trans (src0_def m ρ c)
theorem dst0_at16 : W16 m ρ c (Proc.devRef .tc main_v6) = dstK0 (F := Ideal) (m ((c.tc : Thread nD τ).loc main_arg1)) :=
  ((W16_of m ρ c main_v6 (by decide)).trans ((W15_of m ρ c main_v6 (by decide)).trans ((W14_of m ρ c main_v6 (by decide)).trans ((W13_of m ρ c main_v6 (by decide)).trans ((W12_of m ρ c main_v6 (by decide)).trans ((W11_of m ρ c main_v6 (by decide)).trans ((W10_of m ρ c main_v6 (by decide)).trans ((W9_of m ρ c main_v6 (by decide)).trans ((W8_of m ρ c main_v6 (by decide)).trans ((W7_of m ρ c main_v6 (by decide)).trans ((W6_of m ρ c main_v6 (by decide)).trans ((W5_of m ρ c main_v6 (by decide)).trans ((W4_of m ρ c main_v6 (by decide)).trans ((W3_of m ρ c main_v6 (by decide)).trans (W2_of m ρ c main_v6 (by decide)))))))))))))))).trans (dst0_def m ρ c)
theorem dinv0_at6 : W6 m ρ c (Proc.devRef .tc main_v15) = dinvK (F := Ideal) (dstK0 (F := Ideal) (m ((c.tc : Thread nD τ).loc main_arg1))) :=
  ((W6_of m ρ c main_v15 (by decide)).trans ((W5_of m ρ c main_v15 (by decide)).trans ((W4_of m ρ c main_v15 (by decide)).trans (W3_of m ρ c main_v15 (by decide))))).trans (dinv0_def m ρ c)
theorem dinv0_at8 : W8 m ρ c (Proc.devRef .tc main_v15) = dinvK (F := Ideal) (dstK0 (F := Ideal) (m ((c.tc : Thread nD τ).loc main_arg1))) :=
  ((W8_of m ρ c main_v15 (by decide)).trans ((W7_of m ρ c main_v15 (by decide)).trans ((W6_of m ρ c main_v15 (by decide)).trans ((W5_of m ρ c main_v15 (by decide)).trans ((W4_of m ρ c main_v15 (by decide)).trans (W3_of m ρ c main_v15 (by decide))))))).trans (dinv0_def m ρ c)
theorem dinv0_at14 : W14 m ρ c (Proc.devRef .tc main_v15) = dinvK (F := Ideal) (dstK0 (F := Ideal) (m ((c.tc : Thread nD τ).loc main_arg1))) :=
  ((W14_of m ρ c main_v15 (by decide)).trans ((W13_of m ρ c main_v15 (by decide)).trans ((W12_of m ρ c main_v15 (by decide)).trans ((W11_of m ρ c main_v15 (by decide)).trans ((W10_of m ρ c main_v15 (by decide)).trans ((W9_of m ρ c main_v15 (by decide)).trans ((W8_of m ρ c main_v15 (by decide)).trans ((W7_of m ρ c main_v15 (by decide)).trans ((W6_of m ρ c main_v15 (by decide)).trans ((W5_of m ρ c main_v15 (by decide)).trans ((W4_of m ρ c main_v15 (by decide)).trans (W3_of m ρ c main_v15 (by decide))))))))))))).trans (dinv0_def m ρ c)
theorem dinv0_at16 : W16 m ρ c (Proc.devRef .tc main_v15) = dinvK (F := Ideal) (dstK0 (F := Ideal) (m ((c.tc : Thread nD τ).loc main_arg1))) :=
  ((W16_of m ρ c main_v15 (by decide)).trans ((W15_of m ρ c main_v15 (by decide)).trans ((W14_of m ρ c main_v15 (by decide)).trans ((W13_of m ρ c main_v15 (by decide)).trans ((W12_of m ρ c main_v15 (by decide)).trans ((W11_of m ρ c main_v15 (by decide)).trans ((W10_of m ρ c main_v15 (by decide)).trans ((W9_of m ρ c main_v15 (by decide)).trans ((W8_of m ρ c main_v15 (by decide)).trans ((W7_of m ρ c main_v15 (by decide)).trans ((W6_of m ρ c main_v15 (by decide)).trans ((W5_of m ρ c main_v15 (by decide)).trans ((W4_of m ρ c main_v15 (by decide)).trans (W3_of m ρ c main_v15 (by decide))))))))))))))).trans (dinv0_def m ρ c)

theorem src1_def : W3 m ρ c (Proc.devRef .tc main_v21) = srcK1 (F := Ideal) (m ((c.tc : Thread nD τ).loc main_arg1)) := by
  refine (src1_of (W2 m ρ c)).trans ?_
  rw [arg1_at2]
theorem dst1_def : W3 m ρ c (Proc.devRef .tc main_v22) = dstK1 (F := Ideal) (m ((c.tc : Thread nD τ).loc main_arg1)) := by
  refine (dst1_of (W2 m ρ c)).trans ?_
  rw [arg1_at2]
theorem dinv1_def : W4 m ρ c (Proc.devRef .tc main_v31) = dinvK (F := Ideal) (dstK1 (F := Ideal) (m ((c.tc : Thread nD τ).loc main_arg1))) := by
  refine (dinv1_of (W2 m ρ c)).trans ?_
  rw [arg1_at2]
theorem src1_at10 : W10 m ρ c (Proc.devRef .tc main_v21) = srcK1 (F := Ideal) (m ((c.tc : Thread nD τ).loc main_arg1)) :=
  ((W10_of m ρ c main_v21 (by decide)).trans ((W9_of m ρ c main_v21 (by decide)).trans ((W8_of m ρ c main_v21 (by decide)).trans ((W7_of m ρ c main_v21 (by decide)).trans ((W6_of m ρ c main_v21 (by decide)).trans ((W5_of m ρ c main_v21 (by decide)).trans (W4_of m ρ c main_v21 (by decide)))))))).trans (src1_def m ρ c)
theorem dst1_at10 : W10 m ρ c (Proc.devRef .tc main_v22) = dstK1 (F := Ideal) (m ((c.tc : Thread nD τ).loc main_arg1)) :=
  ((W10_of m ρ c main_v22 (by decide)).trans ((W9_of m ρ c main_v22 (by decide)).trans ((W8_of m ρ c main_v22 (by decide)).trans ((W7_of m ρ c main_v22 (by decide)).trans ((W6_of m ρ c main_v22 (by decide)).trans ((W5_of m ρ c main_v22 (by decide)).trans (W4_of m ρ c main_v22 (by decide)))))))).trans (dst1_def m ρ c)
theorem src1_at18 : W18 m ρ c (Proc.devRef .tc main_v21) = srcK1 (F := Ideal) (m ((c.tc : Thread nD τ).loc main_arg1)) :=
  ((W18_of m ρ c main_v21 (by decide)).trans ((W17_of m ρ c main_v21 (by decide)).trans ((W16_of m ρ c main_v21 (by decide)).trans ((W15_of m ρ c main_v21 (by decide)).trans ((W14_of m ρ c main_v21 (by decide)).trans ((W13_of m ρ c main_v21 (by decide)).trans ((W12_of m ρ c main_v21 (by decide)).trans ((W11_of m ρ c main_v21 (by decide)).trans ((W10_of m ρ c main_v21 (by decide)).trans ((W9_of m ρ c main_v21 (by decide)).trans ((W8_of m ρ c main_v21 (by decide)).trans ((W7_of m ρ c main_v21 (by decide)).trans ((W6_of m ρ c main_v21 (by decide)).trans ((W5_of m ρ c main_v21 (by decide)).trans (W4_of m ρ c main_v21 (by decide)))))))))))))))).trans (src1_def m ρ c)
theorem dst1_at18 : W18 m ρ c (Proc.devRef .tc main_v22) = dstK1 (F := Ideal) (m ((c.tc : Thread nD τ).loc main_arg1)) :=
  ((W18_of m ρ c main_v22 (by decide)).trans ((W17_of m ρ c main_v22 (by decide)).trans ((W16_of m ρ c main_v22 (by decide)).trans ((W15_of m ρ c main_v22 (by decide)).trans ((W14_of m ρ c main_v22 (by decide)).trans ((W13_of m ρ c main_v22 (by decide)).trans ((W12_of m ρ c main_v22 (by decide)).trans ((W11_of m ρ c main_v22 (by decide)).trans ((W10_of m ρ c main_v22 (by decide)).trans ((W9_of m ρ c main_v22 (by decide)).trans ((W8_of m ρ c main_v22 (by decide)).trans ((W7_of m ρ c main_v22 (by decide)).trans ((W6_of m ρ c main_v22 (by decide)).trans ((W5_of m ρ c main_v22 (by decide)).trans (W4_of m ρ c main_v22 (by decide)))))))))))))))).trans (dst1_def m ρ c)
theorem dinv1_at8 : W8 m ρ c (Proc.devRef .tc main_v31) = dinvK (F := Ideal) (dstK1 (F := Ideal) (m ((c.tc : Thread nD τ).loc main_arg1))) :=
  ((W8_of m ρ c main_v31 (by decide)).trans ((W7_of m ρ c main_v31 (by decide)).trans ((W6_of m ρ c main_v31 (by decide)).trans (W5_of m ρ c main_v31 (by decide))))).trans (dinv1_def m ρ c)
theorem dinv1_at10 : W10 m ρ c (Proc.devRef .tc main_v31) = dinvK (F := Ideal) (dstK1 (F := Ideal) (m ((c.tc : Thread nD τ).loc main_arg1))) :=
  ((W10_of m ρ c main_v31 (by decide)).trans ((W9_of m ρ c main_v31 (by decide)).trans ((W8_of m ρ c main_v31 (by decide)).trans ((W7_of m ρ c main_v31 (by decide)).trans ((W6_of m ρ c main_v31 (by decide)).trans (W5_of m ρ c main_v31 (by decide))))))).trans (dinv1_def m ρ c)
theorem dinv1_at16 : W16 m ρ c (Proc.devRef .tc main_v31) = dinvK (F := Ideal) (dstK1 (F := Ideal) (m ((c.tc : Thread nD τ).loc main_arg1))) :=
  ((W16_of m ρ c main_v31 (by decide)).trans ((W15_of m ρ c main_v31 (by decide)).trans ((W14_of m ρ c main_v31 (by decide)).trans ((W13_of m ρ c main_v31 (by decide)).trans ((W12_of m ρ c main_v31 (by decide)).trans ((W11_of m ρ c main_v31 (by decide)).trans ((W10_of m ρ c main_v31 (by decide)).trans ((W9_of m ρ c main_v31 (by decide)).trans ((W8_of m ρ c main_v31 (by decide)).trans ((W7_of m ρ c main_v31 (by decide)).trans ((W6_of m ρ c main_v31 (by decide)).trans (W5_of m ρ c main_v31 (by decide))))))))))))).trans (dinv1_def m ρ c)
theorem dinv1_at18 : W18 m ρ c (Proc.devRef .tc main_v31) = dinvK (F := Ideal) (dstK1 (F := Ideal) (m ((c.tc : Thread nD τ).loc main_arg1))) :=
  ((W18_of m ρ c main_v31 (by decide)).trans ((W17_of m ρ c main_v31 (by decide)).trans ((W16_of m ρ c main_v31 (by decide)).trans ((W15_of m ρ c main_v31 (by decide)).trans ((W14_of m ρ c main_v31 (by decide)).trans ((W13_of m ρ c main_v31 (by decide)).trans ((W12_of m ρ c main_v31 (by decide)).trans ((W11_of m ρ c main_v31 (by decide)).trans ((W10_of m ρ c main_v31 (by decide)).trans ((W9_of m ρ c main_v31 (by decide)).trans ((W8_of m ρ c main_v31 (by decide)).trans ((W7_of m ρ c main_v31 (by decide)).trans ((W6_of m ρ c main_v31 (by decide)).trans (W5_of m ρ c main_v31 (by decide))))))))))))))).trans (dinv1_def m ρ c)

theorem src2_def : W5 m ρ c (Proc.devRef .tc main_v37) = srcK2 (F := Ideal) (m ((c.tc : Thread nD τ).loc main_arg1)) := by
  refine (src2_of (W4 m ρ c)).trans ?_
  rw [arg1_at4]
theorem dst2_def : W5 m ρ c (Proc.devRef .tc main_v38) = dstK2 (F := Ideal) (m ((c.tc : Thread nD τ).loc main_arg1)) := by
  refine (dst2_of (W4 m ρ c)).trans ?_
  rw [arg1_at4]
theorem dinv2_def : W6 m ρ c (Proc.devRef .tc main_v47) = dinvK (F := Ideal) (dstK2 (F := Ideal) (m ((c.tc : Thread nD τ).loc main_arg1))) := by
  refine (dinv2_of (W4 m ρ c)).trans ?_
  rw [arg1_at4]
theorem src2_at12 : W12 m ρ c (Proc.devRef .tc main_v37) = srcK2 (F := Ideal) (m ((c.tc : Thread nD τ).loc main_arg1)) :=
  ((W12_of m ρ c main_v37 (by decide)).trans ((W11_of m ρ c main_v37 (by decide)).trans ((W10_of m ρ c main_v37 (by decide)).trans ((W9_of m ρ c main_v37 (by decide)).trans ((W8_of m ρ c main_v37 (by decide)).trans ((W7_of m ρ c main_v37 (by decide)).trans (W6_of m ρ c main_v37 (by decide)))))))).trans (src2_def m ρ c)
theorem dst2_at12 : W12 m ρ c (Proc.devRef .tc main_v38) = dstK2 (F := Ideal) (m ((c.tc : Thread nD τ).loc main_arg1)) :=
  ((W12_of m ρ c main_v38 (by decide)).trans ((W11_of m ρ c main_v38 (by decide)).trans ((W10_of m ρ c main_v38 (by decide)).trans ((W9_of m ρ c main_v38 (by decide)).trans ((W8_of m ρ c main_v38 (by decide)).trans ((W7_of m ρ c main_v38 (by decide)).trans (W6_of m ρ c main_v38 (by decide)))))))).trans (dst2_def m ρ c)
theorem src2_at20 : W20 m ρ c (Proc.devRef .tc main_v37) = srcK2 (F := Ideal) (m ((c.tc : Thread nD τ).loc main_arg1)) :=
  ((W20_of m ρ c main_v37 (by decide)).trans ((W19_of m ρ c main_v37 (by decide)).trans ((W18_of m ρ c main_v37 (by decide)).trans ((W17_of m ρ c main_v37 (by decide)).trans ((W16_of m ρ c main_v37 (by decide)).trans ((W15_of m ρ c main_v37 (by decide)).trans ((W14_of m ρ c main_v37 (by decide)).trans ((W13_of m ρ c main_v37 (by decide)).trans ((W12_of m ρ c main_v37 (by decide)).trans ((W11_of m ρ c main_v37 (by decide)).trans ((W10_of m ρ c main_v37 (by decide)).trans ((W9_of m ρ c main_v37 (by decide)).trans ((W8_of m ρ c main_v37 (by decide)).trans ((W7_of m ρ c main_v37 (by decide)).trans (W6_of m ρ c main_v37 (by decide)))))))))))))))).trans (src2_def m ρ c)
theorem dst2_at20 : W20 m ρ c (Proc.devRef .tc main_v38) = dstK2 (F := Ideal) (m ((c.tc : Thread nD τ).loc main_arg1)) :=
  ((W20_of m ρ c main_v38 (by decide)).trans ((W19_of m ρ c main_v38 (by decide)).trans ((W18_of m ρ c main_v38 (by decide)).trans ((W17_of m ρ c main_v38 (by decide)).trans ((W16_of m ρ c main_v38 (by decide)).trans ((W15_of m ρ c main_v38 (by decide)).trans ((W14_of m ρ c main_v38 (by decide)).trans ((W13_of m ρ c main_v38 (by decide)).trans ((W12_of m ρ c main_v38 (by decide)).trans ((W11_of m ρ c main_v38 (by decide)).trans ((W10_of m ρ c main_v38 (by decide)).trans ((W9_of m ρ c main_v38 (by decide)).trans ((W8_of m ρ c main_v38 (by decide)).trans ((W7_of m ρ c main_v38 (by decide)).trans (W6_of m ρ c main_v38 (by decide)))))))))))))))).trans (dst2_def m ρ c)
theorem dinv2_at10 : W10 m ρ c (Proc.devRef .tc main_v47) = dinvK (F := Ideal) (dstK2 (F := Ideal) (m ((c.tc : Thread nD τ).loc main_arg1))) :=
  ((W10_of m ρ c main_v47 (by decide)).trans ((W9_of m ρ c main_v47 (by decide)).trans ((W8_of m ρ c main_v47 (by decide)).trans (W7_of m ρ c main_v47 (by decide))))).trans (dinv2_def m ρ c)
theorem dinv2_at12 : W12 m ρ c (Proc.devRef .tc main_v47) = dinvK (F := Ideal) (dstK2 (F := Ideal) (m ((c.tc : Thread nD τ).loc main_arg1))) :=
  ((W12_of m ρ c main_v47 (by decide)).trans ((W11_of m ρ c main_v47 (by decide)).trans ((W10_of m ρ c main_v47 (by decide)).trans ((W9_of m ρ c main_v47 (by decide)).trans ((W8_of m ρ c main_v47 (by decide)).trans (W7_of m ρ c main_v47 (by decide))))))).trans (dinv2_def m ρ c)
theorem dinv2_at18 : W18 m ρ c (Proc.devRef .tc main_v47) = dinvK (F := Ideal) (dstK2 (F := Ideal) (m ((c.tc : Thread nD τ).loc main_arg1))) :=
  ((W18_of m ρ c main_v47 (by decide)).trans ((W17_of m ρ c main_v47 (by decide)).trans ((W16_of m ρ c main_v47 (by decide)).trans ((W15_of m ρ c main_v47 (by decide)).trans ((W14_of m ρ c main_v47 (by decide)).trans ((W13_of m ρ c main_v47 (by decide)).trans ((W12_of m ρ c main_v47 (by decide)).trans ((W11_of m ρ c main_v47 (by decide)).trans ((W10_of m ρ c main_v47 (by decide)).trans ((W9_of m ρ c main_v47 (by decide)).trans ((W8_of m ρ c main_v47 (by decide)).trans (W7_of m ρ c main_v47 (by decide))))))))))))).trans (dinv2_def m ρ c)
theorem dinv2_at20 : W20 m ρ c (Proc.devRef .tc main_v47) = dinvK (F := Ideal) (dstK2 (F := Ideal) (m ((c.tc : Thread nD τ).loc main_arg1))) :=
  ((W20_of m ρ c main_v47 (by decide)).trans ((W19_of m ρ c main_v47 (by decide)).trans ((W18_of m ρ c main_v47 (by decide)).trans ((W17_of m ρ c main_v47 (by decide)).trans ((W16_of m ρ c main_v47 (by decide)).trans ((W15_of m ρ c main_v47 (by decide)).trans ((W14_of m ρ c main_v47 (by decide)).trans ((W13_of m ρ c main_v47 (by decide)).trans ((W12_of m ρ c main_v47 (by decide)).trans ((W11_of m ρ c main_v47 (by decide)).trans ((W10_of m ρ c main_v47 (by decide)).trans ((W9_of m ρ c main_v47 (by decide)).trans ((W8_of m ρ c main_v47 (by decide)).trans (W7_of m ρ c main_v47 (by decide))))))))))))))).trans (dinv2_def m ρ c)

/-! ## The running totals as functions of the arguments -/

/-- Layer 1 after its first relation. -/
def tot1_0 (x0 : (⟨S50000x256, .f32⟩ : BufTy).Contents (Elt Ideal)) (x1 : (⟨S3x2x1600000, .i32⟩ : BufTy).Contents (Elt Ideal))
    (x2 : (⟨S3x256x128, .f32⟩ : BufTy).Contents (Elt Ideal)) (x3 : (⟨S3x128, .f32⟩ : BufTy).Contents (Elt Ideal)) :
    FVec Ideal S50000x128 .f32 :=
  addf (zero128 (F := Ideal)) (relK1 x0 (w1K0 (F := Ideal) x2) (b1K0 (F := Ideal) x3) (srcK0 (F := Ideal) x1) (dstK0 (F := Ideal) x1))
/-- Layer 1 after its second relation. -/
def tot1_1 (x0 : (⟨S50000x256, .f32⟩ : BufTy).Contents (Elt Ideal)) (x1 : (⟨S3x2x1600000, .i32⟩ : BufTy).Contents (Elt Ideal))
    (x2 : (⟨S3x256x128, .f32⟩ : BufTy).Contents (Elt Ideal)) (x3 : (⟨S3x128, .f32⟩ : BufTy).Contents (Elt Ideal)) :
    FVec Ideal S50000x128 .f32 :=
  addf (tot1_0 x0 x1 x2 x3) (relK1 x0 (w1K1 (F := Ideal) x2) (b1K1 (F := Ideal) x3) (srcK1 (F := Ideal) x1) (dstK1 (F := Ideal) x1))
/-- Layer 1 after its third relation. -/
def tot1_2 (x0 : (⟨S50000x256, .f32⟩ : BufTy).Contents (Elt Ideal)) (x1 : (⟨S3x2x1600000, .i32⟩ : BufTy).Contents (Elt Ideal))
    (x2 : (⟨S3x256x128, .f32⟩ : BufTy).Contents (Elt Ideal)) (x3 : (⟨S3x128, .f32⟩ : BufTy).Contents (Elt Ideal)) :
    FVec Ideal S50000x128 .f32 :=
  addf (tot1_1 x0 x1 x2 x3) (relK1 x0 (w1K2 (F := Ideal) x2) (b1K2 (F := Ideal) x3) (srcK2 (F := Ideal) x1) (dstK2 (F := Ideal) x1))
/-- The hidden features are the third total clamped at zero. -/
theorem hiddenK_eq (x0 : (⟨S50000x256, .f32⟩ : BufTy).Contents (Elt Ideal)) (x1 : (⟨S3x2x1600000, .i32⟩ : BufTy).Contents (Elt Ideal))
    (x2 : (⟨S3x256x128, .f32⟩ : BufTy).Contents (Elt Ideal)) (x3 : (⟨S3x128, .f32⟩ : BufTy).Contents (Elt Ideal)) :
    hiddenK x0 x1 x2 x3 = maximumf (tot1_2 x0 x1 x2 x3) (zero128 (F := Ideal)) := rfl
/-- Layer 2 after its first relation, over the hidden features `h`. -/
def tot2_0 (h : (⟨S50000x128, .f32⟩ : BufTy).Contents (Elt Ideal)) (x1 : (⟨S3x2x1600000, .i32⟩ : BufTy).Contents (Elt Ideal))
    (x4 : (⟨S3x128x64, .f32⟩ : BufTy).Contents (Elt Ideal)) (x5 : (⟨S3x64, .f32⟩ : BufTy).Contents (Elt Ideal)) :
    FVec Ideal S50000x64 .f32 :=
  addf (zero64 (F := Ideal)) (relK2 h (w2K0 (F := Ideal) x4) (b2K0 (F := Ideal) x5) (srcK0 (F := Ideal) x1) (dstK0 (F := Ideal) x1))
/-- Layer 2 after its second relation. -/
def tot2_1 (h : (⟨S50000x128, .f32⟩ : BufTy).Contents (Elt Ideal)) (x1 : (⟨S3x2x1600000, .i32⟩ : BufTy).Contents (Elt Ideal))
    (x4 : (⟨S3x128x64, .f32⟩ : BufTy).Contents (Elt Ideal)) (x5 : (⟨S3x64, .f32⟩ : BufTy).Contents (Elt Ideal)) :
    FVec Ideal S50000x64 .f32 :=
  addf (tot2_0 h x1 x4 x5) (relK2 h (w2K1 (F := Ideal) x4) (b2K1 (F := Ideal) x5) (srcK1 (F := Ideal) x1) (dstK1 (F := Ideal) x1))
/-- The output is layer 2 after its third relation over the hidden features. -/
theorem outK_eq (x0 : (⟨S50000x256, .f32⟩ : BufTy).Contents (Elt Ideal)) (x1 : (⟨S3x2x1600000, .i32⟩ : BufTy).Contents (Elt Ideal))
    (x2 : (⟨S3x256x128, .f32⟩ : BufTy).Contents (Elt Ideal)) (x3 : (⟨S3x128, .f32⟩ : BufTy).Contents (Elt Ideal))
    (x4 : (⟨S3x128x64, .f32⟩ : BufTy).Contents (Elt Ideal)) (x5 : (⟨S3x64, .f32⟩ : BufTy).Contents (Elt Ideal)) :
    outK x0 x1 x2 x3 x4 x5 = addf (tot2_1 (hiddenK x0 x1 x2 x3) x1 x4 x5) (relK2 (hiddenK x0 x1 x2 x3) (w2K2 (F := Ideal) x4) (b2K2 (F := Ideal) x5) (srcK2 (F := Ideal) x1) (dstK2 (F := Ideal) x1)) := rfl

/-! ## Layer 1 -/

/-- Launch 0 leaves the rows of its input times relation 0's weight matrix, scaled by the relation's factor. -/
theorem launch0_value : W8 m ρ c (Proc.devRef .tc main_v52)
    = Cert.Gcn.projScale (N := 50000) (K := 256) (C := 128) (m ((c.tc : Thread nD τ).loc main_arg0)) (w1K0 (F := Ideal) (m ((c.tc : Thread nD τ).loc main_arg2))) (colK (F := Ideal) (dinvK (F := Ideal) (dstK0 (F := Ideal) (m ((c.tc : Thread nD τ).loc main_arg1))))) := by
  refine ((W8_arr m ρ c 3).trans (region0_value (V7 m ρ) c)).trans ?_
  show Cert.Gcn.projScale (N := 50000) (K := 256) (C := 128) (W7 m ρ c (Proc.devRef .tc main_arg0)) (W7 m ρ c (Proc.devRef .tc main_v50)) (W7 m ρ c (Proc.devRef .tc main_v51)) = _
  rw [arg0_at7 m ρ c, show W7 m ρ c (Proc.devRef .tc main_v50) = _ from w1_0_of (W6 m ρ c), arg2_at6 m ρ c,
    show W7 m ρ c (Proc.devRef .tc main_v51) = _ from col1_0_of (W6 m ρ c), dinv0_at6 m ρ c]

theorem total1_0_value : W9 m ρ c (Proc.devRef .tc main_v71) = tot1_0 (m ((c.tc : Thread nD τ).loc main_arg0)) (m ((c.tc : Thread nD τ).loc main_arg1)) (m ((c.tc : Thread nD τ).loc main_arg2)) (m ((c.tc : Thread nD τ).loc main_arg3)) := by
  refine (total1_0_of (W8 m ρ c)).trans ?_
  rw [show W8 m ρ c (Proc.devRef .tc main_v48) = _ from ((W8_of m ρ c main_v48 (by decide))).trans (zero128_of (W6 m ρ c)),
    launch0_value m ρ c, src0_at8 m ρ c, dst0_at8 m ρ c, dinv0_at8 m ρ c, arg3_at8 m ρ c]
  rfl

/-- Launch 1 leaves the rows of its input times relation 1's weight matrix, scaled by the relation's factor. -/
theorem launch1_value : W10 m ρ c (Proc.devRef .tc main_v75)
    = Cert.Gcn.projScale (N := 50000) (K := 256) (C := 128) (m ((c.tc : Thread nD τ).loc main_arg0)) (w1K1 (F := Ideal) (m ((c.tc : Thread nD τ).loc main_arg2))) (colK (F := Ideal) (dinvK (F := Ideal) (dstK1 (F := Ideal) (m ((c.tc : Thread nD τ).loc main_arg1))))) := by
  refine ((W10_arr m ρ c 3).trans (region1_value (V9 m ρ) c)).trans ?_
  show Cert.Gcn.projScale (N := 50000) (K := 256) (C := 128) (W9 m ρ c (Proc.devRef .tc main_arg0)) (W9 m ρ c (Proc.devRef .tc main_v73)) (W9 m ρ c (Proc.devRef .tc main_v74)) = _
  rw [arg0_at9 m ρ c, show W9 m ρ c (Proc.devRef .tc main_v73) = _ from w1_1_of (W8 m ρ c), arg2_at8 m ρ c,
    show W9 m ρ c (Proc.devRef .tc main_v74) = _ from col1_1_of (W8 m ρ c), dinv1_at8 m ρ c]

theorem total1_1_value : W11 m ρ c (Proc.devRef .tc main_v94) = tot1_1 (m ((c.tc : Thread nD τ).loc main_arg0)) (m ((c.tc : Thread nD τ).loc main_arg1)) (m ((c.tc : Thread nD τ).loc main_arg2)) (m ((c.tc : Thread nD τ).loc main_arg3)) := by
  refine (total1_1_of (W10 m ρ c)).trans ?_
  rw [show W10 m ρ c (Proc.devRef .tc main_v71) = _ from ((W10_of m ρ c main_v71 (by decide))).trans (total1_0_value m ρ c),
    launch1_value m ρ c, src1_at10 m ρ c, dst1_at10 m ρ c, dinv1_at10 m ρ c, arg3_at10 m ρ c]
  rfl

/-- Launch 2 leaves the rows of its input times relation 2's weight matrix, scaled by the relation's factor. -/
theorem launch2_value : W12 m ρ c (Proc.devRef .tc main_v98)
    = Cert.Gcn.projScale (N := 50000) (K := 256) (C := 128) (m ((c.tc : Thread nD τ).loc main_arg0)) (w1K2 (F := Ideal) (m ((c.tc : Thread nD τ).loc main_arg2))) (colK (F := Ideal) (dinvK (F := Ideal) (dstK2 (F := Ideal) (m ((c.tc : Thread nD τ).loc main_arg1))))) := by
  refine ((W12_arr m ρ c 3).trans (region2_value (V11 m ρ) c)).trans ?_
  show Cert.Gcn.projScale (N := 50000) (K := 256) (C := 128) (W11 m ρ c (Proc.devRef .tc main_arg0)) (W11 m ρ c (Proc.devRef .tc main_v96)) (W11 m ρ c (Proc.devRef .tc main_v97)) = _
  rw [arg0_at11 m ρ c, show W11 m ρ c (Proc.devRef .tc main_v96) = _ from w1_2_of (W10 m ρ c), arg2_at10 m ρ c,
    show W11 m ρ c (Proc.devRef .tc main_v97) = _ from col1_2_of (W10 m ρ c), dinv2_at10 m ρ c]

theorem total1_2_value : W13 m ρ c (Proc.devRef .tc main_v117) = tot1_2 (m ((c.tc : Thread nD τ).loc main_arg0)) (m ((c.tc : Thread nD τ).loc main_arg1)) (m ((c.tc : Thread nD τ).loc main_arg2)) (m ((c.tc : Thread nD τ).loc main_arg3)) := by
  refine (total1_2_of (W12 m ρ c)).trans ?_
  rw [show W12 m ρ c (Proc.devRef .tc main_v94) = _ from ((W12_of m ρ c main_v94 (by decide))).trans (total1_1_value m ρ c),
    launch2_value m ρ c, src2_at12 m ρ c, dst2_at12 m ρ c, dinv2_at12 m ρ c, arg3_at12 m ρ c]
  rfl

/-! ## Between the layers -/

/-- The hidden features, where the second layer's launches read them. -/
theorem hidden_def : W14 m ρ c (Proc.devRef .tc main_v118) = (hiddenK (m ((c.tc : Thread nD τ).loc main_arg0)) (m ((c.tc : Thread nD τ).loc main_arg1)) (m ((c.tc : Thread nD τ).loc main_arg2)) (m ((c.tc : Thread nD τ).loc main_arg3))) := by
  refine (hidden_of (W13 m ρ c)).trans ?_
  rw [total1_2_value m ρ c]
  exact (hiddenK_eq _ _ _ _).symm
theorem hidden_at15 : W15 m ρ c (Proc.devRef .tc main_v118) = (hiddenK (m ((c.tc : Thread nD τ).loc main_arg0)) (m ((c.tc : Thread nD τ).loc main_arg1)) (m ((c.tc : Thread nD τ).loc main_arg2)) (m ((c.tc : Thread nD τ).loc main_arg3))) :=
  ((W15_of m ρ c main_v118 (by decide))).trans (hidden_def m ρ c)
theorem hidden_at17 : W17 m ρ c (Proc.devRef .tc main_v118) = (hiddenK (m ((c.tc : Thread nD τ).loc main_arg0)) (m ((c.tc : Thread nD τ).loc main_arg1)) (m ((c.tc : Thread nD τ).loc main_arg2)) (m ((c.tc : Thread nD τ).loc main_arg3))) :=
  ((W17_of m ρ c main_v118 (by decide)).trans ((W16_in0 m ρ c).trans (W15_of m ρ c main_v118 (by decide)))).trans (hidden_def m ρ c)
theorem hidden_at19 : W19 m ρ c (Proc.devRef .tc main_v118) = (hiddenK (m ((c.tc : Thread nD τ).loc main_arg0)) (m ((c.tc : Thread nD τ).loc main_arg1)) (m ((c.tc : Thread nD τ).loc main_arg2)) (m ((c.tc : Thread nD τ).loc main_arg3))) :=
  ((W19_of m ρ c main_v118 (by decide)).trans ((W18_in0 m ρ c).trans ((W17_of m ρ c main_v118 (by decide)).trans ((W16_in0 m ρ c).trans (W15_of m ρ c main_v118 (by decide)))))).trans (hidden_def m ρ c)

/-! ## Layer 2 -/

/-- Launch 3 leaves the rows of its input times relation 0's weight matrix, scaled by the relation's factor. -/
theorem launch3_value : W16 m ρ c (Proc.devRef .tc main_v123)
    = Cert.Gcn.projScale (N := 50000) (K := 128) (C := 64) (hiddenK (m ((c.tc : Thread nD τ).loc main_arg0)) (m ((c.tc : Thread nD τ).loc main_arg1)) (m ((c.tc : Thread nD τ).loc main_arg2)) (m ((c.tc : Thread nD τ).loc main_arg3))) (w2K0 (F := Ideal) (m ((c.tc : Thread nD τ).loc main_arg4))) (colK (F := Ideal) (dinvK (F := Ideal) (dstK0 (F := Ideal) (m ((c.tc : Thread nD τ).loc main_arg1))))) := by
  refine ((W16_arr m ρ c 3).trans (region3_value (V15 m ρ) c)).trans ?_
  show Cert.Gcn.projScale (N := 50000) (K := 128) (C := 64) (W15 m ρ c (Proc.devRef .tc main_v118)) (W15 m ρ c (Proc.devRef .tc main_v121)) (W15 m ρ c (Proc.devRef .tc main_v122)) = _
  rw [hidden_at15 m ρ c, show W15 m ρ c (Proc.devRef .tc main_v121) = _ from w2_0_of (W14 m ρ c), arg4_at14 m ρ c,
    show W15 m ρ c (Proc.devRef .tc main_v122) = _ from col2_0_of (W14 m ρ c), dinv0_at14 m ρ c]

theorem total2_0_value : W17 m ρ c (Proc.devRef .tc main_v142) = tot2_0 (hiddenK (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) := by
  refine (total2_0_of (W16 m ρ c)).trans ?_
  rw [show W16 m ρ c (Proc.devRef .tc main_v119) = _ from ((W16_of m ρ c main_v119 (by decide))).trans (zero64_of (W14 m ρ c)),
    launch3_value m ρ c, src0_at16 m ρ c, dst0_at16 m ρ c, dinv0_at16 m ρ c, arg5_at16 m ρ c]
  rfl

/-- Launch 4 leaves the rows of its input times relation 1's weight matrix, scaled by the relation's factor. -/
theorem launch4_value : W18 m ρ c (Proc.devRef .tc main_v146)
    = Cert.Gcn.projScale (N := 50000) (K := 128) (C := 64) (hiddenK (m ((c.tc : Thread nD τ).loc main_arg0)) (m ((c.tc : Thread nD τ).loc main_arg1)) (m ((c.tc : Thread nD τ).loc main_arg2)) (m ((c.tc : Thread nD τ).loc main_arg3))) (w2K1 (F := Ideal) (m ((c.tc : Thread nD τ).loc main_arg4))) (colK (F := Ideal) (dinvK (F := Ideal) (dstK1 (F := Ideal) (m ((c.tc : Thread nD τ).loc main_arg1))))) := by
  refine ((W18_arr m ρ c 3).trans (region4_value (V17 m ρ) c)).trans ?_
  show Cert.Gcn.projScale (N := 50000) (K := 128) (C := 64) (W17 m ρ c (Proc.devRef .tc main_v118)) (W17 m ρ c (Proc.devRef .tc main_v144)) (W17 m ρ c (Proc.devRef .tc main_v145)) = _
  rw [hidden_at17 m ρ c, show W17 m ρ c (Proc.devRef .tc main_v144) = _ from w2_1_of (W16 m ρ c), arg4_at16 m ρ c,
    show W17 m ρ c (Proc.devRef .tc main_v145) = _ from col2_1_of (W16 m ρ c), dinv1_at16 m ρ c]

theorem total2_1_value : W19 m ρ c (Proc.devRef .tc main_v165) = tot2_1 (hiddenK (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (m ((c.tc : Thread nD τ).loc main_arg4)) (m ((c.tc : Thread nD τ).loc main_arg5)) := by
  refine (total2_1_of (W18 m ρ c)).trans ?_
  rw [show W18 m ρ c (Proc.devRef .tc main_v142) = _ from ((W18_of m ρ c main_v142 (by decide))).trans (total2_0_value m ρ c),
    launch4_value m ρ c, src1_at18 m ρ c, dst1_at18 m ρ c, dinv1_at18 m ρ c, arg5_at18 m ρ c]
  rfl

/-- Launch 5 leaves the rows of its input times relation 2's weight matrix, scaled by the relation's factor. -/
theorem launch5_value : W20 m ρ c (Proc.devRef .tc main_v169)
    = Cert.Gcn.projScale (N := 50000) (K := 128) (C := 64) (hiddenK (m ((c.tc : Thread nD τ).loc main_arg0)) (m ((c.tc : Thread nD τ).loc main_arg1)) (m ((c.tc : Thread nD τ).loc main_arg2)) (m ((c.tc : Thread nD τ).loc main_arg3))) (w2K2 (F := Ideal) (m ((c.tc : Thread nD τ).loc main_arg4))) (colK (F := Ideal) (dinvK (F := Ideal) (dstK2 (F := Ideal) (m ((c.tc : Thread nD τ).loc main_arg1))))) := by
  refine ((W20_arr m ρ c 3).trans (region5_value (V19 m ρ) c)).trans ?_
  show Cert.Gcn.projScale (N := 50000) (K := 128) (C := 64) (W19 m ρ c (Proc.devRef .tc main_v118)) (W19 m ρ c (Proc.devRef .tc main_v167)) (W19 m ρ c (Proc.devRef .tc main_v168)) = _
  rw [hidden_at19 m ρ c, show W19 m ρ c (Proc.devRef .tc main_v167) = _ from w2_2_of (W18 m ρ c), arg4_at18 m ρ c,
    show W19 m ρ c (Proc.devRef .tc main_v168) = _ from col2_2_of (W18 m ρ c), dinv2_at18 m ρ c]

theorem kernel_value : W21 m ρ c (Proc.devRef .tc main_v188) = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (total2_2_of (W20 m ρ c)).trans ?_
  rw [show W20 m ρ c (Proc.devRef .tc main_v165) = _ from ((W20_of m ρ c main_v165 (by decide))).trans (total2_1_value m ρ c),
    launch5_value m ρ c, src2_at20 m ρ c, dst2_at20 m ρ c, dinv2_at20 m ρ c, arg5_at20 m ρ c]
  exact (outK_eq _ _ _ _ _ _).symm

end Cert.KernelIdeal.Chain

end
-- ==== Proof.GcnSpec.lean ====
/-
  The two-layer, three-relation graph convolution as one function of whole arrays, in the reference's arrangement:
  a layer is the zero array plus its three relations one after the other (each relation the reference's composition
  `refConv` of the layer's input, the relation's weight matrix and bias, and the relation's source and destination
  lists), and between the layers the total is clamped at zero from below.  The weight matrices, biases and edge lists
  are parameters, so that either program's way of slicing them out of its arguments can be put in their place.
-/
import proofs.«133610_j47064251629674_2_alg».proof.Proof.ConvDefs

noncomputable section

namespace Cert.Conv

open Idealize.ShloMosaic

variable {F : FTy → Type} [FloatOps F]

section Reference
open Cert.ReferenceIdeal Cert.ReferenceIdeal.Gen

/-- The first layer's zero array. -/
def zeroR128 : FVec F S50000x128 .f32 := broadcastInDim S50000x128 ![] bcast_S_S50000x128 (constant S_ .f32 0x00000000#32)
/-- The second layer's zero array. -/
def zeroR64 : FVec F S50000x64 .f32 := broadcastInDim S50000x64 ![] bcast_S_S50000x64 (constant S_ .f32 0x00000000#32)

/-- The hidden features: the three relations of layer 1 added to zero in order, clamped at zero from below. -/
def hiddenSpec (x : FVec F S50000x256 .f32) (wa wb wc : FVec F S256x128 .f32) (ba bb bc : FVec F S128 .f32)
    (sa da sb db sc dc : IVec S1650000 32) : FVec F S50000x128 .f32 :=
  maximumf
    (addf (addf (addf (zeroR128 (F := F)) (refConv1 x wa ba sa da)) (refConv1 x wb bb sb db)) (refConv1 x wc bc sc dc))
    (zeroR128 (F := F))

/-- The output: the three relations of layer 2 over the hidden features `h`, added to zero in order. -/
def outSpec (h : FVec F S50000x128 .f32) (wa wb wc : FVec F S128x64 .f32) (ba bb bc : FVec F S64 .f32)
    (sa da sb db sc dc : IVec S1650000 32) : FVec F S50000x64 .f32 :=
  addf (addf (addf (zeroR64 (F := F)) (refConv2 h wa ba sa da)) (refConv2 h wb bb sb db)) (refConv2 h wc bc sc dc)

end Reference

end Cert.Conv

end
-- ==== Proof.LibRowGatherScatter.lean ====
/-
  Reading, at an index, the two indexed operations a segment sum is built from: the row gather `x[col]` (an operand
  `[N, C]` or `[N]` read at a column `[E, 1]` of start indices) and the accumulating row scatter
  `segment_sum(msgs, row)` (updates `[E, C]` added into an operand `[N, C]` at a column `[E, 1]` of row indices).
  The gather clamps its start index into `[0, N − 1]`; the scatter reads it signed and drops a row that is out of range.
  Every statement is for arbitrary dimension numbers whose lists are the ones those two operations carry.
-/
import Idealize.ShloMosaic.Lib.ValueIdx
import Idealize.ShloMosaic.PureOps.Ideal.Laws

noncomputable section

open scoped BigOperators

namespace Idealize.ShloMosaic.RowGatherScatter

open Idealize.ShloMosaic Idealize.ShloMosaic.ValueIdx

/-! ## The row gather at an index -/

section Gather
variable {α : Type}

/-- THE ROW GATHER READ AT `(e, c)`: gathering whole rows of an `[N, C]` operand at a column `[E, 1]` of start
    indices gives, at row `e` and column `c`, the operand's element in column `c` of the row named by start index
    `e`, that index read as a signed integer and clamped into `[0, N − 1]`. -/
theorem gather_rows_apply {N E C w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- the row axis: collapsed, not batching, named by the start index map
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : Nat) (hp : p < 1), GatherDims.siIdx (⟨[1], [0], [], [], [0], 1, ![1, C], wf⟩ :
        GatherDims ⟨2, ![N, C]⟩ ⟨2, ![E, 1]⟩ ⟨2, ![E, C]⟩) (ix2 e c) ⟨p, hp⟩ = ix2 e 0 := by
      intro p hp
      obtain rfl : p = 0 := by omega
      funext b; refine Fin.ext ?_
      match b with
      | ⟨0, _⟩ => rfl
      | ⟨1, _⟩ => rfl
    rw [hsi]
    rfl
  | ⟨1, _⟩ =>
    -- the column axis: an offset axis, its start 0, its offset the result's column
    show GatherDims.start _ (ix2 e c) idx 1 + GatherDims.batchCoord _ (ix2 e c) 1 + GatherDims.offCoord _ (ix2 e c) 1 = c.val
    rw [GatherDims.batchCoord_eq_zero _ _ _ List.not_mem_nil]
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (show (1 : Fin 2) ∉ [(0 : Fin 2)] by decide)]
    rw [hs]
    simp only [Nat.add_zero, Nat.zero_add]
    rfl

/-- THE VECTOR GATHER READ AT `e`: gathering elements of an `[N]` operand at a column `[E, 1]` of start indices gives,
    at `e`, the operand's element at start index `e`, read as a signed integer and clamped into `[0, N − 1]`. -/
theorem gather_vec_apply {N E w : Nat} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : Nat) (hp : p < 1), GatherDims.siIdx (⟨[], [0], [], [], [0], 1, ![1], wf⟩ :
        GatherDims ⟨1, ![N]⟩ ⟨2, ![E, 1]⟩ ⟨1, ![E]⟩) (ix1 e) ⟨p, hp⟩ = ix2 e 0 := by
      intro p hp
      obtain rfl : p = 0 := by omega
      funext b; refine Fin.ext ?_
      match b with
      | ⟨0, _⟩ => rfl
      | ⟨1, _⟩ => rfl
    rw [hsi]
    rfl

end Gather

/-! ## The accumulating row scatter at an index -/

section Scatter

/-- The row scatter's dimension numbers — updates `[E, C]` whose column axis is the window, the operand's row axis
    inserted and named by the one scatter index component — with their conditions an arbitrary proof. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update's scatter index, read signed. -/
theorem rows_start0 (idx : IVec ⟨2, ![E, 1]⟩ w) (e : Fin E) (c : Fin C) :
    (rowsDims N E C wf).start (ix2 e c) idx 0 = (idx (ix2 e 0)).toInt := by
  unfold ScatterDims.start
  rw [dif_pos (List.mem_singleton.mpr rfl)]
  have hsi : ∀ (p : Nat) (hp : p < 1), (rowsDims N E C wf).siIdx (ix2 e c) ⟨p, hp⟩ = ix2 e 0 := by
    intro p hp
    obtain rfl : p = 0 := by omega
    funext b; refine Fin.ext ?_
    match b with
    | ⟨0, _⟩ => rfl
    | ⟨1, _⟩ => rfl
  rw [hsi]

/-- On the column axis the window starts at 0. -/
theorem rows_start1 (idx : IVec ⟨2, ![E, 1]⟩ w) (e : Fin E) (c : Fin C) :
    (rowsDims N E C wf).start (ix2 e c) idx 1 = 0 := by
  unfold ScatterDims.start; rw [dif_neg (show (1 : Fin 2) ∉ [(0 : Fin 2)] by decide)]

/-- The row axis is inserted: no window coordinate. -/
theorem rows_window0 (e : Fin E) (c : Fin C) : (rowsDims N E C wf).window (ix2 e c) 0 = 0 := by
  unfold ScatterDims.window
  have h0 : (0 : Fin 2) ∉ (List.finRange 2).filter (· ∉ [(0 : Fin 2)]) := by decide
  exact dif_neg h0

/-- The column axis's window coordinate is the update's column. -/
theorem rows_window1 (e : Fin E) (c : Fin C) : (rowsDims N E C wf).window (ix2 e c) 1 = c.val := rfl

/-- WHERE AN UPDATE LANDS, for those dimension numbers: update `(e, c)` lands on operand element `(n, c')` exactly when
    the columns agree and the update's scatter index, read signed, is `n`. -/
theorem rows_resultIdx (idx : IVec ⟨2, ![E, 1]⟩ w) (e : Fin E) (c c' : Fin C) (n : Fin N) :
    (rowsDims N E C wf).resultIdx? (ix2 e c) idx = some (ix2 n c') ↔
      (c = c' ∧ (idx (ix2 e 0)).toInt = (n.val : ℤ)) := by
  unfold ScatterDims.resultIdx?
  constructor
  · intro h
    split at h
    · rename_i hall
      have hf := Option.some.inj h
      have h0 : ((rowsDims N E C wf).start (ix2 e c) idx 0 + ((rowsDims N E C wf).window (ix2 e c) 0 : ℕ)).toNat = n.val :=
        congrArg Fin.val (congrFun hf 0)
      have h1 : ((rowsDims N E C wf).start (ix2 e c) idx 1 + ((rowsDims N E C wf).window (ix2 e c) 1 : ℕ)).toNat = c'.val :=
        congrArg Fin.val (congrFun hf 1)
      have hr0 := (hall 0).1
      rw [rows_start0, rows_window0] at h0 hr0
      rw [rows_start1, rows_window1] at h1
      exact ⟨Fin.ext (by omega), by omega⟩
    · cases h
  · rintro ⟨rfl, hq⟩
    have hall : ∀ a, 0 ≤ (rowsDims N E C wf).start (ix2 e c) idx a + ((rowsDims N E C wf).window (ix2 e c) a : ℕ) ∧
        (rowsDims N E C wf).start (ix2 e c) idx a + ((rowsDims N E C wf).window (ix2 e c) a : ℕ) <
          ((⟨2, ![N, C]⟩ : Shape).size a : ℕ) := by
      intro a
      match a with
      | ⟨0, _⟩ =>
        show 0 ≤ (rowsDims N E C wf).start (ix2 e c) idx 0 + ((rowsDims N E C wf).window (ix2 e c) 0 : ℕ) ∧
          (rowsDims N E C wf).start (ix2 e c) idx 0 + ((rowsDims N E C wf).window (ix2 e c) 0 : ℕ) < (N : ℤ)
        rw [rows_start0, rows_window0, hq]
        have := n.isLt
        constructor <;> omega
      | ⟨1, _⟩ =>
        show 0 ≤ (rowsDims N E C wf).start (ix2 e c) idx 1 + ((rowsDims N E C wf).window (ix2 e c) 1 : ℕ) ∧
          (rowsDims N E C wf).start (ix2 e c) idx 1 + ((rowsDims N E C wf).window (ix2 e c) 1 : ℕ) < (C : ℤ)
        rw [rows_start1, rows_window1]
        have := c.isLt
        constructor <;> omega
    rw [dif_pos hall]
    congr 1
    funext a
    refine Fin.ext ?_
    match a with
    | ⟨0, _⟩ =>
      show ((rowsDims N E C wf).start (ix2 e c) idx 0 + ((rowsDims N E C wf).window (ix2 e c) 0 : ℕ)).toNat = n.val
      rw [rows_start0, rows_window0, hq]
      omega
    | ⟨1, _⟩ =>
      show ((rowsDims N E C wf).start (ix2 e c) idx 1 + ((rowsDims N E C wf).window (ix2 e c) 1 : ℕ)).toNat = c.val
      rw [rows_start1, rows_window1]
      omega

omit wf in
/-- WHERE AN UPDATE LANDS in the accumulating row scatter: update `(e, c)` lands on operand element `(n, c')` exactly
    when the columns agree and the update's scatter index, read as a signed integer and NOT clamped, is `n`; an update
    whose index is negative or at least `N` lands nowhere. -/
theorem scatter_rows_resultIdx (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c c' : Fin C) (n : Fin N) :
    d.resultIdx? (ix2 e c) idx = some (ix2 n c') ↔ (c = c' ∧ (idx (ix2 e 0)).toInt = (n.val : ℤ)) := by
  obtain ⟨uw, iw, sd, iv, wf'⟩ := d
  simp only at h1 h2 h3 h4
  subst h1 h2 h3 h4
  exact rows_resultIdx wf' idx e c c' n

omit wf in
/-- THE ACCUMULATING ROW SCATTER READ AT `(n, c)`, over the extended reals: the operand's element plus the sum of
    column `c` of the update rows whose scatter index, read signed, is `n` — the segment sum of the updates over the
    rows sent to `n`. Rows with an out-of-range index contribute to no element. -/
theorem scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) d x idx upd (ix2 n c) =
      x (ix2 n c) + ∑ e ∈ Finset.univ.filter (fun e : Fin E => (idx (ix2 e 0)).toInt = (n.val : ℤ)), upd (ix2 e c) := by
  show Ideal.hostScatterAdd d x idx upd (ix2 n c) = _
  unfold Ideal.hostScatterAdd
  congr 1
  rw [Finset.sum_filter, sum_idx2, Finset.sum_filter]
  refine Finset.sum_congr rfl fun a _ => ?_
  have key : ∀ b : Fin C, (if d.resultIdx? (ix2 a b) idx = some (ix2 n c) then upd (ix2 a b) else 0) =
      if b = c then (if (idx (ix2 a 0)).toInt = (n.val : ℤ) then upd (ix2 a c) else 0) else 0 := by
    intro b
    by_cases hb : b = c
    · subst hb
      by_cases hq : (idx (ix2 a 0)).toInt = (n.val : ℤ)
      · rw [if_pos ((scatter_rows_resultIdx d h1 h2 h3 h4 idx a b b n).mpr ⟨rfl, hq⟩), if_pos rfl, if_pos hq]
      · rw [if_neg (fun h => hq ((scatter_rows_resultIdx d h1 h2 h3 h4 idx a b b n).mp h).2), if_pos rfl, if_neg hq]
    · rw [if_neg (fun h => hb ((scatter_rows_resultIdx d h1 h2 h3 h4 idx a b c n).mp h).1), if_neg hb]
  rw [Finset.sum_congr rfl (fun b _ => key b), Finset.sum_ite_eq' Finset.univ c, if_pos (Finset.mem_univ c)]

end Scatter

end Idealize.ShloMosaic.RowGatherScatter

end
-- ==== Proof.LibScaledSegmentSum.lean ====
/-
  Scaling a segment sum.  On the extended reals a finite sum may be multiplied through by a factor that is
  non-negative and not `⊤` (for such a factor multiplication distributes over every sum, infinite terms included),
  so scaling every row that an accumulating row scatter adds into row `n` by one such factor is the same as
  scaling the scattered total.  The per-node factor of a symmetrically normalised graph convolution — the inverse
  square root of a degree where the degree is positive, zero elsewhere — is such a factor whatever the degree is.
-/
import proofs.«133610_j47064251629674_2_alg».proof.Proof.LibRowGatherScatter

noncomputable section

open scoped BigOperators

namespace Idealize.ShloMosaic.ScaledSegmentSum

open Idealize.ShloMosaic Idealize.ShloMosaic.ValueIdx Idealize.ShloMosaic.RowGatherScatter

/-- A finite sum of extended reals times a factor in `[0, ⊤)` is the sum of the scaled terms. -/
theorem sum_mul_of_nonneg_of_ne_top {ι : Type*} (S : Finset ι) (a : ι → EReal) {d : EReal} (h0 : 0 ≤ d) (ht : d ≠ ⊤) :
    (∑ e ∈ S, a e) * d = ∑ e ∈ S, a e * d := by
  classical
  induction S using Finset.induction_on with
  | empty => simp
  | insert e S he ih =>
    rw [Finset.sum_insert he, Finset.sum_insert he, EReal.right_distrib_of_nonneg_of_ne_top h0 ht, ih]

/-- The inverse square root of `y` where `y` exceeds `z = 0`, and `z' = 0` elsewhere, lies in `[0, ⊤)` for EVERY
    extended real `y`: a positive real has a positive real inverse root, and `⊤` has inverse root `0`. -/
theorem select_rsqrt_bounds (y z z' : EReal) (hz : z = 0) (hz' : z' = 0) :
    0 ≤ Scalar.select (Ideal.cmp .ogt y z) (Ideal.rsqrt y) z'
      ∧ Scalar.select (Ideal.cmp .ogt y z) (Ideal.rsqrt y) z' ≠ ⊤ := by
  subst hz hz'
  unfold Scalar.select Ideal.cmp
  by_cases hy : (0 : EReal) < y
  · have h1 : BitVec.ofBool (decide ((0 : EReal) < y)) = 1 := by simp [hy]
    rw [if_pos h1]
    induction y using EReal.rec with
    | bot => exact absurd hy (by simp)
    | top => simp
    | coe r =>
      have hr : 0 < r := by exact_mod_cast hy
      rw [Ideal.rsqrt_coe, if_neg (not_lt.mpr hr.le), if_neg hr.ne']
      exact ⟨by exact_mod_cast (inv_nonneg.mpr (Real.sqrt_nonneg r)), EReal.coe_ne_top _⟩
  · have h1 : ¬ BitVec.ofBool (decide ((0 : EReal) < y)) = 1 := by simp [hy]
    rw [if_neg h1]
    exact ⟨le_refl _, EReal.zero_ne_top⟩

/-- SCALING THE SCATTERED TOTAL: if, for every update row `e` that the accumulating row scatter adds into row `n`,
    `U (e, c) · s = V (e, c)` with `s` in `[0, ⊤)`, then the scatter of `U` into zeros, read at `(n, c)` and scaled by
    `s`, is the scatter of `V` into zeros read at `(n, c)`. -/
theorem scatterAdd_rows_mul {N E C w : Nat} {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (Z : FVec Ideal ⟨2, ![N, C]⟩ φ) (hZ : ∀ j, Z j = 0) (idx : IVec ⟨2, ![E, 1]⟩ w)
    (U V : FVec Ideal ⟨2, ![E, C]⟩ φ) (n : Fin N) (c : Fin C) {s : EReal} (h0 : 0 ≤ s) (ht : s ≠ ⊤)
    (hUV : ∀ e : Fin E, (idx (ix2 e 0)).toInt = (n.val : ℤ) → U (ix2 e c) * s = V (ix2 e c)) :
    Host.scatterAdd (F := Ideal) d Z idx U (ix2 n c) * s = Host.scatterAdd (F := Ideal) d Z idx V (ix2 n c) := by
  rw [scatterAdd_rows_apply d h1 h2 h3 h4, scatterAdd_rows_apply d h1 h2 h3 h4, hZ, zero_add, zero_add,
    sum_mul_of_nonneg_of_ne_top _ _ h0 ht]
  exact Finset.sum_congr rfl fun e he => hUV e (Finset.mem_filter.mp he).2

/-- A signed index that is not negative is left alone by the wrap-around `select (x < z) (x + k) x` with `z = 0`
    (the normalisation of a possibly negative row index). -/
theorem select_slt_of_nonneg {w : Nat} (x z k : BitVec w) (hz : z = 0#w) (hx : 0 ≤ x.toInt) :
    Scalar.select (IntOp.cmpi .slt x z) (x + k) x = x := by
  subst hz
  have h : x.slt (0#w) = false := by
    simp only [BitVec.slt, BitVec.toInt_zero, decide_eq_false_iff_not, not_lt]; exact hx
  simp [Scalar.select, IntOp.cmpi, h]

/-- SYMMETRIC NORMALISATION, THE TWO ARRANGEMENTS.  Rows `B` scaled by a per-node factor `D` BEFORE they are gathered
    along the edges and summed into their destination rows, the sums scaled by `D` AFTER — against every gathered row
    multiplied by `D(source) · D(destination)` and then summed: equal at every `(n, c)`, for factors in `[0, ⊤)` and any
    extended-real rows.  `dstB` names each edge's destination row (read signed by the scatter, which drops an edge
    out of range), `srcB` its source row and `dstNB` the destination row as the gather of `D` reads it (both
    clamped by the gather); an edge that lands in row `n` reads `D` at `n` (`hdst`). -/
theorem scatter_gather_scaled {N E C w : Nat} {φ : FTy} (hN : 0 < N)
    (sd sd' : ScatterDims ⟨2, ![N, C]⟩ ⟨2, ![E, 1]⟩ ⟨2, ![E, C]⟩)
    (s1 : sd.updateWindowDims = [1]) (s2 : sd.insertedWindowDims = [0]) (s3 : sd.scatterDimsToOperandDims = [0])
    (s4 : sd.indexVectorDim = 1)
    (s1' : sd'.updateWindowDims = [1]) (s2' : sd'.insertedWindowDims = [0]) (s3' : sd'.scatterDimsToOperandDims = [0])
    (s4' : sd'.indexVectorDim = 1)
    (gd gd' : GatherDims ⟨2, ![N, C]⟩ ⟨2, ![E, 1]⟩ ⟨2, ![E, C]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, C])
    (g1' : gd'.offsetDims = [1]) (g2' : gd'.collapsedSliceDims = [0]) (g3' : gd'.operandBatchingDims = [])
    (g4' : gd'.startIndicesBatchingDims = []) (g5' : gd'.startIndexMap = [0]) (g6' : gd'.indexVectorDim = 1)
    (g7' : gd'.sliceSizes = ![1, C])
    (gv : GatherDims ⟨1, ![N]⟩ ⟨2, ![E, 1]⟩ ⟨1, ![E]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (Z Z' : FVec Ideal ⟨2, ![N, C]⟩ φ) (hZ : ∀ j, Z j = 0) (hZ' : ∀ j, Z' j = 0)
    (dstB srcB dstNB : IVec ⟨2, ![E, 1]⟩ w)
    (D : FVec Ideal ⟨1, ![N]⟩ φ) (hD : ∀ n : Fin N, 0 ≤ D (ix1 n) ∧ D (ix1 n) ≠ ⊤)
    (hdst : ∀ (e : Fin E) (n : Fin N), (dstB (ix2 e 0)).toInt = (n.val : ℤ) →
      min (dstNB (ix2 e 0)).toInt.toNat (N - 1) = n.val)
    (A B : FVec Ideal ⟨2, ![N, C]⟩ φ) (hAB : ∀ (n : Fin N) (c : Fin C), A (ix2 n c) = B (ix2 n c) * D (ix1 n))
    (M : FVec Ideal ⟨2, ![E, C]⟩ φ)
    (hM : ∀ (e : Fin E) (c : Fin C), M (ix2 e c)
      = Host.gather gd' B srcB (ix2 e c) * (Host.gather gv D srcB (ix1 e) * Host.gather gv D dstNB (ix1 e)))
    (n : Fin N) (c : Fin C) :
    Host.scatterAdd (F := Ideal) sd Z dstB (Host.gather gd A srcB) (ix2 n c) * D (ix1 n)
      = Host.scatterAdd (F := Ideal) sd' Z' dstB M (ix2 n c) := by
  rw [scatterAdd_rows_apply sd s1 s2 s3 s4, scatterAdd_rows_apply sd' s1' s2' s3' s4', hZ, hZ', zero_add, zero_add,
    sum_mul_of_nonneg_of_ne_top _ _ (hD n).1 (hD n).2]
  refine Finset.sum_congr rfl fun e he => ?_
  have hl : (dstB (ix2 e 0)).toInt = (n.val : ℤ) := (Finset.mem_filter.mp he).2
  have ht : (⟨min (dstNB (ix2 e 0)).toInt.toNat (N - 1), by omega⟩ : Fin N) = n := Fin.ext (hdst e n hl)
  rw [hM, gather_rows_apply hN gd g1 g2 g3 g4 g5 g6 g7, gather_rows_apply hN gd' g1' g2' g3' g4' g5' g6' g7',
    gather_vec_apply hN gv v1 v2 v3 v4 v5 v6 v7, gather_vec_apply hN gv v1 v2 v3 v4 v5 v6 v7, ht, hAB, mul_assoc]

end Idealize.ShloMosaic.ScaledSegmentSum

end
-- ==== Proof.ConvLaw.lean ====
/-
  One relation of a symmetrically normalised graph convolution: the kernel's arrangement (rows scaled by the per-node
  factor before they are gathered along the edges and summed, the sums scaled again after) equals the reference's
  (every gathered row multiplied by the product of the factors of the edge's two ends, then summed), at the ideal
  instance, for every extended-real input and every pair of index arrays.  The factor is an inverse square root of a
  degree where the degree is positive and zero elsewhere, hence in `[0, ⊤)`, and multiplication by such a factor
  distributes over every finite sum of extended reals.
-/
import proofs.«133610_j47064251629674_2_alg».proof.Proof.Spec
import proofs.«133610_j47064251629674_2_alg».proof.Proof.LibScaledSegmentSum
import proofs.«133610_j47064251629674_2_alg».proof.Proof.LibPlainMatmul
import proofs.«133610_j47064251629674_2_alg».proof.Proof.ConvDefs
import Idealize.ShloMosaic.Lib.ValueIdx
import Idealize.ShloMosaic.Lib.Pipeline.Value
import Idealize.ShloMosaic.PureOps.Ideal.Laws

noncomputable section

namespace Cert.Conv

open scoped BigOperators
open Idealize.ShloMosaic Idealize.ShloMosaic.ValueIdx Idealize.ShloMosaic.RowGatherScatter
  Idealize.ShloMosaic.ScaledSegmentSum

/-! ## Layout operations read at an index -/

section Layout
variable {α : Type}

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) :
    broadcastInDim t (![] : Fin 0 → Fin t.rank) h x j = x ix0 :=
  broadcastInDim_apply _ h x j ix0 (fun a => a.elim0)

/-- A vector `[n]` broadcast to a column `[n, 1]` reads the vector at the row. -/
theorem bcast_vec_col_apply {n : Nat} (h : (⟨1, ![n]⟩ : Shape).BroadcastsInDim ⟨2, ![n, 1]⟩ ![0])
    (x : (⟨1, ![n]⟩ : Shape).Idx → α) (e : Fin n) (z : Fin 1) :
    broadcastInDim ⟨2, ![n, 1]⟩ ![0] h x (ix2 e z) = x (ix1 e) := by
  refine broadcastInDim_apply _ h x _ _ (fun a => ?_)
  match a with
  | ⟨0, _⟩ =>
    show e.val = if n = 1 then 0 else e.val
    split
    · have := e.isLt; omega
    · rfl

/-- A column `[n, 1]` broadcast to `[n, c]` reads the column at the row. -/
theorem bcast_col_mat_apply {n c : Nat} (h : (⟨2, ![n, 1]⟩ : Shape).BroadcastsInDim ⟨2, ![n, c]⟩ ![0, 1])
    (x : (⟨2, ![n, 1]⟩ : Shape).Idx → α) (e : Fin n) (k : Fin c) :
    broadcastInDim ⟨2, ![n, c]⟩ ![0, 1] h x (ix2 e k) = x (ix2 e 0) := by
  refine broadcastInDim_apply _ h x _ _ (fun a => ?_)
  match a with
  | ⟨0, _⟩ =>
    show e.val = if n = 1 then 0 else e.val
    split
    · have := e.isLt; omega
    · rfl
  | ⟨1, _⟩ =>
    exact (if_pos rfl).symm

/-- A vector `[c]` broadcast to a row `[1, c]` reads the vector at the column. -/
theorem bcast_vec_row_apply {c : Nat} (h : (⟨1, ![c]⟩ : Shape).BroadcastsInDim ⟨2, ![1, c]⟩ ![1])
    (x : (⟨1, ![c]⟩ : Shape).Idx → α) (z : Fin 1) (k : Fin c) :
    broadcastInDim ⟨2, ![1, c]⟩ ![1] h x (ix2 z k) = x (ix1 k) := by
  refine broadcastInDim_apply _ h x _ _ (fun a => ?_)
  match a with
  | ⟨0, _⟩ =>
    show k.val = if c = 1 then 0 else k.val
    split
    · have := k.isLt; omega
    · rfl

/-- A row `[1, c]` broadcast to `[n, c]` reads the row at the column. -/
theorem bcast_row_mat_apply {n c : Nat} (h : (⟨2, ![1, c]⟩ : Shape).BroadcastsInDim ⟨2, ![n, c]⟩ ![0, 1])
    (x : (⟨2, ![1, c]⟩ : Shape).Idx → α) (e : Fin n) (k : Fin c) :
    broadcastInDim ⟨2, ![n, c]⟩ ![0, 1] h x (ix2 e k) = x (ix2 0 k) := by
  refine broadcastInDim_apply _ h x _ _ (fun a => ?_)
  match a with
  | ⟨0, _⟩ =>
    exact (if_pos rfl).symm
  | ⟨1, _⟩ =>
    show k.val = if c = 1 then 0 else k.val
    split
    · have := k.isLt; omega
    · rfl

/-- A vector `[n]` reshaped to a column `[n, 1]` reads the vector at the row. -/
theorem shapeCast_vec_col_apply {n : Nat} (h : (⟨1, ![n]⟩ : Shape).ShapeCasts ⟨2, ![n, 1]⟩)
    (x : (⟨1, ![n]⟩ : Shape).Idx → α) (e : Fin n) (z : Fin 1) :
    shapeCast ⟨2, ![n, 1]⟩ x h (ix2 e z) = x (ix1 e) := by
  refine shapeCast_apply x h _ _ ?_
  rw [Shape.rowMajor_val_one, Shape.rowMajor_val_two]
  show e.val = e.val * 1 + z.val
  have := z.isLt
  omega

end Layout

/-! ## The pieces both layers share -/

/-- The zero splat reads `0` everywhere. -/
theorem zeros_apply {t : Shape} (h : (⟨0, ![]⟩ : Shape).BroadcastsInDim t (![] : Fin 0 → Fin t.rank)) (j : t.Idx) :
    broadcastInDim t (![] : Fin 0 → Fin t.rank) h (constant (F := Ideal) ⟨0, ![]⟩ .f32 0x00000000#32) j = 0 :=
  (bcast_scalar_apply h _ j).trans Ideal.ofBits_zero_f32

/-- The two programs compute the per-node factor by the same operations. -/
theorem dinvR_eq_dinvK {F : FTy → Type} [FloatOps F] (d : IVec Cert.KernelIdeal.S1650000 32) :
    dinvR (F := F) d = dinvK (F := F) d := rfl

/-- The two programs wrap an index by the same operations. -/
theorem wrapIdxR_eq_wrapIdx (x : IVec Cert.KernelIdeal.S1650000 32) : wrapIdxR x = wrapIdx x := rfl

/-- The inverse square root where a value exceeds a zero splat, a zero splat elsewhere, lies in `[0, ⊤)` at every index,
    whatever the value is. -/
theorem select_rsqrt_vec_bounds {t : Shape} (y z z' : FVec Ideal t .f32) (hz : ∀ i, z i = 0) (hz' : ∀ i, z' i = 0) (i : t.Idx) :
    0 ≤ select (cmpf .ogt y z) (Host.rsqrt y) z' i ∧ select (cmpf .ogt y z) (Host.rsqrt y) z' i ≠ ⊤ :=
  select_rsqrt_bounds (y i) (z i) (z' i) (hz i) (hz' i)

/-- The per-node factor lies in `[0, ⊤)` whatever the degree is. -/
theorem dinvR_bounds (d : IVec Cert.ReferenceIdeal.S1650000 32) (n : Fin 50000) :
    0 ≤ dinvR (F := Ideal) d (ix1 n) ∧ dinvR (F := Ideal) d (ix1 n) ≠ ⊤ := by
  unfold dinvR
  exact select_rsqrt_vec_bounds _ _ _ (fun i => zeros_apply _ i) (fun i => zeros_apply _ i) (ix1 n)

/-- An index that is not negative is left alone by the wrap. -/
theorem wrapIdxR_of_nonneg (x : IVec Cert.ReferenceIdeal.S1650000 32) (i : Cert.ReferenceIdeal.S1650000.Idx)
    (hx : 0 ≤ (x i).toInt) : wrapIdxR x i = x i :=
  select_slt_of_nonneg (x i) _ _ rfl hx

/-- An edge that the scatter lands in row `n` has destination `n ≥ 0`: the wrap leaves it alone and the gather's clamp
    into `[0, 49999]` is the identity on it. -/
theorem dst_wrap (d : IVec Cert.ReferenceIdeal.S1650000 32) (e : Fin 1650000) (n : Fin 50000)
    (h : ((broadcastInDim Cert.ReferenceIdeal.S1650000x1 ![0] Cert.ReferenceIdeal.Gen.bcast_S1650000_S1650000x1_0 d) (ix2 e 0)).toInt
      = (n.val : ℤ)) :
    min ((broadcastInDim Cert.ReferenceIdeal.S1650000x1 ![0] Cert.ReferenceIdeal.Gen.bcast_S1650000_S1650000x1_0 (wrapIdxR d))
      (ix2 e 0)).toInt.toNat (50000 - 1) = n.val := by
  rw [bcast_vec_col_apply] at h ⊢
  rw [wrapIdxR_of_nonneg d (ix1 e) (by rw [h]; exact Int.natCast_nonneg _), h]
  have := n.isLt
  omega

/-! ## Layer 1: `[50000, 256] · [256, 128]` -/

/-- The kernel's composition read at `(n, c)`: the scattered total of the gathered rows, times the node's factor, plus
    the bias entry. -/
theorem kerConv1_apply (P : FVec Ideal Cert.KernelIdeal.S50000x128 .f32) (s d : IVec Cert.KernelIdeal.S1650000 32)
    (dinv : FVec Ideal Cert.KernelIdeal.S50000 .f32) (b : FVec Ideal Cert.KernelIdeal.S128 .f32) (n : Fin 50000) (c : Fin 128) :
    kerConv1 (F := Ideal) P s d dinv b (ix2 n c)
      = Host.scatterAdd (F := Ideal) Cert.KernelIdeal.scatter_S50000x128_S1650000x1_S1650000x128_1_0_0_1
          (broadcastInDim Cert.KernelIdeal.S50000x128 ![] Cert.KernelIdeal.Gen.bcast_S_S50000x128
            (constant (F := Ideal) Cert.KernelIdeal.S_ .f32 0x00000000#32))
          (broadcastInDim Cert.KernelIdeal.S1650000x1 ![0] Cert.KernelIdeal.Gen.bcast_S1650000_S1650000x1_0 d)
          (Host.gather Cert.KernelIdeal.gather_S50000x128_S1650000x1_S1650000x128_1_0_n_n_0_1_1128 P
            (broadcastInDim Cert.KernelIdeal.S1650000x1 ![0] Cert.KernelIdeal.Gen.bcast_S1650000_S1650000x1_0 (wrapIdx s)))
          (ix2 n c) * dinv (ix1 n) + b (ix1 c) := by
  unfold kerConv1
  rw [addf_apply, mulf_apply, bcast_col_mat_apply, bcast_vec_col_apply, bcast_row_mat_apply, bcast_vec_row_apply]

/-- The reference's scattered rows read at `(e, c)`: the gathered row of the plain projection times the product of the
    factors gathered at the edge's two ends. -/
theorem refMsg1_apply (X : FVec Ideal Cert.ReferenceIdeal.S1650000x128 .f32) (u v : FVec Ideal Cert.ReferenceIdeal.S1650000 .f32)
    (e : Fin 1650000) (c : Fin 128) :
    mulf X
        (broadcastInDim Cert.ReferenceIdeal.S1650000x128 ![0, 1] Cert.ReferenceIdeal.Gen.bcast_S1650000x1_S1650000x128_0_1
          (broadcastInDim Cert.ReferenceIdeal.S1650000x1 ![0] Cert.ReferenceIdeal.Gen.bcast_S1650000_S1650000x1_0 (mulf u v)))
        (ix2 e c)
      = X (ix2 e c) * (u (ix1 e) * v (ix1 e)) := by
  rw [mulf_apply, bcast_col_mat_apply, bcast_vec_col_apply, mulf_apply]

/-- The reference's composition read at `(n, c)`: its scattered total plus the bias entry. -/
theorem refConv1_apply (feat : FVec Ideal Cert.ReferenceIdeal.S50000x256 .f32) (W : FVec Ideal Cert.ReferenceIdeal.S256x128 .f32)
    (b : FVec Ideal Cert.ReferenceIdeal.S128 .f32) (s d : IVec Cert.ReferenceIdeal.S1650000 32) (n : Fin 50000) (c : Fin 128) :
    refConv1 (F := Ideal) feat W b s d (ix2 n c)
      = Host.scatterAdd (F := Ideal) Cert.ReferenceIdeal.scatter_S50000x128_S1650000x1_S1650000x128_1_0_0_1
          (broadcastInDim Cert.ReferenceIdeal.S50000x128 ![] Cert.ReferenceIdeal.Gen.bcast_S_S50000x128
            (constant (F := Ideal) Cert.ReferenceIdeal.S_ .f32 0x00000000#32))
          (broadcastInDim Cert.ReferenceIdeal.S1650000x1 ![0] Cert.ReferenceIdeal.Gen.bcast_S1650000_S1650000x1_0 d)
          (mulf
            (Host.gather Cert.ReferenceIdeal.gather_S50000x128_S1650000x1_S1650000x128_1_0_n_n_0_1_1128
              (Host.dotGeneral (F := Ideal) Cert.ReferenceIdeal.dot_S50000x256_S256x128_S50000x128_1_0_0_1_n_n none feat W)
              (broadcastInDim Cert.ReferenceIdeal.S1650000x1 ![0] Cert.ReferenceIdeal.Gen.bcast_S1650000_S1650000x1_0 (wrapIdxR s)))
            (broadcastInDim Cert.ReferenceIdeal.S1650000x128 ![0, 1] Cert.ReferenceIdeal.Gen.bcast_S1650000x1_S1650000x128_0_1
              (broadcastInDim Cert.ReferenceIdeal.S1650000x1 ![0] Cert.ReferenceIdeal.Gen.bcast_S1650000_S1650000x1_0 (mulf
                  (Host.gather Cert.ReferenceIdeal.gather_S50000_S1650000x1_S1650000_n_0_n_n_0_1_1 (dinvR (F := Ideal) d)
                    (broadcastInDim Cert.ReferenceIdeal.S1650000x1 ![0] Cert.ReferenceIdeal.Gen.bcast_S1650000_S1650000x1_0 (wrapIdxR s)))
                  (Host.gather Cert.ReferenceIdeal.gather_S50000_S1650000x1_S1650000_n_0_n_n_0_1_1 (dinvR (F := Ideal) d)
                    (broadcastInDim Cert.ReferenceIdeal.S1650000x1 ![0] Cert.ReferenceIdeal.Gen.bcast_S1650000_S1650000x1_0 (wrapIdxR d)))))))
          (ix2 n c) + b (ix1 c) := by
  unfold refConv1
  rw [addf_apply, bcast_row_mat_apply, bcast_vec_row_apply]

/-- The plain projection read at `(n, c)`: the sum over the inner axis. -/
theorem refProj1_apply (feat : FVec Ideal Cert.ReferenceIdeal.S50000x256 .f32) (W : FVec Ideal Cert.ReferenceIdeal.S256x128 .f32)
    (n : Fin 50000) (c : Fin 128) :
    Host.dotGeneral (F := Ideal) Cert.ReferenceIdeal.dot_S50000x256_S256x128_S50000x128_1_0_0_1_n_n none feat W (ix2 n c)
      = ∑ k : Fin 256, feat (ix2 n k) * W (ix2 k c) :=
  PlainMatmul.plain_dotGeneral_apply 50000 256 128 none .single feat W n c

/-- The kernel's pre-scaled projection is the plain projection times the node's factor. -/
theorem projScale1_eq (feat : FVec Ideal Cert.KernelIdeal.S50000x256 .f32) (W : FVec Ideal Cert.KernelIdeal.S256x128 .f32)
    (d : IVec Cert.KernelIdeal.S1650000 32) (n : Fin 50000) (c : Fin 128) :
    (Cert.Gcn.projScale feat W
          (shapeCast Cert.KernelIdeal.S50000x1 (dinvK (F := Ideal) d) Cert.KernelIdeal.Gen.shapeCasts_S50000_S50000x1)) (ix2 n c)
      = (Host.dotGeneral (F := Ideal) Cert.ReferenceIdeal.dot_S50000x256_S256x128_S50000x128_1_0_0_1_n_n none feat W) (ix2 n c) * dinvR (F := Ideal) d (ix1 n) := by
  rw [Cert.Gcn.projScale_apply, shapeCast_vec_col_apply, refProj1_apply, dinvR_eq_dinvK]

/-- The segment sums of the two arrangements agree at `(n, c)`, every array spelled as the reference spells it. -/
theorem segsum1_eq (feat : FVec Ideal Cert.ReferenceIdeal.S50000x256 .f32) (W : FVec Ideal Cert.ReferenceIdeal.S256x128 .f32)
    (s d : IVec Cert.ReferenceIdeal.S1650000 32) (n : Fin 50000) (c : Fin 128) :
    Host.scatterAdd (F := Ideal) Cert.KernelIdeal.scatter_S50000x128_S1650000x1_S1650000x128_1_0_0_1
          (broadcastInDim Cert.KernelIdeal.S50000x128 ![] Cert.KernelIdeal.Gen.bcast_S_S50000x128
            (constant (F := Ideal) Cert.KernelIdeal.S_ .f32 0x00000000#32))
          (broadcastInDim Cert.ReferenceIdeal.S1650000x1 ![0] Cert.ReferenceIdeal.Gen.bcast_S1650000_S1650000x1_0 d)
          (Host.gather Cert.KernelIdeal.gather_S50000x128_S1650000x1_S1650000x128_1_0_n_n_0_1_1128 (Cert.Gcn.projScale feat W
          (shapeCast Cert.KernelIdeal.S50000x1 (dinvK (F := Ideal) d) Cert.KernelIdeal.Gen.shapeCasts_S50000_S50000x1))
            (broadcastInDim Cert.ReferenceIdeal.S1650000x1 ![0] Cert.ReferenceIdeal.Gen.bcast_S1650000_S1650000x1_0 (wrapIdxR s)))
          (ix2 n c) * dinvR (F := Ideal) d (ix1 n)
      = Host.scatterAdd (F := Ideal) Cert.ReferenceIdeal.scatter_S50000x128_S1650000x1_S1650000x128_1_0_0_1
          (broadcastInDim Cert.ReferenceIdeal.S50000x128 ![] Cert.ReferenceIdeal.Gen.bcast_S_S50000x128
            (constant (F := Ideal) Cert.ReferenceIdeal.S_ .f32 0x00000000#32))
          (broadcastInDim Cert.ReferenceIdeal.S1650000x1 ![0] Cert.ReferenceIdeal.Gen.bcast_S1650000_S1650000x1_0 d)
          (mulf
            (Host.gather Cert.ReferenceIdeal.gather_S50000x128_S1650000x1_S1650000x128_1_0_n_n_0_1_1128
              (Host.dotGeneral (F := Ideal) Cert.ReferenceIdeal.dot_S50000x256_S256x128_S50000x128_1_0_0_1_n_n none feat W)
              (broadcastInDim Cert.ReferenceIdeal.S1650000x1 ![0] Cert.ReferenceIdeal.Gen.bcast_S1650000_S1650000x1_0 (wrapIdxR s)))
            (broadcastInDim Cert.ReferenceIdeal.S1650000x128 ![0, 1] Cert.ReferenceIdeal.Gen.bcast_S1650000x1_S1650000x128_0_1
              (broadcastInDim Cert.ReferenceIdeal.S1650000x1 ![0] Cert.ReferenceIdeal.Gen.bcast_S1650000_S1650000x1_0 (mulf
                  (Host.gather Cert.ReferenceIdeal.gather_S50000_S1650000x1_S1650000_n_0_n_n_0_1_1 (dinvR (F := Ideal) d)
                    (broadcastInDim Cert.ReferenceIdeal.S1650000x1 ![0] Cert.ReferenceIdeal.Gen.bcast_S1650000_S1650000x1_0 (wrapIdxR s)))
                  (Host.gather Cert.ReferenceIdeal.gather_S50000_S1650000x1_S1650000_n_0_n_n_0_1_1 (dinvR (F := Ideal) d)
                    (broadcastInDim Cert.ReferenceIdeal.S1650000x1 ![0] Cert.ReferenceIdeal.Gen.bcast_S1650000_S1650000x1_0 (wrapIdxR d)))))))
          (ix2 n c) := by
  have hN : 0 < 50000 := by omega
  -- the two scatters, the two row gathers and the vector gather carry the dimension numbers the law is stated for
  have key := @scatter_gather_scaled 50000 1650000 128 32 .f32 hN
    Cert.KernelIdeal.scatter_S50000x128_S1650000x1_S1650000x128_1_0_0_1
    Cert.ReferenceIdeal.scatter_S50000x128_S1650000x1_S1650000x128_1_0_0_1
    rfl rfl rfl rfl rfl rfl rfl rfl
    Cert.KernelIdeal.gather_S50000x128_S1650000x1_S1650000x128_1_0_n_n_0_1_1128
    Cert.ReferenceIdeal.gather_S50000x128_S1650000x1_S1650000x128_1_0_n_n_0_1_1128
    rfl rfl rfl rfl rfl rfl rfl rfl rfl rfl rfl rfl rfl rfl
    Cert.ReferenceIdeal.gather_S50000_S1650000x1_S1650000_n_0_n_n_0_1_1
    rfl rfl rfl rfl rfl rfl rfl
  -- both scatters add into the zero splat
  have key' := key
    (broadcastInDim Cert.KernelIdeal.S50000x128 ![] Cert.KernelIdeal.Gen.bcast_S_S50000x128
      (constant (F := Ideal) Cert.KernelIdeal.S_ .f32 0x00000000#32))
    (broadcastInDim Cert.ReferenceIdeal.S50000x128 ![] Cert.ReferenceIdeal.Gen.bcast_S_S50000x128
      (constant (F := Ideal) Cert.ReferenceIdeal.S_ .f32 0x00000000#32))
    (fun j => zeros_apply Cert.KernelIdeal.Gen.bcast_S_S50000x128 j)
    (fun j => zeros_apply Cert.ReferenceIdeal.Gen.bcast_S_S50000x128 j)
  -- destinations, wrapped sources, wrapped destinations; the factor with its bounds; a landed edge reads the factor at its row
  have key'' := key'
    (broadcastInDim Cert.ReferenceIdeal.S1650000x1 ![0] Cert.ReferenceIdeal.Gen.bcast_S1650000_S1650000x1_0 d)
    (broadcastInDim Cert.ReferenceIdeal.S1650000x1 ![0] Cert.ReferenceIdeal.Gen.bcast_S1650000_S1650000x1_0 (wrapIdxR s))
    (broadcastInDim Cert.ReferenceIdeal.S1650000x1 ![0] Cert.ReferenceIdeal.Gen.bcast_S1650000_S1650000x1_0 (wrapIdxR d))
    (dinvR (F := Ideal) d) (dinvR_bounds d) (dst_wrap d)
  exact key'' _ _ (projScale1_eq feat W d) _ (fun e c => refMsg1_apply _ _ _ e c) n c

/-- ONE RELATION OF LAYER 1, THE TWO ARRANGEMENTS AGREE: for every extended-real input, weight and bias and every pair of
    index arrays, scaling the projected rows by the per-node factor before the segment sum and the sums after it is the
    reference's segment sum of the rows scaled by the product of the two ends' factors. -/
theorem conv_eq1 (feat : FVec Ideal Cert.KernelIdeal.S50000x256 .f32) (W : FVec Ideal Cert.KernelIdeal.S256x128 .f32)
    (b : FVec Ideal Cert.KernelIdeal.S128 .f32) (s d : IVec Cert.KernelIdeal.S1650000 32) :
    kerConv1 (F := Ideal)
        (Cert.Gcn.projScale feat W
          (shapeCast Cert.KernelIdeal.S50000x1 (dinvK (F := Ideal) d) Cert.KernelIdeal.Gen.shapeCasts_S50000_S50000x1))
        s d (dinvK (F := Ideal) d) b
      = refConv1 (F := Ideal) feat W b s d := by
  funext j
  obtain ⟨n, c, rfl⟩ : ∃ n c, j = ix2 n c := ⟨j 0, j 1, eq_ix2 j⟩
  refine (kerConv1_apply _ s d _ b n c).trans (Eq.trans ?_ (refConv1_apply feat W b s d n c).symm)
  rw [← wrapIdxR_eq_wrapIdx, ← dinvR_eq_dinvK]
  exact congrArg (· + b (ix1 c)) (segsum1_eq feat W s d n c)

/-! ## Layer 2: `[50000, 128] · [128, 64]` -/

/-- The kernel's composition read at `(n, c)`: the scattered total of the gathered rows, times the node's factor, plus
    the bias entry. -/
theorem kerConv2_apply (P : FVec Ideal Cert.KernelIdeal.S50000x64 .f32) (s d : IVec Cert.KernelIdeal.S1650000 32)
    (dinv : FVec Ideal Cert.KernelIdeal.S50000 .f32) (b : FVec Ideal Cert.KernelIdeal.S64 .f32) (n : Fin 50000) (c : Fin 64) :
    kerConv2 (F := Ideal) P s d dinv b (ix2 n c)
      = Host.scatterAdd (F := Ideal) Cert.KernelIdeal.scatter_S50000x64_S1650000x1_S1650000x64_1_0_0_1
          (broadcastInDim Cert.KernelIdeal.S50000x64 ![] Cert.KernelIdeal.Gen.bcast_S_S50000x64
            (constant (F := Ideal) Cert.KernelIdeal.S_ .f32 0x00000000#32))
          (broadcastInDim Cert.KernelIdeal.S1650000x1 ![0] Cert.KernelIdeal.Gen.bcast_S1650000_S1650000x1_0 d)
          (Host.gather Cert.KernelIdeal.gather_S50000x64_S1650000x1_S1650000x64_1_0_n_n_0_1_164 P
            (broadcastInDim Cert.KernelIdeal.S1650000x1 ![0] Cert.KernelIdeal.Gen.bcast_S1650000_S1650000x1_0 (wrapIdx s)))
          (ix2 n c) * dinv (ix1 n) + b (ix1 c) := by
  unfold kerConv2
  rw [addf_apply, mulf_apply, bcast_col_mat_apply, bcast_vec_col_apply, bcast_row_mat_apply, bcast_vec_row_apply]

/-- The reference's scattered rows read at `(e, c)`: the gathered row of the plain projection times the product of the
    factors gathered at the edge's two ends. -/
theorem refMsg2_apply (X : FVec Ideal Cert.ReferenceIdeal.S1650000x64 .f32) (u v : FVec Ideal Cert.ReferenceIdeal.S1650000 .f32)
    (e : Fin 1650000) (c : Fin 64) :
    mulf X
        (broadcastInDim Cert.ReferenceIdeal.S1650000x64 ![0, 1] Cert.ReferenceIdeal.Gen.bcast_S1650000x1_S1650000x64_0_1
          (broadcastInDim Cert.ReferenceIdeal.S1650000x1 ![0] Cert.ReferenceIdeal.Gen.bcast_S1650000_S1650000x1_0 (mulf u v)))
        (ix2 e c)
      = X (ix2 e c) * (u (ix1 e) * v (ix1 e)) := by
  rw [mulf_apply, bcast_col_mat_apply, bcast_vec_col_apply, mulf_apply]

/-- The reference's composition read at `(n, c)`: its scattered total plus the bias entry. -/
theorem refConv2_apply (feat : FVec Ideal Cert.ReferenceIdeal.S50000x128 .f32) (W : FVec Ideal Cert.ReferenceIdeal.S128x64 .f32)
    (b : FVec Ideal Cert.ReferenceIdeal.S64 .f32) (s d : IVec Cert.ReferenceIdeal.S1650000 32) (n : Fin 50000) (c : Fin 64) :
    refConv2 (F := Ideal) feat W b s d (ix2 n c)
      = Host.scatterAdd (F := Ideal) Cert.ReferenceIdeal.scatter_S50000x64_S1650000x1_S1650000x64_1_0_0_1
          (broadcastInDim Cert.ReferenceIdeal.S50000x64 ![] Cert.ReferenceIdeal.Gen.bcast_S_S50000x64
            (constant (F := Ideal) Cert.ReferenceIdeal.S_ .f32 0x00000000#32))
          (broadcastInDim Cert.ReferenceIdeal.S1650000x1 ![0] Cert.ReferenceIdeal.Gen.bcast_S1650000_S1650000x1_0 d)
          (mulf
            (Host.gather Cert.ReferenceIdeal.gather_S50000x64_S1650000x1_S1650000x64_1_0_n_n_0_1_164
              (Host.dotGeneral (F := Ideal) Cert.ReferenceIdeal.dot_S50000x128_S128x64_S50000x64_1_0_0_1_n_n none feat W)
              (broadcastInDim Cert.ReferenceIdeal.S1650000x1 ![0] Cert.ReferenceIdeal.Gen.bcast_S1650000_S1650000x1_0 (wrapIdxR s)))
            (broadcastInDim Cert.ReferenceIdeal.S1650000x64 ![0, 1] Cert.ReferenceIdeal.Gen.bcast_S1650000x1_S1650000x64_0_1
              (broadcastInDim Cert.ReferenceIdeal.S1650000x1 ![0] Cert.ReferenceIdeal.Gen.bcast_S1650000_S1650000x1_0 (mulf
                  (Host.gather Cert.ReferenceIdeal.gather_S50000_S1650000x1_S1650000_n_0_n_n_0_1_1 (dinvR (F := Ideal) d)
                    (broadcastInDim Cert.ReferenceIdeal.S1650000x1 ![0] Cert.ReferenceIdeal.Gen.bcast_S1650000_S1650000x1_0 (wrapIdxR s)))
                  (Host.gather Cert.ReferenceIdeal.gather_S50000_S1650000x1_S1650000_n_0_n_n_0_1_1 (dinvR (F := Ideal) d)
                    (broadcastInDim Cert.ReferenceIdeal.S1650000x1 ![0] Cert.ReferenceIdeal.Gen.bcast_S1650000_S1650000x1_0 (wrapIdxR d)))))))
          (ix2 n c) + b (ix1 c) := by
  unfold refConv2
  rw [addf_apply, bcast_row_mat_apply, bcast_vec_row_apply]

/-- The plain projection read at `(n, c)`: the sum over the inner axis. -/
theorem refProj2_apply (feat : FVec Ideal Cert.ReferenceIdeal.S50000x128 .f32) (W : FVec Ideal Cert.ReferenceIdeal.S128x64 .f32)
    (n : Fin 50000) (c : Fin 64) :
    Host.dotGeneral (F := Ideal) Cert.ReferenceIdeal.dot_S50000x128_S128x64_S50000x64_1_0_0_1_n_n none feat W (ix2 n c)
      = ∑ k : Fin 128, feat (ix2 n k) * W (ix2 k c) :=
  PlainMatmul.plain_dotGeneral_apply 50000 128 64 none .single feat W n c

/-- The kernel's pre-scaled projection is the plain projection times the node's factor. -/
theorem projScale2_eq (feat : FVec Ideal Cert.KernelIdeal.S50000x128 .f32) (W : FVec Ideal Cert.KernelIdeal.S128x64 .f32)
    (d : IVec Cert.KernelIdeal.S1650000 32) (n : Fin 50000) (c : Fin 64) :
    (Cert.Gcn.projScale feat W
          (shapeCast Cert.KernelIdeal.S50000x1 (dinvK (F := Ideal) d) Cert.KernelIdeal.Gen.shapeCasts_S50000_S50000x1)) (ix2 n c)
      = (Host.dotGeneral (F := Ideal) Cert.ReferenceIdeal.dot_S50000x128_S128x64_S50000x64_1_0_0_1_n_n none feat W) (ix2 n c) * dinvR (F := Ideal) d (ix1 n) := by
  rw [Cert.Gcn.projScale_apply, shapeCast_vec_col_apply, refProj2_apply, dinvR_eq_dinvK]

/-- The segment sums of the two arrangements agree at `(n, c)`, every array spelled as the reference spells it. -/
theorem segsum2_eq (feat : FVec Ideal Cert.ReferenceIdeal.S50000x128 .f32) (W : FVec Ideal Cert.ReferenceIdeal.S128x64 .f32)
    (s d : IVec Cert.ReferenceIdeal.S1650000 32) (n : Fin 50000) (c : Fin 64) :
    Host.scatterAdd (F := Ideal) Cert.KernelIdeal.scatter_S50000x64_S1650000x1_S1650000x64_1_0_0_1
          (broadcastInDim Cert.KernelIdeal.S50000x64 ![] Cert.KernelIdeal.Gen.bcast_S_S50000x64
            (constant (F := Ideal) Cert.KernelIdeal.S_ .f32 0x00000000#32))
          (broadcastInDim Cert.ReferenceIdeal.S1650000x1 ![0] Cert.ReferenceIdeal.Gen.bcast_S1650000_S1650000x1_0 d)
          (Host.gather Cert.KernelIdeal.gather_S50000x64_S1650000x1_S1650000x64_1_0_n_n_0_1_164 (Cert.Gcn.projScale feat W
          (shapeCast Cert.KernelIdeal.S50000x1 (dinvK (F := Ideal) d) Cert.KernelIdeal.Gen.shapeCasts_S50000_S50000x1))
            (broadcastInDim Cert.ReferenceIdeal.S1650000x1 ![0] Cert.ReferenceIdeal.Gen.bcast_S1650000_S1650000x1_0 (wrapIdxR s)))
          (ix2 n c) * dinvR (F := Ideal) d (ix1 n)
      = Host.scatterAdd (F := Ideal) Cert.ReferenceIdeal.scatter_S50000x64_S1650000x1_S1650000x64_1_0_0_1
          (broadcastInDim Cert.ReferenceIdeal.S50000x64 ![] Cert.ReferenceIdeal.Gen.bcast_S_S50000x64
            (constant (F := Ideal) Cert.ReferenceIdeal.S_ .f32 0x00000000#32))
          (broadcastInDim Cert.ReferenceIdeal.S1650000x1 ![0] Cert.ReferenceIdeal.Gen.bcast_S1650000_S1650000x1_0 d)
          (mulf
            (Host.gather Cert.ReferenceIdeal.gather_S50000x64_S1650000x1_S1650000x64_1_0_n_n_0_1_164
              (Host.dotGeneral (F := Ideal) Cert.ReferenceIdeal.dot_S50000x128_S128x64_S50000x64_1_0_0_1_n_n none feat W)
              (broadcastInDim Cert.ReferenceIdeal.S1650000x1 ![0] Cert.ReferenceIdeal.Gen.bcast_S1650000_S1650000x1_0 (wrapIdxR s)))
            (broadcastInDim Cert.ReferenceIdeal.S1650000x64 ![0, 1] Cert.ReferenceIdeal.Gen.bcast_S1650000x1_S1650000x64_0_1
              (broadcastInDim Cert.ReferenceIdeal.S1650000x1 ![0] Cert.ReferenceIdeal.Gen.bcast_S1650000_S1650000x1_0 (mulf
                  (Host.gather Cert.ReferenceIdeal.gather_S50000_S1650000x1_S1650000_n_0_n_n_0_1_1 (dinvR (F := Ideal) d)
                    (broadcastInDim Cert.ReferenceIdeal.S1650000x1 ![0] Cert.ReferenceIdeal.Gen.bcast_S1650000_S1650000x1_0 (wrapIdxR s)))
                  (Host.gather Cert.ReferenceIdeal.gather_S50000_S1650000x1_S1650000_n_0_n_n_0_1_1 (dinvR (F := Ideal) d)
                    (broadcastInDim Cert.ReferenceIdeal.S1650000x1 ![0] Cert.ReferenceIdeal.Gen.bcast_S1650000_S1650000x1_0 (wrapIdxR d)))))))
          (ix2 n c) := by
  have hN : 0 < 50000 := by omega
  -- the two scatters, the two row gathers and the vector gather carry the dimension numbers the law is stated for
  have key := @scatter_gather_scaled 50000 1650000 64 32 .f32 hN
    Cert.KernelIdeal.scatter_S50000x64_S1650000x1_S1650000x64_1_0_0_1
    Cert.ReferenceIdeal.scatter_S50000x64_S1650000x1_S1650000x64_1_0_0_1
    rfl rfl rfl rfl rfl rfl rfl rfl
    Cert.KernelIdeal.gather_S50000x64_S1650000x1_S1650000x64_1_0_n_n_0_1_164
    Cert.ReferenceIdeal.gather_S50000x64_S1650000x1_S1650000x64_1_0_n_n_0_1_164
    rfl rfl rfl rfl rfl rfl rfl rfl rfl rfl rfl rfl rfl rfl
    Cert.ReferenceIdeal.gather_S50000_S1650000x1_S1650000_n_0_n_n_0_1_1
    rfl rfl rfl rfl rfl rfl rfl
  -- both scatters add into the zero splat
  have key' := key
    (broadcastInDim Cert.KernelIdeal.S50000x64 ![] Cert.KernelIdeal.Gen.bcast_S_S50000x64
      (constant (F := Ideal) Cert.KernelIdeal.S_ .f32 0x00000000#32))
    (broadcastInDim Cert.ReferenceIdeal.S50000x64 ![] Cert.ReferenceIdeal.Gen.bcast_S_S50000x64
      (constant (F := Ideal) Cert.ReferenceIdeal.S_ .f32 0x00000000#32))
    (fun j => zeros_apply Cert.KernelIdeal.Gen.bcast_S_S50000x64 j)
    (fun j => zeros_apply Cert.ReferenceIdeal.Gen.bcast_S_S50000x64 j)
  -- destinations, wrapped sources, wrapped destinations; the factor with its bounds; a landed edge reads the factor at its row
  have key'' := key'
    (broadcastInDim Cert.ReferenceIdeal.S1650000x1 ![0] Cert.ReferenceIdeal.Gen.bcast_S1650000_S1650000x1_0 d)
    (broadcastInDim Cert.ReferenceIdeal.S1650000x1 ![0] Cert.ReferenceIdeal.Gen.bcast_S1650000_S1650000x1_0 (wrapIdxR s))
    (broadcastInDim Cert.ReferenceIdeal.S1650000x1 ![0] Cert.ReferenceIdeal.Gen.bcast_S1650000_S1650000x1_0 (wrapIdxR d))
    (dinvR (F := Ideal) d) (dinvR_bounds d) (dst_wrap d)
  exact key'' _ _ (projScale2_eq feat W d) _ (fun e c => refMsg2_apply _ _ _ e c) n c

/-- ONE RELATION OF LAYER 2, THE TWO ARRANGEMENTS AGREE: for every extended-real input, weight and bias and every pair of
    index arrays, scaling the projected rows by the per-node factor before the segment sum and the sums after it is the
    reference's segment sum of the rows scaled by the product of the two ends' factors. -/
theorem conv_eq2 (feat : FVec Ideal Cert.KernelIdeal.S50000x128 .f32) (W : FVec Ideal Cert.KernelIdeal.S128x64 .f32)
    (b : FVec Ideal Cert.KernelIdeal.S64 .f32) (s d : IVec Cert.KernelIdeal.S1650000 32) :
    kerConv2 (F := Ideal)
        (Cert.Gcn.projScale feat W
          (shapeCast Cert.KernelIdeal.S50000x1 (dinvK (F := Ideal) d) Cert.KernelIdeal.Gen.shapeCasts_S50000_S50000x1))
        s d (dinvK (F := Ideal) d) b
      = refConv2 (F := Ideal) feat W b s d := by
  funext j
  obtain ⟨n, c, rfl⟩ : ∃ n c, j = ix2 n c := ⟨j 0, j 1, eq_ix2 j⟩
  refine (kerConv2_apply _ s d _ b n c).trans (Eq.trans ?_ (refConv2_apply feat W b s d n c).symm)
  rw [← wrapIdxR_eq_wrapIdx, ← dinvR_eq_dinvK]
  exact congrArg (· + b (ix1 c)) (segsum2_eq feat W s d n c)

end Cert.Conv

end
-- ==== Proof.KernelSpec.lean ====
/-
  The whole network in the kernel program's arrangement equals the network in the reference's arrangement over the
  same weight matrices, biases and edge lists: each of the six relations is one instance of the one-relation law
  (scaling the projected rows by the per-node factor before the segment sum and the sums after it, against scaling
  every gathered row by the product of the factors of the edge's two ends), and the rest of the two compositions —
  the zero array, the running total, the clamp at zero between the layers — is the same operations in the same order.
-/
import proofs.«133610_j47064251629674_2_alg».proof.Proof.KernelForm
import proofs.«133610_j47064251629674_2_alg».proof.Proof.GcnSpec
import proofs.«133610_j47064251629674_2_alg».proof.Proof.ConvLaw

noncomputable section

namespace Cert.KernelIdeal.Chain

open Cert.KernelIdeal Cert.KernelIdeal.Gen Cert.Conv
open Idealize.ShloMosaic

/-- One relation of layer 1: the kernel's arrangement is the reference's. -/
theorem relK1_eq (x : (⟨S50000x256, .f32⟩ : BufTy).Contents (Elt Ideal)) (w : (⟨S256x128, .f32⟩ : BufTy).Contents (Elt Ideal))
    (b : (⟨S128, .f32⟩ : BufTy).Contents (Elt Ideal)) (s d : (⟨S1650000, .i32⟩ : BufTy).Contents (Elt Ideal)) :
    relK1 x w b s d = refConv1 (F := Ideal) x w b s d :=
  conv_eq1 x w b s d

/-- One relation of layer 2: the kernel's arrangement is the reference's. -/
theorem relK2_eq (x : (⟨S50000x128, .f32⟩ : BufTy).Contents (Elt Ideal)) (w : (⟨S128x64, .f32⟩ : BufTy).Contents (Elt Ideal))
    (b : (⟨S64, .f32⟩ : BufTy).Contents (Elt Ideal)) (s d : (⟨S1650000, .i32⟩ : BufTy).Contents (Elt Ideal)) :
    relK2 x w b s d = refConv2 (F := Ideal) x w b s d :=
  conv_eq2 x w b s d

/-- The two programs' zero arrays are the same array. -/
theorem zero128_eq : zero128 (F := Ideal) = zeroR128 (F := Ideal) := rfl
theorem zero64_eq : zero64 (F := Ideal) = zeroR64 (F := Ideal) := rfl

/-- The hidden features in the kernel's arrangement are the reference's over the kernel's slices of the arguments. -/
theorem hiddenK_eq_spec (x0 : (⟨S50000x256, .f32⟩ : BufTy).Contents (Elt Ideal)) (x1 : (⟨S3x2x1600000, .i32⟩ : BufTy).Contents (Elt Ideal))
    (x2 : (⟨S3x256x128, .f32⟩ : BufTy).Contents (Elt Ideal)) (x3 : (⟨S3x128, .f32⟩ : BufTy).Contents (Elt Ideal)) :
    hiddenK x0 x1 x2 x3
      = hiddenSpec (F := Ideal) x0 (w1K0 x2) (w1K1 x2) (w1K2 x2) (b1K0 x3) (b1K1 x3) (b1K2 x3)
          (srcK0 x1) (dstK0 x1) (srcK1 x1) (dstK1 x1) (srcK2 x1) (dstK2 x1) := by
  unfold hiddenK hiddenSpec
  rw [relK1_eq, relK1_eq, relK1_eq, zero128_eq]

/-- THE OUTPUT in the kernel's arrangement is the reference's arrangement over the kernel's slices of the arguments. -/
theorem outK_eq_spec (x0 : (⟨S50000x256, .f32⟩ : BufTy).Contents (Elt Ideal)) (x1 : (⟨S3x2x1600000, .i32⟩ : BufTy).Contents (Elt Ideal))
    (x2 : (⟨S3x256x128, .f32⟩ : BufTy).Contents (Elt Ideal)) (x3 : (⟨S3x128, .f32⟩ : BufTy).Contents (Elt Ideal))
    (x4 : (⟨S3x128x64, .f32⟩ : BufTy).Contents (Elt Ideal)) (x5 : (⟨S3x64, .f32⟩ : BufTy).Contents (Elt Ideal)) :
    outK x0 x1 x2 x3 x4 x5
      = outSpec (F := Ideal)
          (hiddenSpec (F := Ideal) x0 (w1K0 x2) (w1K1 x2) (w1K2 x2) (b1K0 x3) (b1K1 x3) (b1K2 x3)
            (srcK0 x1) (dstK0 x1) (srcK1 x1) (dstK1 x1) (srcK2 x1) (dstK2 x1))
          (w2K0 x4) (w2K1 x4) (w2K2 x4) (b2K0 x5) (b2K1 x5) (b2K2 x5)
          (srcK0 x1) (dstK0 x1) (srcK1 x1) (dstK1 x1) (srcK2 x1) (dstK2 x1) := by
  unfold outK outSpec
  rw [relK2_eq, relK2_eq, relK2_eq, hiddenK_eq_spec, zero64_eq]

end Cert.KernelIdeal.Chain

end
-- ==== Proof.RefMatch.lean ====
/-
  The reference program's result as the specification of the two-layer, three-relation graph convolution.

  Every operation of the reference is a definition over the earlier ones, so its last value is, by unfolding, a composition
  of the operations over the six arguments. Named here are the pieces each relation takes out of the arguments — its source
  and destination lists (a row of the edge array followed by the nodes' own numbers), its weight matrix and its bias (one
  slab of a stacked argument) — and then, relation by relation and layer by layer, the reference's values are identified
  with the specification's terms over those pieces: one relation's value is the reference composition of a relation, the
  first layer's total clamped at zero is the hidden features, and the second layer's total is the output.
-/
import proofs.«133610_j47064251629674_2_alg».proof.Proof.RefRead
import proofs.«133610_j47064251629674_2_alg».proof.Proof.GcnSpec

noncomputable section

namespace Cert.ReferenceIdeal.Match

open Cert.ReferenceIdeal Cert.ReferenceIdeal.Gen Cert.ReferenceIdeal.ReadP Cert.Conv
open Idealize.ShloMosaic Idealize.ShloMosaic.TcCoe Idealize.SL.Sem Idealize.ShloMosaic.StableHlo

variable {F : FTy → Type} [FloatOps F]

/-! ## The pieces of the arguments -/

/-- Relation 0's source list: row (0, 0) of the edge array, followed by every node's own number (the self loops). -/
def srcR0 (e : (⟨S3x2x1600000, .i32⟩ : BufTy).Contents (Elt F)) : (⟨S1650000, .i32⟩ : BufTy).Contents (Elt F) :=
  concatenate S1650000 0
    [⟨S1600000, (shapeCast _ (extractStridedSlice S1x1x1600000 ![0, 0, 0] e slices_S3x2x1600000_S1x1x1600000_0_0_0 : (⟨S1x1x1600000, .i32⟩ : BufTy).Contents (Elt F)) shapeCasts_S1x1x1600000_S1600000 : (⟨S1600000, .i32⟩ : BufTy).Contents (Elt F))⟩,
     ⟨S50000, (iotaInDim S50000 32 0 : (⟨S50000, .i32⟩ : BufTy).Contents (Elt F))⟩]
    concatenates_S1600000_S50000_S1650000_d0

/-- Relation 0's destination list: row (0, 1) of the edge array, followed by every node's own number (the self loops). -/
def dstR0 (e : (⟨S3x2x1600000, .i32⟩ : BufTy).Contents (Elt F)) : (⟨S1650000, .i32⟩ : BufTy).Contents (Elt F) :=
  concatenate S1650000 0
    [⟨S1600000, (shapeCast _ (extractStridedSlice S1x1x1600000 ![0, 1, 0] e slices_S3x2x1600000_S1x1x1600000_0_1_0 : (⟨S1x1x1600000, .i32⟩ : BufTy).Contents (Elt F)) shapeCasts_S1x1x1600000_S1600000 : (⟨S1600000, .i32⟩ : BufTy).Contents (Elt F))⟩,
     ⟨S50000, (iotaInDim S50000 32 0 : (⟨S50000, .i32⟩ : BufTy).Contents (Elt F))⟩]
    concatenates_S1600000_S50000_S1650000_d0

/-- Relation 1's source list: row (1, 0) of the edge array, followed by every node's own number (the self loops). -/
def srcR1 (e : (⟨S3x2x1600000, .i32⟩ : BufTy).Contents (Elt F)) : (⟨S1650000, .i32⟩ : BufTy).Contents (Elt F) :=
  concatenate S1650000 0
    [⟨S1600000, (shapeCast _ (extractStridedSlice S1x1x1600000 ![1, 0, 0] e slices_S3x2x1600000_S1x1x1600000_1_0_0 : (⟨S1x1x1600000, .i32⟩ : BufTy).Contents (Elt F)) shapeCasts_S1x1x1600000_S1600000 : (⟨S1600000, .i32⟩ : BufTy).Contents (Elt F))⟩,
     ⟨S50000, (iotaInDim S50000 32 0 : (⟨S50000, .i32⟩ : BufTy).Contents (Elt F))⟩]
    concatenates_S1600000_S50000_S1650000_d0

/-- Relation 1's destination list: row (1, 1) of the edge array, followed by every node's own number (the self loops). -/
def dstR1 (e : (⟨S3x2x1600000, .i32⟩ : BufTy).Contents (Elt F)) : (⟨S1650000, .i32⟩ : BufTy).Contents (Elt F) :=
  concatenate S1650000 0
    [⟨S1600000, (shapeCast _ (extractStridedSlice S1x1x1600000 ![1, 1, 0] e slices_S3x2x1600000_S1x1x1600000_1_1_0 : (⟨S1x1x1600000, .i32⟩ : BufTy).Contents (Elt F)) shapeCasts_S1x1x1600000_S1600000 : (⟨S1600000, .i32⟩ : BufTy).Contents (Elt F))⟩,
     ⟨S50000, (iotaInDim S50000 32 0 : (⟨S50000, .i32⟩ : BufTy).Contents (Elt F))⟩]
    concatenates_S1600000_S50000_S1650000_d0

/-- Relation 2's source list: row (2, 0) of the edge array, followed by every node's own number (the self loops). -/
def srcR2 (e : (⟨S3x2x1600000, .i32⟩ : BufTy).Contents (Elt F)) : (⟨S1650000, .i32⟩ : BufTy).Contents (Elt F) :=
  concatenate S1650000 0
    [⟨S1600000, (shapeCast _ (extractStridedSlice S1x1x1600000 ![2, 0, 0] e slices_S3x2x1600000_S1x1x1600000_2_0_0 : (⟨S1x1x1600000, .i32⟩ : BufTy).Contents (Elt F)) shapeCasts_S1x1x1600000_S1600000 : (⟨S1600000, .i32⟩ : BufTy).Contents (Elt F))⟩,
     ⟨S50000, (iotaInDim S50000 32 0 : (⟨S50000, .i32⟩ : BufTy).Contents (Elt F))⟩]
    concatenates_S1600000_S50000_S1650000_d0

/-- Relation 2's destination list: row (2, 1) of the edge array, followed by every node's own number (the self loops). -/
def dstR2 (e : (⟨S3x2x1600000, .i32⟩ : BufTy).Contents (Elt F)) : (⟨S1650000, .i32⟩ : BufTy).Contents (Elt F) :=
  concatenate S1650000 0
    [⟨S1600000, (shapeCast _ (extractStridedSlice S1x1x1600000 ![2, 1, 0] e slices_S3x2x1600000_S1x1x1600000_2_1_0 : (⟨S1x1x1600000, .i32⟩ : BufTy).Contents (Elt F)) shapeCasts_S1x1x1600000_S1600000 : (⟨S1600000, .i32⟩ : BufTy).Contents (Elt F))⟩,
     ⟨S50000, (iotaInDim S50000 32 0 : (⟨S50000, .i32⟩ : BufTy).Contents (Elt F))⟩]
    concatenates_S1600000_S50000_S1650000_d0

/-- Relation 0's weight matrix of layer 1: slab 0 of the stacked weights. -/
def w1R0 (a : (⟨S3x256x128, .f32⟩ : BufTy).Contents (Elt F)) : (⟨S256x128, .f32⟩ : BufTy).Contents (Elt F) :=
  shapeCast _ (extractStridedSlice S1x256x128 ![0, 0, 0] a slices_S3x256x128_S1x256x128_0_0_0 : (⟨S1x256x128, .f32⟩ : BufTy).Contents (Elt F)) shapeCasts_S1x256x128_S256x128

/-- Relation 1's weight matrix of layer 1: slab 1 of the stacked weights. -/
def w1R1 (a : (⟨S3x256x128, .f32⟩ : BufTy).Contents (Elt F)) : (⟨S256x128, .f32⟩ : BufTy).Contents (Elt F) :=
  shapeCast _ (extractStridedSlice S1x256x128 ![1, 0, 0] a slices_S3x256x128_S1x256x128_1_0_0 : (⟨S1x256x128, .f32⟩ : BufTy).Contents (Elt F)) shapeCasts_S1x256x128_S256x128

/-- Relation 2's weight matrix of layer 1: slab 2 of the stacked weights. -/
def w1R2 (a : (⟨S3x256x128, .f32⟩ : BufTy).Contents (Elt F)) : (⟨S256x128, .f32⟩ : BufTy).Contents (Elt F) :=
  shapeCast _ (extractStridedSlice S1x256x128 ![2, 0, 0] a slices_S3x256x128_S1x256x128_2_0_0 : (⟨S1x256x128, .f32⟩ : BufTy).Contents (Elt F)) shapeCasts_S1x256x128_S256x128

/-- Relation 0's bias of layer 1: row 0 of the stacked biases. -/
def b1R0 (a : (⟨S3x128, .f32⟩ : BufTy).Contents (Elt F)) : (⟨S128, .f32⟩ : BufTy).Contents (Elt F) :=
  shapeCast _ (extractStridedSlice S1x128 ![0, 0] a slices_S3x128_S1x128_0_0 : (⟨S1x128, .f32⟩ : BufTy).Contents (Elt F)) shapeCasts_S1x128_S128

/-- Relation 1's bias of layer 1: row 1 of the stacked biases. -/
def b1R1 (a : (⟨S3x128, .f32⟩ : BufTy).Contents (Elt F)) : (⟨S128, .f32⟩ : BufTy).Contents (Elt F) :=
  shapeCast _ (extractStridedSlice S1x128 ![1, 0] a slices_S3x128_S1x128_1_0 : (⟨S1x128, .f32⟩ : BufTy).Contents (Elt F)) shapeCasts_S1x128_S128

/-- Relation 2's bias of layer 1: row 2 of the stacked biases. -/
def b1R2 (a : (⟨S3x128, .f32⟩ : BufTy).Contents (Elt F)) : (⟨S128, .f32⟩ : BufTy).Contents (Elt F) :=
  shapeCast _ (extractStridedSlice S1x128 ![2, 0] a slices_S3x128_S1x128_2_0 : (⟨S1x128, .f32⟩ : BufTy).Contents (Elt F)) shapeCasts_S1x128_S128

/-- Relation 0's weight matrix of layer 2: slab 0 of the stacked weights. -/
def w2R0 (a : (⟨S3x128x64, .f32⟩ : BufTy).Contents (Elt F)) : (⟨S128x64, .f32⟩ : BufTy).Contents (Elt F) :=
  shapeCast _ (extractStridedSlice S1x128x64 ![0, 0, 0] a slices_S3x128x64_S1x128x64_0_0_0 : (⟨S1x128x64, .f32⟩ : BufTy).Contents (Elt F)) shapeCasts_S1x128x64_S128x64

/-- Relation 1's weight matrix of layer 2: slab 1 of the stacked weights. -/
def w2R1 (a : (⟨S3x128x64, .f32⟩ : BufTy).Contents (Elt F)) : (⟨S128x64, .f32⟩ : BufTy).Contents (Elt F) :=
  shapeCast _ (extractStridedSlice S1x128x64 ![1, 0, 0] a slices_S3x128x64_S1x128x64_1_0_0 : (⟨S1x128x64, .f32⟩ : BufTy).Contents (Elt F)) shapeCasts_S1x128x64_S128x64

/-- Relation 2's weight matrix of layer 2: slab 2 of the stacked weights. -/
def w2R2 (a : (⟨S3x128x64, .f32⟩ : BufTy).Contents (Elt F)) : (⟨S128x64, .f32⟩ : BufTy).Contents (Elt F) :=
  shapeCast _ (extractStridedSlice S1x128x64 ![2, 0, 0] a slices_S3x128x64_S1x128x64_2_0_0 : (⟨S1x128x64, .f32⟩ : BufTy).Contents (Elt F)) shapeCasts_S1x128x64_S128x64

/-- Relation 0's bias of layer 2: row 0 of the stacked biases. -/
def b2R0 (a : (⟨S3x64, .f32⟩ : BufTy).Contents (Elt F)) : (⟨S64, .f32⟩ : BufTy).Contents (Elt F) :=
  shapeCast _ (extractStridedSlice S1x64 ![0, 0] a slices_S3x64_S1x64_0_0 : (⟨S1x64, .f32⟩ : BufTy).Contents (Elt F)) shapeCasts_S1x64_S64

/-- Relation 1's bias of layer 2: row 1 of the stacked biases. -/
def b2R1 (a : (⟨S3x64, .f32⟩ : BufTy).Contents (Elt F)) : (⟨S64, .f32⟩ : BufTy).Contents (Elt F) :=
  shapeCast _ (extractStridedSlice S1x64 ![1, 0] a slices_S3x64_S1x64_1_0 : (⟨S1x64, .f32⟩ : BufTy).Contents (Elt F)) shapeCasts_S1x64_S64

/-- Relation 2's bias of layer 2: row 2 of the stacked biases. -/
def b2R2 (a : (⟨S3x64, .f32⟩ : BufTy).Contents (Elt F)) : (⟨S64, .f32⟩ : BufTy).Contents (Elt F) :=
  shapeCast _ (extractStridedSlice S1x64 ![2, 0] a slices_S3x64_S1x64_2_0 : (⟨S1x64, .f32⟩ : BufTy).Contents (Elt F)) shapeCasts_S1x64_S64

/-! ## The reference's own values of those pieces -/

theorem src1_0 (x1 : (⟨S3x2x1600000, .i32⟩ : BufTy).Contents (Elt F)) : val_main_v10 (F := F) x1 = srcR0 x1 := rfl
theorem dst1_0 (x1 : (⟨S3x2x1600000, .i32⟩ : BufTy).Contents (Elt F)) : val_main_v11 (F := F) x1 = dstR0 x1 := rfl
theorem w1_0 (x2 : (⟨S3x256x128, .f32⟩ : BufTy).Contents (Elt F)) : val_main_v2 (F := F) x2 = w1R0 x2 := rfl
theorem b1_0 (x3 : (⟨S3x128, .f32⟩ : BufTy).Contents (Elt F)) : val_main_v4 (F := F) x3 = b1R0 x3 := rfl
theorem src1_1 (x1 : (⟨S3x2x1600000, .i32⟩ : BufTy).Contents (Elt F)) : val_main_v63 (F := F) x1 = srcR1 x1 := rfl
theorem dst1_1 (x1 : (⟨S3x2x1600000, .i32⟩ : BufTy).Contents (Elt F)) : val_main_v64 (F := F) x1 = dstR1 x1 := rfl
theorem w1_1 (x2 : (⟨S3x256x128, .f32⟩ : BufTy).Contents (Elt F)) : val_main_v55 (F := F) x2 = w1R1 x2 := rfl
theorem b1_1 (x3 : (⟨S3x128, .f32⟩ : BufTy).Contents (Elt F)) : val_main_v57 (F := F) x3 = b1R1 x3 := rfl
theorem src1_2 (x1 : (⟨S3x2x1600000, .i32⟩ : BufTy).Contents (Elt F)) : val_main_v116 (F := F) x1 = srcR2 x1 := rfl
theorem dst1_2 (x1 : (⟨S3x2x1600000, .i32⟩ : BufTy).Contents (Elt F)) : val_main_v117 (F := F) x1 = dstR2 x1 := rfl
theorem w1_2 (x2 : (⟨S3x256x128, .f32⟩ : BufTy).Contents (Elt F)) : val_main_v108 (F := F) x2 = w1R2 x2 := rfl
theorem b1_2 (x3 : (⟨S3x128, .f32⟩ : BufTy).Contents (Elt F)) : val_main_v110 (F := F) x3 = b1R2 x3 := rfl
theorem src2_0 (x1 : (⟨S3x2x1600000, .i32⟩ : BufTy).Contents (Elt F)) : val_main_v171 (F := F) x1 = srcR0 x1 := rfl
theorem dst2_0 (x1 : (⟨S3x2x1600000, .i32⟩ : BufTy).Contents (Elt F)) : val_main_v172 (F := F) x1 = dstR0 x1 := rfl
theorem w2_0 (x4 : (⟨S3x128x64, .f32⟩ : BufTy).Contents (Elt F)) : val_main_v163 (F := F) x4 = w2R0 x4 := rfl
theorem b2_0 (x5 : (⟨S3x64, .f32⟩ : BufTy).Contents (Elt F)) : val_main_v165 (F := F) x5 = b2R0 x5 := rfl
theorem src2_1 (x1 : (⟨S3x2x1600000, .i32⟩ : BufTy).Contents (Elt F)) : val_main_v224 (F := F) x1 = srcR1 x1 := rfl
theorem dst2_1 (x1 : (⟨S3x2x1600000, .i32⟩ : BufTy).Contents (Elt F)) : val_main_v225 (F := F) x1 = dstR1 x1 := rfl
theorem w2_1 (x4 : (⟨S3x128x64, .f32⟩ : BufTy).Contents (Elt F)) : val_main_v216 (F := F) x4 = w2R1 x4 := rfl
theorem b2_1 (x5 : (⟨S3x64, .f32⟩ : BufTy).Contents (Elt F)) : val_main_v218 (F := F) x5 = b2R1 x5 := rfl
theorem src2_2 (x1 : (⟨S3x2x1600000, .i32⟩ : BufTy).Contents (Elt F)) : val_main_v277 (F := F) x1 = srcR2 x1 := rfl
theorem dst2_2 (x1 : (⟨S3x2x1600000, .i32⟩ : BufTy).Contents (Elt F)) : val_main_v278 (F := F) x1 = dstR2 x1 := rfl
theorem w2_2 (x4 : (⟨S3x128x64, .f32⟩ : BufTy).Contents (Elt F)) : val_main_v269 (F := F) x4 = w2R2 x4 := rfl
theorem b2_2 (x5 : (⟨S3x64, .f32⟩ : BufTy).Contents (Elt F)) : val_main_v271 (F := F) x5 = b2R2 x5 := rfl

/-! ## One relation at a time -/

/-- Relation 0 of layer 1, as the reference computes it, is the reference composition of one relation over its pieces. -/
theorem conv1_0 (x0 : (⟨S50000x256, .f32⟩ : BufTy).Contents (Elt F)) (x1 : (⟨S3x2x1600000, .i32⟩ : BufTy).Contents (Elt F)) (x2 : (⟨S3x256x128, .f32⟩ : BufTy).Contents (Elt F)) (x3 : (⟨S3x128, .f32⟩ : BufTy).Contents (Elt F)) :
    val_main_v52 (F := F) x0 x1 x2 x3 = refConv1 x0 (w1R0 x2) (b1R0 x3) (srcR0 x1) (dstR0 x1) := rfl

/-- Relation 1 of layer 1, as the reference computes it, is the reference composition of one relation over its pieces. -/
theorem conv1_1 (x0 : (⟨S50000x256, .f32⟩ : BufTy).Contents (Elt F)) (x1 : (⟨S3x2x1600000, .i32⟩ : BufTy).Contents (Elt F)) (x2 : (⟨S3x256x128, .f32⟩ : BufTy).Contents (Elt F)) (x3 : (⟨S3x128, .f32⟩ : BufTy).Contents (Elt F)) :
    val_main_v105 (F := F) x0 x1 x2 x3 = refConv1 x0 (w1R1 x2) (b1R1 x3) (srcR1 x1) (dstR1 x1) := rfl

/-- Relation 2 of layer 1, as the reference computes it, is the reference composition of one relation over its pieces. -/
theorem conv1_2 (x0 : (⟨S50000x256, .f32⟩ : BufTy).Contents (Elt F)) (x1 : (⟨S3x2x1600000, .i32⟩ : BufTy).Contents (Elt F)) (x2 : (⟨S3x256x128, .f32⟩ : BufTy).Contents (Elt F)) (x3 : (⟨S3x128, .f32⟩ : BufTy).Contents (Elt F)) :
    val_main_v158 (F := F) x0 x1 x2 x3 = refConv1 x0 (w1R2 x2) (b1R2 x3) (srcR2 x1) (dstR2 x1) := rfl

/-- The first layer's total, clamped at zero from below, is the hidden features. -/
theorem hidden_value (x0 : (⟨S50000x256, .f32⟩ : BufTy).Contents (Elt F)) (x1 : (⟨S3x2x1600000, .i32⟩ : BufTy).Contents (Elt F)) (x2 : (⟨S3x256x128, .f32⟩ : BufTy).Contents (Elt F)) (x3 : (⟨S3x128, .f32⟩ : BufTy).Contents (Elt F)) :
    val_main_v160 (F := F) x0 x1 x2 x3
      = hiddenSpec x0 (w1R0 x2) (w1R1 x2) (w1R2 x2) (b1R0 x3) (b1R1 x3) (b1R2 x3)
          (srcR0 x1) (dstR0 x1) (srcR1 x1) (dstR1 x1) (srcR2 x1) (dstR2 x1) := by
  unfold val_main_v160 val_main_v159 val_main_v106 val_main_v53 hiddenSpec
  rw [conv1_0, conv1_1, conv1_2]
  rfl

/-- Relation 0 of layer 2, as the reference computes it over its own hidden features. -/
theorem conv2_0 (x0 : (⟨S50000x256, .f32⟩ : BufTy).Contents (Elt F)) (x1 : (⟨S3x2x1600000, .i32⟩ : BufTy).Contents (Elt F)) (x2 : (⟨S3x256x128, .f32⟩ : BufTy).Contents (Elt F)) (x3 : (⟨S3x128, .f32⟩ : BufTy).Contents (Elt F)) (x4 : (⟨S3x128x64, .f32⟩ : BufTy).Contents (Elt F)) (x5 : (⟨S3x64, .f32⟩ : BufTy).Contents (Elt F)) :
    val_main_v213 (F := F) x0 x1 x2 x3 x4 x5
      = refConv2 (val_main_v160 (F := F) x0 x1 x2 x3) (w2R0 x4) (b2R0 x5) (srcR0 x1) (dstR0 x1) := rfl

/-- Relation 1 of layer 2, as the reference computes it over its own hidden features. -/
theorem conv2_1 (x0 : (⟨S50000x256, .f32⟩ : BufTy).Contents (Elt F)) (x1 : (⟨S3x2x1600000, .i32⟩ : BufTy).Contents (Elt F)) (x2 : (⟨S3x256x128, .f32⟩ : BufTy).Contents (Elt F)) (x3 : (⟨S3x128, .f32⟩ : BufTy).Contents (Elt F)) (x4 : (⟨S3x128x64, .f32⟩ : BufTy).Contents (Elt F)) (x5 : (⟨S3x64, .f32⟩ : BufTy).Contents (Elt F)) :
    val_main_v266 (F := F) x0 x1 x2 x3 x4 x5
      = refConv2 (val_main_v160 (F := F) x0 x1 x2 x3) (w2R1 x4) (b2R1 x5) (srcR1 x1) (dstR1 x1) := rfl

/-- Relation 2 of layer 2, as the reference computes it over its own hidden features. -/
theorem conv2_2 (x0 : (⟨S50000x256, .f32⟩ : BufTy).Contents (Elt F)) (x1 : (⟨S3x2x1600000, .i32⟩ : BufTy).Contents (Elt F)) (x2 : (⟨S3x256x128, .f32⟩ : BufTy).Contents (Elt F)) (x3 : (⟨S3x128, .f32⟩ : BufTy).Contents (Elt F)) (x4 : (⟨S3x128x64, .f32⟩ : BufTy).Contents (Elt F)) (x5 : (⟨S3x64, .f32⟩ : BufTy).Contents (Elt F)) :
    val_main_v319 (F := F) x0 x1 x2 x3 x4 x5
      = refConv2 (val_main_v160 (F := F) x0 x1 x2 x3) (w2R2 x4) (b2R2 x5) (srcR2 x1) (dstR2 x1) := rfl

/-! ## The whole network -/

/-- The reference's result is the specification's output over the specification's hidden features, each over the pieces
    the reference takes out of its arguments. -/
theorem ref_value (x0 : (⟨S50000x256, .f32⟩ : BufTy).Contents (Elt F)) (x1 : (⟨S3x2x1600000, .i32⟩ : BufTy).Contents (Elt F)) (x2 : (⟨S3x256x128, .f32⟩ : BufTy).Contents (Elt F)) (x3 : (⟨S3x128, .f32⟩ : BufTy).Contents (Elt F)) (x4 : (⟨S3x128x64, .f32⟩ : BufTy).Contents (Elt F)) (x5 : (⟨S3x64, .f32⟩ : BufTy).Contents (Elt F)) :
    val_main_v320 (F := F) x0 x1 x2 x3 x4 x5
      = outSpec (hiddenSpec x0 (w1R0 x2) (w1R1 x2) (w1R2 x2) (b1R0 x3) (b1R1 x3) (b1R2 x3)
            (srcR0 x1) (dstR0 x1) (srcR1 x1) (dstR1 x1) (srcR2 x1) (dstR2 x1))
          (w2R0 x4) (w2R1 x4) (w2R2 x4) (b2R0 x5) (b2R1 x5) (b2R2 x5)
          (srcR0 x1) (dstR0 x1) (srcR1 x1) (dstR1 x1) (srcR2 x1) (dstR2 x1) := by
  unfold val_main_v320 val_main_v267 val_main_v214 outSpec
  rw [conv2_0, conv2_1, conv2_2, hidden_value]
  rfl

end Cert.ReferenceIdeal.Match

end
-- ==== Proof.Bridge.lean ====
/-
  The two programs take the same pieces out of the same arguments — a relation's source and destination lists (a row
  of the edge array followed by the nodes' own numbers), its weight matrix and its bias (one slab of a stacked
  argument) — by the same operations, so the network in the kernel's arrangement, which is the reference's arrangement
  over the kernel's pieces, is the value the reference program computes.
-/
import proofs.«133610_j47064251629674_2_alg».proof.Proof.KernelSpec
import proofs.«133610_j47064251629674_2_alg».proof.Proof.RefMatch

noncomputable section

namespace Cert.Bridge

open Cert.KernelIdeal.Chain Cert.ReferenceIdeal.Match Cert.Conv
open Idealize.ShloMosaic

/-! ## The pieces of the arguments are the same arrays -/

section Pieces
variable {F : FTy → Type} [FloatOps F]

theorem srcK0_eq (e : (⟨Cert.KernelIdeal.S3x2x1600000, .i32⟩ : BufTy).Contents (Elt F)) :
    srcK0 (F := F) e = srcR0 (F := F) e := rfl
theorem srcK1_eq (e : (⟨Cert.KernelIdeal.S3x2x1600000, .i32⟩ : BufTy).Contents (Elt F)) :
    srcK1 (F := F) e = srcR1 (F := F) e := rfl
theorem srcK2_eq (e : (⟨Cert.KernelIdeal.S3x2x1600000, .i32⟩ : BufTy).Contents (Elt F)) :
    srcK2 (F := F) e = srcR2 (F := F) e := rfl
theorem dstK0_eq (e : (⟨Cert.KernelIdeal.S3x2x1600000, .i32⟩ : BufTy).Contents (Elt F)) :
    dstK0 (F := F) e = dstR0 (F := F) e := rfl
theorem dstK1_eq (e : (⟨Cert.KernelIdeal.S3x2x1600000, .i32⟩ : BufTy).Contents (Elt F)) :
    dstK1 (F := F) e = dstR1 (F := F) e := rfl
theorem dstK2_eq (e : (⟨Cert.KernelIdeal.S3x2x1600000, .i32⟩ : BufTy).Contents (Elt F)) :
    dstK2 (F := F) e = dstR2 (F := F) e := rfl
theorem w1K0_eq (w : (⟨Cert.KernelIdeal.S3x256x128, .f32⟩ : BufTy).Contents (Elt F)) :
    w1K0 (F := F) w = w1R0 (F := F) w := rfl
theorem w1K1_eq (w : (⟨Cert.KernelIdeal.S3x256x128, .f32⟩ : BufTy).Contents (Elt F)) :
    w1K1 (F := F) w = w1R1 (F := F) w := rfl
theorem w1K2_eq (w : (⟨Cert.KernelIdeal.S3x256x128, .f32⟩ : BufTy).Contents (Elt F)) :
    w1K2 (F := F) w = w1R2 (F := F) w := rfl
theorem b1K0_eq (b : (⟨Cert.KernelIdeal.S3x128, .f32⟩ : BufTy).Contents (Elt F)) :
    b1K0 (F := F) b = b1R0 (F := F) b := rfl
theorem b1K1_eq (b : (⟨Cert.KernelIdeal.S3x128, .f32⟩ : BufTy).Contents (Elt F)) :
    b1K1 (F := F) b = b1R1 (F := F) b := rfl
theorem b1K2_eq (b : (⟨Cert.KernelIdeal.S3x128, .f32⟩ : BufTy).Contents (Elt F)) :
    b1K2 (F := F) b = b1R2 (F := F) b := rfl
theorem w2K0_eq (w : (⟨Cert.KernelIdeal.S3x128x64, .f32⟩ : BufTy).Contents (Elt F)) :
    w2K0 (F := F) w = w2R0 (F := F) w := rfl
theorem w2K1_eq (w : (⟨Cert.KernelIdeal.S3x128x64, .f32⟩ : BufTy).Contents (Elt F)) :
    w2K1 (F := F) w = w2R1 (F := F) w := rfl
theorem w2K2_eq (w : (⟨Cert.KernelIdeal.S3x128x64, .f32⟩ : BufTy).Contents (Elt F)) :
    w2K2 (F := F) w = w2R2 (F := F) w := rfl
theorem b2K0_eq (b : (⟨Cert.KernelIdeal.S3x64, .f32⟩ : BufTy).Contents (Elt F)) :
    b2K0 (F := F) b = b2R0 (F := F) b := rfl
theorem b2K1_eq (b : (⟨Cert.KernelIdeal.S3x64, .f32⟩ : BufTy).Contents (Elt F)) :
    b2K1 (F := F) b = b2R1 (F := F) b := rfl
theorem b2K2_eq (b : (⟨Cert.KernelIdeal.S3x64, .f32⟩ : BufTy).Contents (Elt F)) :
    b2K2 (F := F) b = b2R2 (F := F) b := rfl

end Pieces

/-! ## The two programs' values -/

/-- THE KERNEL'S ARRANGEMENT OF THE WHOLE NETWORK IS THE REFERENCE'S VALUE, for every six argument arrays of extended
    reals and 32-bit indices. -/
theorem kernel_eq_reference (x0 : (⟨Cert.KernelIdeal.S50000x256, .f32⟩ : BufTy).Contents (Elt Ideal))
    (x1 : (⟨Cert.KernelIdeal.S3x2x1600000, .i32⟩ : BufTy).Contents (Elt Ideal))
    (x2 : (⟨Cert.KernelIdeal.S3x256x128, .f32⟩ : BufTy).Contents (Elt Ideal))
    (x3 : (⟨Cert.KernelIdeal.S3x128, .f32⟩ : BufTy).Contents (Elt Ideal))
    (x4 : (⟨Cert.KernelIdeal.S3x128x64, .f32⟩ : BufTy).Contents (Elt Ideal))
    (x5 : (⟨Cert.KernelIdeal.S3x64, .f32⟩ : BufTy).Contents (Elt Ideal)) :
    outK x0 x1 x2 x3 x4 x5 = Cert.ReferenceIdeal.ReadP.val_main_v320 (F := Ideal) x0 x1 x2 x3 x4 x5 := by
  rw [outK_eq_spec, ref_value, srcK0_eq, srcK1_eq, srcK2_eq, dstK0_eq, dstK1_eq, dstK2_eq, w1K0_eq, w1K1_eq, w1K2_eq, b1K0_eq, b1K1_eq, b1K2_eq, w2K0_eq, w2K1_eq, w2K2_eq, b2K0_eq, b2K1_eq, b2K2_eq]

end Cert.Bridge

end
-- ==== Proof.lean ====
/-
  The certificate of a two-layer graph convolution over three relations, with the symmetric normalisation of each
  relation's adjacency (a self loop added at every node).

  What both programs compute.  For one relation with edges s_e → d_e, let deg n be the number of edges into node n and
  f n the inverse square root of deg n where deg n is positive, zero elsewhere.  The relation sends the node features x
  through its weight matrix W and bias b to the array whose row n is the sum over the edges e into n of
  f (s_e) · f (d_e) · (x · W) (s_e), plus b.  A layer is the sum of its three relations; the first layer's total is
  clamped at zero from below and is the second layer's input.

  The kernel program applies the normalisation half before the gather and half after the segment sum: a tiled
  projection (operands narrowed to sixteen bits, accumulated in thirty-two; at the ideal instance the exact product)
  leaves row n of x · W already scaled by f n, the scaled rows are gathered along the sources and summed into their
  destination rows, and row n of the sums is scaled by f n again.  The reference program multiplies every gathered row
  by the product f (s_e) · f (d_e) of the factors of the edge's two ends, and then sums.  On the extended reals the two
  arrangements are equal because f n lies in [0, ⊤) and a factor in that range distributes over every finite sum; no
  finiteness of the inputs is used.

  The assembly.  The three frames are the generated frame of each kernel program and the reference's run with its result
  forgotten; the idealization rewrote no operation, so what it preserves is the true proposition.  For the value claim
  the common result is the network in the kernel's arrangement, as one function of the kernel's six arguments: the
  kernel's run ends with its result array at that function, and the reference's run ends with its result array at its
  last value of its own arguments, which agree with the kernel's, and the law above identifies the two functions.
-/
import proofs.«133610_j47064251629674_2_alg».proof.Defs
import proofs.«133610_j47064251629674_2_alg».proof.Proof.Gen.Kernel
import proofs.«133610_j47064251629674_2_alg».proof.Proof.Gen.Kernel.Skeleton
import proofs.«133610_j47064251629674_2_alg».proof.Proof.Gen.Kernel.Launch
import proofs.«133610_j47064251629674_2_alg».proof.Proof.Gen.Kernel.Points
import proofs.«133610_j47064251629674_2_alg».proof.Proof.Gen.Kernel.Frame
import proofs.«133610_j47064251629674_2_alg».proof.Proof.Gen.KernelIdeal
import proofs.«133610_j47064251629674_2_alg».proof.Proof.Gen.KernelIdeal.Skeleton
import proofs.«133610_j47064251629674_2_alg».proof.Proof.Gen.KernelIdeal.Launch
import proofs.«133610_j47064251629674_2_alg».proof.Proof.Gen.KernelIdeal.Points
import proofs.«133610_j47064251629674_2_alg».proof.Proof.Gen.KernelIdeal.Frame
import proofs.«133610_j47064251629674_2_alg».proof.Proof.Gen.ReferenceIdeal
import proofs.«133610_j47064251629674_2_alg».proof.Proof.Gen.Pre_finite_inputs
import proofs.«133610_j47064251629674_2_alg».proof.Proof.KernelRun
import proofs.«133610_j47064251629674_2_alg».proof.Proof.KernelValue
import proofs.«133610_j47064251629674_2_alg».proof.Proof.Bridge
import proofs.«133610_j47064251629674_2_alg».proof.Proof.RefRun
import proofs.«133610_j47064251629674_2_alg».proof.Proof.RefReadEq
import Idealize.ShloMosaic.Adequacy
import Idealize.ShloMosaic.Init

noncomputable section

open Idealize.ShloMosaic Idealize.ShloMosaic.TcCoe Idealize.SL.Sem

/-! ## The claims -/

namespace Cert.Proof.Claims

/-- The kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal instance, from memories that agree on the six arguments, both programs run, leave their arguments
    unchanged, and end with one and the same result: the network in the kernel's arrangement, of the kernel's arguments.
    The kernel's result array ends at that function by its valued run; the reference's ends at its last value, of
    arguments equal to the kernel's, and the two functions are equal on the extended reals. -/
theorem algebraic : Cert.algebraic_KernelIdeal_ReferenceIdeal := by
  intro m ρ m' ρ' _ hagree
  refine ⟨fun c => Cert.KernelIdeal.Chain.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.kernel_value m ρ c), (h c).2⟩)
      (Cert.KernelIdeal.RunV.run_valued (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5⟩ := hagree c
    rw [Cert.ReferenceIdeal.ReadP.val_main_v320_eq, a0, a1, a2, a3, a4, a5]
    exact (Cert.Bridge.kernel_eq_reference _ _ _ _ _ _).symm

end Cert.Proof.Claims

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
